-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024 : Shape := ⟨2, ![8, 1024]⟩
abbrev S8x1024x32 : Shape := ⟨3, ![8, 1024, 32]⟩
abbrev S8x1024x32x1 : Shape := ⟨4, ![8, 1024, 32, 1]⟩
abbrev S8x1024x4 : Shape := ⟨3, ![8, 1024, 4]⟩
abbrev S8x1x1 : Shape := ⟨3, ![8, 1, 1]⟩
abbrev S100001x128 : Shape := ⟨2, ![100001, 128]⟩
abbrev S1x256 : Shape := ⟨2, ![1, 256]⟩
abbrev S1 : Shape := ⟨1, ![1]⟩
abbrev S128x133 : Shape := ⟨2, ![128, 133]⟩
abbrev S128 : Shape := ⟨1, ![128]⟩
abbrev S128x128 : Shape := ⟨2, ![128, 128]⟩
abbrev S_ : Shape := ⟨0, ![]⟩

class Facts : Prop where
  bcast_S_S8x1024x32x1 : S_.BroadcastsInDim S8x1024x32x1 (![] : Fin 0 → Fin S8x1024x32x1.rank)
  reducesTo_S8x1024x32x1_S_d0_1_2_3 : S8x1024x32x1.ReducesTo [0, 1, 2, 3] S_
  h_S_ : 0 < S_.numel
  bcast_S_S8x1024x4 : S_.BroadcastsInDim S8x1024x4 (![] : Fin 0 → Fin S8x1024x4.rank)
  reducesTo_S8x1024x4_S_d0_1_2 : S8x1024x4.ReducesTo [0, 1, 2] S_
  bcast_S_S8x1x1 : S_.BroadcastsInDim S8x1x1 (![] : Fin 0 → Fin S8x1x1.rank)
  reducesTo_S8x1x1_S_d0_1_2 : S8x1x1.ReducesTo [0, 1, 2] S_
  bcast_S_S100001x128 : S_.BroadcastsInDim S100001x128 (![] : Fin 0 → Fin S100001x128.rank)
  reducesTo_S100001x128_S_d0_1 : S100001x128.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S128x133 : S_.BroadcastsInDim S128x133 (![] : Fin 0 → Fin S128x133.rank)
  reducesTo_S128x133_S_d0_1 : S128x133.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128 .f32) (main_arg10 : FVec F S128x128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S1x256 .f32) (main_arg7 : FVec F S1 .f32) (main_arg8 : FVec F S128x133 .f32) (main_arg9 : FVec F S128 .f32) (main_arg10 : FVec F S128x128 .f32) (main_arg11 : FVec F S128 .f32) (main_v13 : IVec S_ 1) (main_v16 : IVec S100001x128 1) : IVec S_ 1 :=
  let main_c_5 : IVec S_ 1 := constantI S_ 1 1#1
  let main_v17 : IVec S_ 1 := (fun x v => Host.reduce IntOp.andi x v reducesTo_S100001x128_S_d0_1 h_S_) main_v16 main_c_5
  let main_v18 : IVec S_ 1 := andi main_v13 main_v17
  let main_v19 : FVec F S1x256 .f32 := Host.absf main_arg6
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S128x133 .f32 := Host.absf main_arg8
  let main_cst_10 : FVec F S_ .f32 := constant S_ .f32 0x7F800000#32
  let main_v30 : FVec F S128x133 .f32 := broadcastInDim S128x133 ![] bcast_S_S128x133 main_cst_10
  let main_v31 : IVec S128x133 1 := cmpf .olt main_v29 main_v30
  let main_c_11 : IVec S_ 1 := constantI S_ 1 1#1
  let main_v32 : IVec S_ 1 := (fun x v => Host.reduce IntOp.andi x v reducesTo_S128x133_S_d0_1 h_S_) main_v31 main_c_11
  let main_v33 : IVec S_ 1 := andi main_v28 main_v32
  fn_part2 (F := F) main_arg9 main_arg10 main_arg11 main_v33

def fn {F : FTy → Type} [FloatOps F] (main_arg0 : IVec S8x1024 32) (main_arg1 : IVec S8x1024x32 32) (main_arg2 : FVec F S8x1024x32x1 .f32) (main_arg3 : FVec F S8x1024x4 .f32) (main_arg4 : FVec F S8x1x1 .f32) (main_arg5 : FVec F S100001x128 .f32) (main_arg6 : FVec F S1x256 .f32) (main_arg7 : FVec F S1 .f32) (main_arg8 : FVec F S128x133 .f32) (main_arg9 : FVec F S128 .f32) (main_arg10 : FVec F S128x128 .f32) (main_arg11 : FVec F S128 .f32) : IVec S_ 1 :=
  let main_v0 : FVec F S8x1024x32x1 .f32 := Host.absf main_arg2
  let main_cst : FVec F S_ .f32 := constant S_ .f32 0x7F800000#32
  let main_v1 : FVec F S8x1024x32x1 .f32 := broadcastInDim S8x1024x32x1 ![] bcast_S_S8x1024x32x1 main_cst
  let main_v2 : IVec S8x1024x32x1 1 := cmpf .olt main_v0 main_v1
  let main_c : IVec S_ 1 := constantI S_ 1 1#1
  let main_v3 : IVec S_ 1 := (fun x v => Host.reduce IntOp.andi x v reducesTo_S8x1024x32x1_S_d0_1_2_3 h_S_) main_v2 main_c
  let main_v4 : FVec F S8x1024x4 .f32 := Host.absf main_arg3
  let main_cst_0 : FVec F S_ .f32 := constant S_ .f32 0x7F800000#32
  let main_v5 : FVec F S8x1024x4 .f32 := broadcastInDim S8x1024x4 ![] bcast_S_S8x1024x4 main_cst_0
  let main_v6 : IVec S8x1024x4 1 := cmpf .olt main_v4 main_v5
  let main_c_1 : IVec S_ 1 := constantI S_ 1 1#1
  let main_v7 : IVec S_ 1 := (fun x v => Host.reduce IntOp.andi x v reducesTo_S8x1024x4_S_d0_1_2 h_S_) main_v6 main_c_1
  let main_v8 : IVec S_ 1 := andi main_v3 main_v7
  let main_v9 : FVec F S8x1x1 .f32 := Host.absf main_arg4
  let main_cst_2 : FVec F S_ .f32 := constant S_ .f32 0x7F800000#32
  let main_v10 : FVec F S8x1x1 .f32 := broadcastInDim S8x1x1 ![] bcast_S_S8x1x1 main_cst_2
  let main_v11 : IVec S8x1x1 1 := cmpf .olt main_v9 main_v10
  let main_c_3 : IVec S_ 1 := constantI S_ 1 1#1
  let main_v12 : IVec S_ 1 := (fun x v => Host.reduce IntOp.andi x v reducesTo_S8x1x1_S_d0_1_2 h_S_) main_v11 main_c_3
  let main_v13 : IVec S_ 1 := andi main_v8 main_v12
  let main_v14 : FVec F S100001x128 .f32 := Host.absf main_arg5
  let main_cst_4 : FVec F S_ .f32 := constant S_ .f32 0x7F800000#32
  let main_v15 : FVec F S100001x128 .f32 := broadcastInDim S100001x128 ![] bcast_S_S100001x128 main_cst_4
  let main_v16 : IVec S100001x128 1 := cmpf .olt main_v14 main_v15
  fn_part1 (F := F) main_arg6 main_arg7 main_arg8 main_arg9 main_arg10 main_arg11 main_v13 main_v16
-- ==== Kernel.lean ====
abbrev S8x1024 : Shape := ⟨2, ![8, 1024]⟩
abbrev S8x1024x32 : Shape := ⟨3, ![8, 1024, 32]⟩
abbrev S8x1024x32x1 : Shape := ⟨4, ![8, 1024, 32, 1]⟩
abbrev S8x1024x4 : Shape := ⟨3, ![8, 1024, 4]⟩
abbrev S8x1x1 : Shape := ⟨3, ![8, 1, 1]⟩
abbrev S100001x128 : Shape := ⟨2, ![100001, 128]⟩
abbrev S1x256 : Shape := ⟨2, ![1, 256]⟩
abbrev S1 : Shape := ⟨1, ![1]⟩
abbrev S128x133 : Shape := ⟨2, ![128, 133]⟩
abbrev S128 : Shape := ⟨1, ![128]⟩
abbrev S128x128 : Shape := ⟨2, ![128, 128]⟩
abbrev S_ : Shape := ⟨0, ![]⟩
abbrev S8x1024x1 : Shape := ⟨3, ![8, 1024, 1]⟩
abbrev S8x1024x128 : Shape := ⟨3, ![8, 1024, 128]⟩
abbrev S8x1024x1x128 : Shape := ⟨4, ![8, 1024, 1, 128]⟩
abbrev S8x1024x32x128 : Shape := ⟨4, ![8, 1024, 32, 128]⟩
abbrev S8x1024x33x128 : Shape := ⟨4, ![8, 1024, 33, 128]⟩
abbrev S1x512x33x128 : Shape := ⟨4, ![1, 512, 33, 128]⟩
abbrev S1x512x32x1 : Shape := ⟨4, ![1, 512, 32, 1]⟩
abbrev S1x512x4 : Shape := ⟨3, ![1, 512, 4]⟩
abbrev S1x512x1 : Shape := ⟨3, ![1, 512, 1]⟩
abbrev S1x512x128 : Shape := ⟨3, ![1, 512, 128]⟩
abbrev S512x33x128 : Shape := ⟨3, ![512, 33, 128]⟩
abbrev S512x32x1 : Shape := ⟨3, ![512, 32, 1]⟩
abbrev S512x4 : Shape := ⟨2, ![512, 4]⟩
abbrev S512x1 : Shape := ⟨2, ![512, 1]⟩
abbrev S1x128 : Shape := ⟨2, ![1, 128]⟩
abbrev S1x1x128 : Shape := ⟨3, ![1, 1, 128]⟩
abbrev S512x1x128 : Shape := ⟨3, ![512, 1, 128]⟩
abbrev S512x1x1 : Shape := ⟨3, ![512, 1, 1]⟩
abbrev S512x33 : Shape := ⟨2, ![512, 33]⟩
abbrev S512x33x1 : Shape := ⟨3, ![512, 33, 1]⟩
abbrev S1x1x1 : Shape := ⟨3, ![1, 1, 1]⟩
abbrev S512x128 : Shape := ⟨2, ![512, 128]⟩
abbrev S512x133 : Shape := ⟨2, ![512, 133]⟩
abbrev S133x128 : Shape := ⟨2, ![133, 128]⟩

abbrev nBuf : Space → Nat
  | .hbm => 34
  | .vmem => 16
  | .smem => 0
  | _ => 0

abbrev bufTy : (tb : Table) → Fin (tcTables nBuf tb) → BufTy
  | .hbm, ⟨0, _⟩ => ⟨S8x1024, .i32⟩
  | .hbm, ⟨1, _⟩ => ⟨S8x1024x32, .i32⟩
  | .hbm, ⟨2, _⟩ => ⟨S8x1024x32x1, .f32⟩
  | .hbm, ⟨3, _⟩ => ⟨S8x1024x4, .f32⟩
  | .hbm, ⟨4, _⟩ => ⟨S8x1x1, .f32⟩
  | .hbm, ⟨5, _⟩ => ⟨S100001x128, .f32⟩
  | .hbm, ⟨6, _⟩ => ⟨S1x256, .f32⟩
  | .hbm, ⟨7, _⟩ => ⟨S1, .f32⟩
  | .hbm, ⟨8, _⟩ => ⟨S128x133, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S_, .i32⟩
  | .hbm, ⟨13, _⟩ => ⟨S8x1024, .i32⟩
  | .hbm, ⟨14, _⟩ => ⟨S8x1024, .i1⟩
  | .hbm, ⟨15, _⟩ => ⟨S_, .i32⟩
  | .hbm, ⟨16, _⟩ => ⟨S8x1024, .i32⟩
  | .hbm, ⟨17, _⟩ => ⟨S8x1024, .i32⟩
  | .hbm, ⟨18, _⟩ => ⟨S8x1024, .i32⟩
  | .hbm, ⟨19, _⟩ => ⟨S8x1024x1, .i32⟩
  | .hbm, ⟨20, _⟩ => ⟨S8x1024x128, .f32⟩
  | .hbm, ⟨21, _⟩ => ⟨S8x1024x1x128, .f32⟩
  | .hbm, ⟨22, _⟩ => ⟨S_, .i32⟩
  | .hbm, ⟨23, _⟩ => ⟨S8x1024x32, .i32⟩
  | .hbm, ⟨24, _⟩ => ⟨S8x1024x32, .i1⟩
  | .hbm, ⟨25, _⟩ => ⟨S_, .i32⟩
  | .hbm, ⟨26, _⟩ => ⟨S8x1024x32, .i32⟩
  | .hbm, ⟨27, _⟩ => ⟨S8x1024x32, .i32⟩
  | .hbm, ⟨28, _⟩ => ⟨S8x1024x32, .i32⟩
  | .hbm, ⟨29, _⟩ => ⟨S8x1024x32x1, .i32⟩
  | .hbm, ⟨30, _⟩ => ⟨S8x1024x32x128, .f32⟩
  | .hbm, ⟨31, _⟩ => ⟨S8x1024x33x128, .f32⟩
  | .hbm, ⟨32, _⟩ => ⟨S8x1024x1, .f32⟩
  | .hbm, ⟨33, _⟩ => ⟨S8x1024x128, .f32⟩
  | .local _ .vmem, ⟨0, _⟩ => ⟨S1x512x33x128, .f32⟩
  | .local _ .vmem, ⟨1, _⟩ => ⟨S1x512x33x128, .f32⟩
  | .local _ .vmem, ⟨2, _⟩ => ⟨S1x512x32x1, .f32⟩
  | .local _ .vmem, ⟨3, _⟩ => ⟨S1x512x32x1, .f32⟩
  | .local _ .vmem, ⟨4, _⟩ => ⟨S1x512x4, .f32⟩
  | .local _ .vmem, ⟨5, _⟩ => ⟨S1x512x4, .f32⟩
  | .local _ .vmem, ⟨6, _⟩ => ⟨S1x512x1, .f32⟩
  | .local _ .vmem, ⟨7, _⟩ => ⟨S1x512x1, .f32⟩
  | .local _ .vmem, ⟨8, _⟩ => ⟨S1x256, .f32⟩
  | .local _ .vmem, ⟨9, _⟩ => ⟨S1, .f32⟩
  | .local _ .vmem, ⟨10, _⟩ => ⟨S128x133, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S1x512x128, .f32⟩
  | .local _ .vmem, ⟨15, _⟩ => ⟨S1x512x128, .f32⟩
  | _, _ => ⟨S8x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x33x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x133 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x128_S8x1024x1x128_0_1_3 : S8x1024x128.BroadcastsInDim S8x1024x1x128 (![0, 1, 3] : Fin 3 → Fin S8x1024x1x128.rank)
  bcast_S_S8x1024x32 : S_.BroadcastsInDim S8x1024x32 (![] : Fin 0 → Fin S8x1024x32.rank)
  bcast_S8x1024x32_S8x1024x32x1_0_1_2 : S8x1024x32.BroadcastsInDim S8x1024x32x1 (![0, 1, 2] : Fin 3 → Fin S8x1024x32x1.rank)
  concatenates_S8x1024x1x128_S8x1024x32x128_S8x1024x33x128_d2 : Shape.Concatenates [S8x1024x1x128, S8x1024x32x128] S8x1024x33x128 2
  bcast_S8x1x1_S8x1024x1_0_1_2 : S8x1x1.BroadcastsInDim S8x1024x1 (![0, 1, 2] : Fin 3 → Fin S8x1024x1.rank)
  inb_S1x512x33x128_S1x512x33x128_0_0_0_0 : ∀ a, (![0, 0, 0, 0] : Fin 4 → Nat) a + S1x512x33x128.size a ≤ S1x512x33x128.size a
  h_S1x512x33x128 : 0 < S1x512x33x128.numel
  shapeCasts_S1x512x33x128_S512x33x128 : S1x512x33x128.ShapeCasts S512x33x128
  inb_S1x512x32x1_S1x512x32x1_0_0_0_0 : ∀ a, (![0, 0, 0, 0] : Fin 4 → Nat) a + S1x512x32x1.size a ≤ S1x512x32x1.size a
  h_S1x512x32x1 : 0 < S1x512x32x1.numel
  shapeCasts_S1x512x32x1_S512x32x1 : S1x512x32x1.ShapeCasts S512x32x1
  inb_S1x512x4_S1x512x4_0_0_0 : ∀ a, (![0, 0, 0] : Fin 3 → Nat) a + S1x512x4.size a ≤ S1x512x4.size a
  h_S1x512x4 : 0 < S1x512x4.numel
  shapeCasts_S1x512x4_S512x4 : S1x512x4.ShapeCasts S512x4
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x256_S1x256_0_0 : ∀ a, (![0, 0] : Fin 2 → Nat) a + S1x256.size a ≤ S1x256.size a
  h_S1x256 : 0 < S1x256.numel
  inb_S1_S1_0 : ∀ a, (![0] : Fin 1 → Nat) a + S1.size a ≤ S1.size a
  h_S1 : 0 < S1.numel
  inb_S128x133_S128x133_0_0 : ∀ a, (![0, 0] : Fin 2 → Nat) a + S128x133.size a ≤ S128x133.size a
  h_S128x133 : 0 < S128x133.numel
  inb_S128_S128_0 : ∀ a, (![0] : Fin 1 → Nat) a + S128.size a ≤ S128.size a
  h_S128 : 0 < S128.numel
  inb_S128x128_S128x128_0_0 : ∀ a, (![0, 0] : Fin 2 → Nat) a + S128x128.size a ≤ S128x128.size a
  h_S128x128 : 0 < S128x128.numel
  slices_S1x256_o0_0_S1x128 : S1x256.Slices ![0, 0] S1x128
  shapeCasts_S1x128_S1x1x128 : S1x128.ShapeCasts S1x1x128
  slices_S1x256_o0_128_S1x128 : S1x256.Slices ![0, 128] S1x128
  slices_S512x33x128_o0_0_0_S512x1x128 : S512x33x128.Slices ![0, 0, 0] S512x1x128
  broadcasts_S1x1x128_S512x1x128 : S1x1x128.Broadcasts S512x1x128
  reduces_S512x1x128_S512x1 : S512x1x128.Reduces [2] S512x1
  shapeCasts_S512x1_S512x1x1 : S512x1.ShapeCasts S512x1x1
  broadcasts_S1x1x128_S512x33x128 : S1x1x128.Broadcasts S512x33x128
  reduces_S512x33x128_S512x33 : S512x33x128.Reduces [2] S512x33
  shapeCasts_S512x33_S512x33x1 : S512x33.ShapeCasts S512x33x1
  broadcasts_S512x1x1_S512x33x1 : S512x1x1.Broadcasts S512x33x1
  shapeCasts_S1_S1x1x1 : S1.ShapeCasts S1x1x1
  broadcasts_S1x1x1_S512x33x1 : S1x1x1.Broadcasts S512x33x1
  slices_S512x33x1_o0_1_0_S512x32x1 : S512x33x1.Slices ![0, 1, 0] S512x32x1
  slices_S512x33x1_o0_0_0_S512x1x1 : S512x33x1.Slices ![0, 0, 0] S512x1x1
  concatenates_S512x1x1_S512x32x1_S512x33x1_d1 : Shape.Concatenates [S512x1x1, S512x32x1] S512x33x1 1
  reduces_S512x33x1_S512x1 : S512x33x1.Reduces [1] S512x1
  broadcasts_S512x33x1_S512x33x128 : S512x33x1.Broadcasts S512x33x128
  reduces_S512x33x128_S512x128 : S512x33x128.Reduces [1] S512x128
  concatenates_S512x128_S512x4_S512x1_S512x133_d1 : Shape.Concatenates [S512x128, S512x4, S512x1] S512x133 1
  bitsLt_bf16_f32 : FTy.bits .bf16 < FTy.bits .f32
  transposes_S128x133_p1_0_S133x128 : S128x133.Transposes [1, 0] S133x128
  shapeCasts_S128_S1x128 : S128.ShapeCasts S1x128
  broadcasts_S1x128_S512x128 : S1x128.Broadcasts S512x128
  transposes_S128x128_p1_0_S128x128 : S128x128.Transposes [1, 0] S128x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  gather_S100001x128_S8x1024x1_S8x1024x128_2_0_n_n_0_2_1128_wf : GatherDims.WF S100001x128 S8x1024x1 S8x1024x128 [2] [0] [] [0] [] 2 ![1, 128]
  gather_S100001x128_S8x1024x32x1_S8x1024x32x128_3_0_n_n_0_3_1128_wf : GatherDims.WF S100001x128 S8x1024x32x1 S8x1024x32x128 [3] [0] [] [0] [] 3 ![1, 128]
  dot_S512x133_S133x128_S512x128_1_0_0_1_n_n_wf : DotDims.WF S512x133 S133x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x33x128.size a ≤ S8x1024x33x128.size a
  hwx0_0 : ∀ i : grid0.Coords, EltTy.bits .f32 = 32 ∨ (Rect.block (s := S8x1024x33x128) S1x512x33x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x32x1.size a ≤ S8x1024x32x1.size a
  hwx0_1 : ∀ i : grid0.Coords, EltTy.bits .f32 = 32 ∨ (Rect.block (s := S8x1024x32x1) S1x512x32x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x4.size a ≤ S8x1024x4.size a
  hwx0_2 : ∀ i : grid0.Coords, EltTy.bits .f32 = 32 ∨ (Rect.block (s := S8x1024x4) S1x512x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S8x1024x1.size a
  hwx0_3 : ∀ i : grid0.Coords, EltTy.bits .f32 = 32 ∨ (Rect.block (s := S8x1024x1) S1x512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x133.size a ≤ S128x133.size a
  hwx0_6 : ∀ i : grid0.Coords, EltTy.bits .f32 = 32 ∨ (Rect.block (s := S128x133) S128x133.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x128.size a ≤ S8x1024x128.size a
  hwx0_10 : ∀ i : grid0.Coords, EltTy.bits .f32 = 32 ∨ (Rect.block (s := S8x1024x128) S1x512x128.size (cc0_transform_10 i) (hinb0_10 i)).WholeWords (EltTy.packing .f32)

variable [Facts₀]

def gather_S100001x128_S8x1024x1_S8x1024x128_2_0_n_n_0_2_1128 : GatherDims S100001x128 S8x1024x1 S8x1024x128 where
  offsetDims := [2]
  collapsedSliceDims := [0]
  operandBatchingDims := []
  startIndicesBatchingDims := []
  startIndexMap := [0]
  indexVectorDim := 2
  sliceSizes := ![1, 128]
  wf := gather_S100001x128_S8x1024x1_S8x1024x128_2_0_n_n_0_2_1128_wf
def gather_S100001x128_S8x1024x32x1_S8x1024x32x128_3_0_n_n_0_3_1128 : GatherDims S100001x128 S8x1024x32x1 S8x1024x32x128 where
  offsetDims := [3]
  collapsedSliceDims := [0]
  operandBatchingDims := []
  startIndicesBatchingDims := []
  startIndexMap := [0]
  indexVectorDim := 3
  sliceSizes := ![1, 128]
  wf := gather_S100001x128_S8x1024x32x1_S8x1024x32x128_3_0_n_n_0_3_1128_wf
def dot_S512x133_S133x128_S512x128_1_0_0_1_n_n : DotDims S512x133 S133x128 S512x128 where
  lhsContracting := [1]
  rhsContracting := [0]
  lhsNonContracting := [0]
  rhsNonContracting := [1]
  lhsBatch := []
  rhsBatch := []
  wf := dot_S512x133_S133x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_v15) S1x512x33x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x512x32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x512x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128x133.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S1x512x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8x1024 : Shape := ⟨2, ![8, 1024]⟩
abbrev S8x1024x32 : Shape := ⟨3, ![8, 1024, 32]⟩
abbrev S8x1024x32x1 : Shape := ⟨4, ![8, 1024, 32, 1]⟩
abbrev S8x1024x4 : Shape := ⟨3, ![8, 1024, 4]⟩
abbrev S8x1x1 : Shape := ⟨3, ![8, 1, 1]⟩
abbrev S100001x128 : Shape := ⟨2, ![100001, 128]⟩
abbrev S1x256 : Shape := ⟨2, ![1, 256]⟩
abbrev S1 : Shape := ⟨1, ![1]⟩
abbrev S128x133 : Shape := ⟨2, ![128, 133]⟩
abbrev S128 : Shape := ⟨1, ![128]⟩
abbrev S128x128 : Shape := ⟨2, ![128, 128]⟩
abbrev S_ : Shape := ⟨0, ![]⟩
abbrev S8x1024x1 : Shape := ⟨3, ![8, 1024, 1]⟩
abbrev S8x1024x128 : Shape := ⟨3, ![8, 1024, 128]⟩
abbrev S8x1024x1x128 : Shape := ⟨4, ![8, 1024, 1, 128]⟩
abbrev S8x1024x32x128 : Shape := ⟨4, ![8, 1024, 32, 128]⟩
abbrev S8x1024x33x128 : Shape := ⟨4, ![8, 1024, 33, 128]⟩
abbrev S8x1024x33x256 : Shape := ⟨4, ![8, 1024, 33, 256]⟩
abbrev S8x1024x33x1 : Shape := ⟨4, ![8, 1024, 33, 1]⟩
abbrev S1x1x1x1 : Shape := ⟨4, ![1, 1, 1, 1]⟩
abbrev S8x1024x1x1 : Shape := ⟨4, ![8, 1024, 1, 1]⟩
abbrev S8x1024x133 : Shape := ⟨3, ![8, 1024, 133]⟩
abbrev S1x1x128 : Shape := ⟨3, ![1, 1, 128]⟩

abbrev nBuf : Space → Nat
  | .hbm => 96
  | .vmem => 0
  | .smem => 0
  | _ => 0

abbrev bufTy : (tb : Table) → Fin (tcTables nBuf tb) → BufTy
  | .hbm, ⟨0, _⟩ => ⟨S8x1024, .i32⟩
  | .hbm, ⟨1, _⟩ => ⟨S8x1024x32, .i32⟩
  | .hbm, ⟨2, _⟩ => ⟨S8x1024x32x1, .f32⟩
  | .hbm, ⟨3, _⟩ => ⟨S8x1024x4, .f32⟩
  | .hbm, ⟨4, _⟩ => ⟨S8x1x1, .f32⟩
  | .hbm, ⟨5, _⟩ => ⟨S100001x128, .f32⟩
  | .hbm, ⟨6, _⟩ => ⟨S1x256, .f32⟩
  | .hbm, ⟨7, _⟩ => ⟨S1, .f32⟩
  | .hbm, ⟨8, _⟩ => ⟨S128x133, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S_, .i32⟩
  | .hbm, ⟨13, _⟩ => ⟨S8x1024, .i32⟩
  | .hbm, ⟨14, _⟩ => ⟨S8x1024, .i1⟩
  | .hbm, ⟨15, _⟩ => ⟨S_, .i32⟩
  | .hbm, ⟨16, _⟩ => ⟨S8x1024, .i32⟩
  | .hbm, ⟨17, _⟩ => ⟨S8x1024, .i32⟩
  | .hbm, ⟨18, _⟩ => ⟨S8x1024, .i32⟩
  | .hbm, ⟨19, _⟩ => ⟨S8x1024x1, .i32⟩
  | .hbm, ⟨20, _⟩ => ⟨S8x1024x128, .f32⟩
  | .hbm, ⟨21, _⟩ => ⟨S8x1024x1x128, .f32⟩
  | .hbm, ⟨22, _⟩ => ⟨S_, .i32⟩
  | .hbm, ⟨23, _⟩ => ⟨S8x1024x32, .i32⟩
  | .hbm, ⟨24, _⟩ => ⟨S8x1024x32, .i1⟩
  | .hbm, ⟨25, _⟩ => ⟨S_, .i32⟩
  | .hbm, ⟨26, _⟩ => ⟨S8x1024x32, .i32⟩
  | .hbm, ⟨27, _⟩ => ⟨S8x1024x32, .i32⟩
  | .hbm, ⟨28, _⟩ => ⟨S8x1024x32, .i32⟩
  | .hbm, ⟨29, _⟩ => ⟨S8x1024x32x1, .i32⟩
  | .hbm, ⟨30, _⟩ => ⟨S8x1024x32x128, .f32⟩
  | .hbm, ⟨31, _⟩ => ⟨S8x1024x33x128, .f32⟩
  | .hbm, ⟨32, _⟩ => ⟨S8x1024x33x128, .f32⟩
  | .hbm, ⟨33, _⟩ => ⟨S8x1024x33x256, .f32⟩
  | .hbm, ⟨34, _⟩ => ⟨S8x1024x33x1, .f32⟩
  | .hbm, ⟨35, _⟩ => ⟨S1x1x1x1, .f32⟩
  | .hbm, ⟨36, _⟩ => ⟨S8x1024x33x1, .f32⟩
  | .hbm, ⟨37, _⟩ => ⟨S8x1024x33x1, .f32⟩
  | .hbm, ⟨38, _⟩ => ⟨S_, .f32⟩
  | .hbm, ⟨39, _⟩ => ⟨S_, .f32⟩
  | .hbm, ⟨40, _⟩ => ⟨S8x1024x33x1, .f32⟩
  | .hbm, ⟨41, _⟩ => ⟨S8x1024x33x1, .i1⟩
  | .hbm, ⟨42, _⟩ => ⟨S_, .f32⟩
  | .hbm, ⟨43, _⟩ => ⟨S8x1024x33x1, .f32⟩
  | .hbm, ⟨44, _⟩ => ⟨S8x1024x33x1, .f32⟩
  | .hbm, ⟨45, _⟩ => ⟨S8x1024x33x1, .f32⟩
  | .hbm, ⟨46, _⟩ => ⟨S_, .f32⟩
  | .hbm, ⟨47, _⟩ => ⟨S8x1024x32x1, .f32⟩
  | .hbm, ⟨48, _⟩ => ⟨S8x1024x32x1, .f32⟩
  | .hbm, ⟨49, _⟩ => ⟨S_, .i32⟩
  | .hbm, ⟨50, _⟩ => ⟨S1, .i32⟩
  | .hbm, ⟨51, _⟩ => ⟨S8x1024x33x1, .f32⟩
  | .hbm, ⟨52, _⟩ => ⟨S_, .f32⟩
  | .hbm, ⟨53, _⟩ => ⟨S8x1024x1, .f32⟩
  | .hbm, ⟨54, _⟩ => ⟨S_, .f32⟩
  | .hbm, ⟨55, _⟩ => ⟨S8x1024x1, .f32⟩
  | .hbm, ⟨56, _⟩ => ⟨S8x1024x1, .f32⟩
  | .hbm, ⟨57, _⟩ => ⟨S8x1024x1x1, .f32⟩
  | .hbm, ⟨58, _⟩ => ⟨S8x1024x33x1, .f32⟩
  | .hbm, ⟨59, _⟩ => ⟨S8x1024x33x1, .f32⟩
  | .hbm, ⟨60, _⟩ => ⟨S8x1024x33x1, .f32⟩
  | .hbm, ⟨61, _⟩ => ⟨S_, .f32⟩
  | .hbm, ⟨62, _⟩ => ⟨S8x1024x1, .f32⟩
  | .hbm, ⟨63, _⟩ => ⟨S8x1024x1x1, .f32⟩
  | .hbm, ⟨64, _⟩ => ⟨S8x1024x33x1, .f32⟩
  | .hbm, ⟨65, _⟩ => ⟨S8x1024x33x1, .f32⟩
  | .hbm, ⟨66, _⟩ => ⟨S8x1024x33x128, .f32⟩
  | .hbm, ⟨67, _⟩ => ⟨S8x1024x33x128, .f32⟩
  | .hbm, ⟨68, _⟩ => ⟨S_, .f32⟩
  | .hbm, ⟨69, _⟩ => ⟨S8x1024x128, .f32⟩
  | .hbm, ⟨70, _⟩ => ⟨S8x1024x1, .f32⟩
  | .hbm, ⟨71, _⟩ => ⟨S8x1024x133, .f32⟩
  | .hbm, ⟨72, _⟩ => ⟨S8x1024x128, .f32⟩
  | .hbm, ⟨73, _⟩ => ⟨S1x1x128, .f32⟩
  | .hbm, ⟨74, _⟩ => ⟨S8x1024x128, .f32⟩
  | .hbm, ⟨75, _⟩ => ⟨S8x1024x128, .f32⟩
  | .hbm, ⟨76, _⟩ => ⟨S_, .f32⟩
  | .hbm, ⟨77, _⟩ => ⟨S_, .f32⟩
  | .hbm, ⟨78, _⟩ => ⟨S8x1024x128, .f32⟩
  | .hbm, ⟨79, _⟩ => ⟨S8x1024x128, .i1⟩
  | .hbm, ⟨80, _⟩ => ⟨S_, .f32⟩
  | .hbm, ⟨81, _⟩ => ⟨S8x1024x128, .f32⟩
  | .hbm, ⟨82, _⟩ => ⟨S8x1024x128, .f32⟩
  | .hbm, ⟨83, _⟩ => ⟨S8x1024x128, .f32⟩
  | .hbm, ⟨84, _⟩ => ⟨S8x1024x128, .f32⟩
  | .hbm, ⟨85, _⟩ => ⟨S1x1x128, .f32⟩
  | .hbm, ⟨86, _⟩ => ⟨S8x1024x128, .f32⟩
  | .hbm, ⟨87, _⟩ => ⟨S8x1024x128, .f32⟩
  | .hbm, ⟨88, _⟩ => ⟨S_, .f32⟩
  | .hbm, ⟨89, _⟩ => ⟨S_, .f32⟩
  | .hbm, ⟨90, _⟩ => ⟨S8x1024x128, .f32⟩
  | .hbm, ⟨91, _⟩ => ⟨S8x1024x128, .i1⟩
  | .hbm, ⟨92, _⟩ => ⟨S_, .f32⟩
  | .hbm, ⟨93, _⟩ => ⟨S8x1024x128, .f32⟩
  | .hbm, ⟨94, _⟩ => ⟨S8x1024x128, .f32⟩
  | .hbm, ⟨95, _⟩ => ⟨S8x1024x128, .f32⟩
  | _, _ => ⟨S8x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_c_4 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_cst_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_9 : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_10 : Ref sig .tc := ⟨.hbm, 88, rfl⟩
abbrev main_call2_cst : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_v52 : Ref sig .tc := ⟨.hbm, 95, rfl⟩

abbrev nD : Nat := 1
abbrev τ : Topo := Topo.v7x

variable {F : FTy → Type} [FloatOps F]

class Facts₀ : Prop where
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x128_S8x1024x1x128_0_1_3 : S8x1024x128.BroadcastsInDim S8x1024x1x128 (![0, 1, 3] : Fin 3 → Fin S8x1024x1x128.rank)
  bcast_S_S8x1024x32 : S_.BroadcastsInDim S8x1024x32 (![] : Fin 0 → Fin S8x1024x32.rank)
  bcast_S8x1024x32_S8x1024x32x1_0_1_2 : S8x1024x32.BroadcastsInDim S8x1024x32x1 (![0, 1, 2] : Fin 3 → Fin S8x1024x32x1.rank)
  concatenates_S8x1024x1x128_S8x1024x32x128_S8x1024x33x128_d2 : Shape.Concatenates [S8x1024x1x128, S8x1024x32x128] S8x1024x33x128 2
  bcast_S8x1024x1x128_S8x1024x33x128_0_1_2_3 : S8x1024x1x128.BroadcastsInDim S8x1024x33x128 (![0, 1, 2, 3] : Fin 4 → Fin S8x1024x33x128.rank)
  concatenates_S8x1024x33x128_S8x1024x33x128_S8x1024x33x256_d3 : Shape.Concatenates [S8x1024x33x128, S8x1024x33x128] S8x1024x33x256 3
  bcast_S1_S1x1x1x1_3 : S1.BroadcastsInDim S1x1x1x1 (![3] : Fin 1 → Fin S1x1x1x1.rank)
  bcast_S1x1x1x1_S8x1024x33x1_0_1_2_3 : S1x1x1x1.BroadcastsInDim S8x1024x33x1 (![0, 1, 2, 3] : Fin 4 → Fin S8x1024x33x1.rank)
  bcast_S_S8x1024x33x1 : S_.BroadcastsInDim S8x1024x33x1 (![] : Fin 0 → Fin S8x1024x33x1.rank)
  bcast_S_S8x1024x32x1 : S_.BroadcastsInDim S8x1024x32x1 (![] : Fin 0 → Fin S8x1024x32x1.rank)
  bcast_S_S1 : S_.BroadcastsInDim S1 (![] : Fin 0 → Fin S1.rank)
  reducesTo_S8x1024x33x1_S8x1024x1_d2 : S8x1024x33x1.ReducesTo [2] S8x1024x1
  h_S_ : 0 < S_.numel
  bcast_S_S8x1024x1 : S_.BroadcastsInDim S8x1024x1 (![] : Fin 0 → Fin S8x1024x1.rank)
  bcast_S8x1024x1_S8x1024x1x1_0_1_3 : S8x1024x1.BroadcastsInDim S8x1024x1x1 (![0, 1, 3] : Fin 3 → Fin S8x1024x1x1.rank)
  bcast_S8x1024x1x1_S8x1024x33x1_0_1_2_3 : S8x1024x1x1.BroadcastsInDim S8x1024x33x1 (![0, 1, 2, 3] : Fin 4 → Fin S8x1024x33x1.rank)
  bcast_S8x1024x33x1_S8x1024x33x128_0_1_2_3 : S8x1024x33x1.BroadcastsInDim S8x1024x33x128 (![0, 1, 2, 3] : Fin 4 → Fin S8x1024x33x128.rank)
  reducesTo_S8x1024x33x128_S8x1024x128_d2 : S8x1024x33x128.ReducesTo [2] S8x1024x128
  bcast_S8x1x1_S8x1024x1_0_1_2 : S8x1x1.BroadcastsInDim S8x1024x1 (![0, 1, 2] : Fin 3 → Fin S8x1024x1.rank)
  concatenates_S8x1024x128_S8x1024x4_S8x1024x1_S8x1024x133_d2 : Shape.Concatenates [S8x1024x128, S8x1024x4, S8x1024x1] S8x1024x133 2
  bcast_S128_S1x1x128_2 : S128.BroadcastsInDim S1x1x128 (![2] : Fin 1 → Fin S1x1x128.rank)
  bcast_S1x1x128_S8x1024x128_0_1_2 : S1x1x128.BroadcastsInDim S8x1024x128 (![0, 1, 2] : Fin 3 → Fin S8x1024x128.rank)
  bcast_S_S8x1024x128 : S_.BroadcastsInDim S8x1024x128 (![] : Fin 0 → Fin S8x1024x128.rank)
  gather_S100001x128_S8x1024x1_S8x1024x128_2_0_n_n_0_2_1128_wf : GatherDims.WF S100001x128 S8x1024x1 S8x1024x128 [2] [0] [] [0] [] 2 ![1, 128]
  gather_S100001x128_S8x1024x32x1_S8x1024x32x128_3_0_n_n_0_3_1128_wf : GatherDims.WF S100001x128 S8x1024x32x1 S8x1024x32x128 [3] [0] [] [0] [] 3 ![1, 128]
  dot_S8x1024x33x256_S1x256_S8x1024x33x1_3_1_012_0_n_n_wf : DotDims.WF S8x1024x33x256 S1x256 S8x1024x33x1 [3] [1] [0, 1, 2] [0] [] []
  scatter_S8x1024x33x1_S1_S8x1024x32x1_0123_n_2_0_wf : ScatterDims.WF S8x1024x33x1 S1 S8x1024x32x1 [0, 1, 2, 3] [] [2] 0
  dot_S8x1024x133_S128x133_S8x1024x128_2_1_01_0_n_n_wf : DotDims.WF S8x1024x133 S128x133 S8x1024x128 [2] [1] [0, 1] [0] [] []
  dot_S8x1024x128_S128x128_S8x1024x128_2_1_01_0_n_n_wf : DotDims.WF S8x1024x128 S128x128 S8x1024x128 [2] [1] [0, 1] [0] [] []

variable [Facts₀]

def gather_S100001x128_S8x1024x1_S8x1024x128_2_0_n_n_0_2_1128 : GatherDims S100001x128 S8x1024x1 S8x1024x128 where
  offsetDims := [2]
  collapsedSliceDims := [0]
  operandBatchingDims := []
  startIndicesBatchingDims := []
  startIndexMap := [0]
  indexVectorDim := 2
  sliceSizes := ![1, 128]
  wf := gather_S100001x128_S8x1024x1_S8x1024x128_2_0_n_n_0_2_1128_wf
def gather_S100001x128_S8x1024x32x1_S8x1024x32x128_3_0_n_n_0_3_1128 : GatherDims S100001x128 S8x1024x32x1 S8x1024x32x128 where
  offsetDims := [3]
  collapsedSliceDims := [0]
  operandBatchingDims := []
  startIndicesBatchingDims := []
  startIndexMap := [0]
  indexVectorDim := 3
  sliceSizes := ![1, 128]
  wf := gather_S100001x128_S8x1024x32x1_S8x1024x32x128_3_0_n_n_0_3_1128_wf
def dot_S8x1024x33x256_S1x256_S8x1024x33x1_3_1_012_0_n_n : DotDims S8x1024x33x256 S1x256 S8x1024x33x1 where
  lhsContracting := [3]
  rhsContracting := [1]
  lhsNonContracting := [0, 1, 2]
  rhsNonContracting := [0]
  lhsBatch := []
  rhsBatch := []
  wf := dot_S8x1024x33x256_S1x256_S8x1024x33x1_3_1_012_0_n_n_wf
def scatter_S8x1024x33x1_S1_S8x1024x32x1_0123_n_2_0 : ScatterDims S8x1024x33x1 S1 S8x1024x32x1 where
  updateWindowDims := [0, 1, 2, 3]
  insertedWindowDims := []
  scatterDimsToOperandDims := [2]
  indexVectorDim := 0
  wf := scatter_S8x1024x33x1_S1_S8x1024x32x1_0123_n_2_0_wf
def dot_S8x1024x133_S128x133_S8x1024x128_2_1_01_0_n_n : DotDims S8x1024x133 S128x133 S8x1024x128 where
  lhsContracting := [2]
  rhsContracting := [1]
  lhsNonContracting := [0, 1]
  rhsNonContracting := [0]
  lhsBatch := []
  rhsBatch := []
  wf := dot_S8x1024x133_S128x133_S8x1024x128_2_1_01_0_n_n_wf
def dot_S8x1024x128_S128x128_S8x1024x128_2_1_01_0_n_n : DotDims S8x1024x128 S128x128 S8x1024x128 where
  lhsContracting := [2]
  rhsContracting := [1]
  lhsNonContracting := [0, 1]
  rhsNonContracting := [0]
  lhsBatch := []
  rhsBatch := []
  wf := dot_S8x1024x128_S128x128_S8x1024x128_2_1_01_0_n_n_wf

class Facts : Prop extends Facts₀ where

variable [Facts]
-- ==== Proof.Spec.lean ====
/-
  The function both programs compute, row by row, on the extended reals.

  One row is one (batch, position) pair: the embedding of the node itself (`src`), the 33 stacked
  embeddings `ne` (the node's own first, then its 32 neighbours'), a 0/1 mask over the 32 neighbours,
  four local statistics and one global statistic. The attention score of entry `n` is the leaky
  rectifier of  ⟨src, a_w[0:128]⟩ + ⟨ne n, a_w[128:256]⟩ + a_b ;  a neighbour's score is lowered by
  `mask · 10⁹`; the scores go through a softmax over the 33 entries (maximum subtracted first), the
  weights average the 33 embeddings, the average is joined with the statistics into 133 features,
  and two dense layers with the leaky rectifier follow.

  Every operation is the exact one on the extended reals; the three float constants are kept as the
  words the programs print (the slope is the f32 nearest to 1/5, the mask scale the f32 value -10⁹,
  the maximum starts from the word of -∞), so neither side ever evaluates them.
-/
import Idealize.ShloMosaic.PureOps.Ideal
import Idealize.ShloMosaic.PureOps.Ideal.Laws

noncomputable section

namespace Cert.Spec

open Idealize.ShloMosaic

/-- The leaky rectifier: `x` where `x ≥ 0`, the slope times `x` elsewhere. -/
def leaky (x : EReal) : EReal :=
  Scalar.select (Ideal.cmp .oge x (Ideal.ofBits .f32 0x00000000#32)) x (Ideal.ofBits .f32 0x3E4CCCCD#32 * x)

/-- The score of entry `n` before the rectifier: the node's own embedding against the first half of
    the weight row, entry `n`'s embedding against the second half, plus the bias. -/
def raw (src : Fin 128 → EReal) (ne : Fin 33 → Fin 128 → EReal) (aw : Fin 256 → EReal) (ab : EReal)
    (n : Fin 33) : EReal :=
  ((∑ k : Fin 128, src k * aw ⟨k.val, by omega⟩) + (∑ k : Fin 128, ne n k * aw ⟨128 + k.val, by omega⟩)) + ab

/-- Entry 0 (the node itself) keeps its score; neighbour `n ≥ 1` has `mask (n-1)` times the mask
    scale added. -/
def masked (s : Fin 33 → EReal) (mask : Fin 32 → EReal) (n : Fin 33) : EReal :=
  if h : n.val = 0 then s n
  else s n + mask ⟨n.val - 1, by omega⟩ * Ideal.ofBits .f32 0xCE6E6B28#32

/-- The largest of the 33 scores, as a fold of `max` from the word of -∞. -/
def rowMax (f : Fin 33 → EReal) : EReal :=
  (Finset.univ : Finset (Fin 33)).fold max (Ideal.ofBits .f32 0xFF800000#32) f

/-- The exponential of a score less the row's maximum. -/
def expShift (sc : Fin 33 → EReal) (n : Fin 33) : EReal := Ideal.exp (sc n - rowMax sc)

/-- The softmax weight of entry `n`. -/
def att (sc : Fin 33 → EReal) (n : Fin 33) : EReal :=
  Ideal.div (expShift sc n) (∑ n' : Fin 33, expShift sc n')

/-- The weighted average of the 33 embeddings, coordinate `h`. -/
def nodeEmb (ne : Fin 33 → Fin 128 → EReal) (a : Fin 33 → EReal) (h : Fin 128) : EReal :=
  ∑ n : Fin 33, a n * ne n h

/-- The 133 features: the 128 averaged coordinates, the four local statistics, the global one. -/
def feats (e : Fin 128 → EReal) (loc : Fin 4 → EReal) (g : EReal) (k : Fin 133) : EReal :=
  if h : k.val < 128 then e ⟨k.val, h⟩
  else if h2 : k.val < 132 then loc ⟨k.val - 128, by omega⟩
  else g

/-- One dense layer with the leaky rectifier: output `h` is the rectifier of ⟨x, w h⟩ + b h. -/
def dense {K : Nat} (x : Fin K → EReal) (w : Fin 128 → Fin K → EReal) (b : Fin 128 → EReal) (h : Fin 128) : EReal :=
  leaky ((∑ k : Fin K, x k * w h k) + b h)

/-- The masked scores of a row. -/
def scores (src : Fin 128 → EReal) (ne : Fin 33 → Fin 128 → EReal) (mask : Fin 32 → EReal)
    (aw : Fin 256 → EReal) (ab : EReal) : Fin 33 → EReal :=
  masked (fun n => leaky (raw src ne aw ab n)) mask

/-- The 133 features of a row. -/
def rowFeats (src : Fin 128 → EReal) (ne : Fin 33 → Fin 128 → EReal) (mask : Fin 32 → EReal)
    (loc : Fin 4 → EReal) (g : EReal) (aw : Fin 256 → EReal) (ab : EReal) : Fin 133 → EReal :=
  feats (nodeEmb ne (att (scores src ne mask aw ab))) loc g

/-- The whole row: attention, aggregation, the two dense layers. -/
def row (src : Fin 128 → EReal) (ne : Fin 33 → Fin 128 → EReal) (mask : Fin 32 → EReal)
    (loc : Fin 4 → EReal) (g : EReal) (aw : Fin 256 → EReal) (ab : EReal)
    (w1 : Fin 128 → Fin 133 → EReal) (b1 : Fin 128 → EReal)
    (w2 : Fin 128 → Fin 128 → EReal) (b2 : Fin 128 → EReal) : Fin 128 → EReal :=
  dense (dense (rowFeats src ne mask loc g aw ab) w1 b1) w2 b2

/-- The whole result, [8, 1024, 128]: entry (b, s, h) is coordinate `h` of the row of (b, s). The
    arrays come curried over their coordinates. -/
def G (src : Fin 8 → Fin 1024 → Fin 128 → EReal) (ne : Fin 8 → Fin 1024 → Fin 33 → Fin 128 → EReal)
    (mask : Fin 8 → Fin 1024 → Fin 32 → EReal) (loc : Fin 8 → Fin 1024 → Fin 4 → EReal)
    (g : Fin 8 → Fin 1024 → EReal) (aw : Fin 256 → EReal) (ab : EReal)
    (w1 : Fin 128 → Fin 133 → EReal) (b1 : Fin 128 → EReal)
    (w2 : Fin 128 → Fin 128 → EReal) (b2 : Fin 128 → EReal) :
    (⟨3, ![8, 1024, 128]⟩ : Shape).Idx → EReal :=
  fun i => row (src (i 0) (i 1)) (ne (i 0) (i 1)) (mask (i 0) (i 1)) (loc (i 0) (i 1)) (g (i 0) (i 1))
    aw ab w1 b1 w2 b2 (i 2)

end Cert.Spec

end
-- ==== Proof.LibRowOps.lean ====
/-
  Rows of a matrix and slabs of a rank-3 array, read at an entry.

  * The largest entry of each row of an `[m, n]` array, taken from a starting word: at row `p` it is the fold of
    `max` over the `n` entries of that row; the same for the host's reduction with a maximum body from an initial
    value.
  * An `[a, b]` array cast to `[a, b, 1]` reads, at `(p, k, u)`, the entry `(p, k)`; spread over `[a, b, c]`
    it reads, at `(p, k, j)`, the entry `(p, k, 0)`: a per-row, per-column scalar laid along the last axis.
  * A sum of an `[a, b, c]` array along its middle axis reads, at `(p, j)`, the sum over `k` of the entries
    `(p, k, j)`.
-/
import Idealize.ShloMosaic.Lib.Pipeline.Value
import Idealize.ShloMosaic.Lib.ValueIdx
import Idealize.ShloMosaic.PureOps.Ideal.Laws

noncomputable section

open scoped BigOperators

namespace Cert.LibRowOps

open Idealize.ShloMosaic Idealize.ShloMosaic.ValueIdx

variable {α : Type}

/-- Putting the dropped column coordinate `k` back into the row index `p` gives the entry `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float maximum along the second axis from the word `acc`, read at row `p`: the fold of `max` over that
    row's entries, from the word's value. -/
theorem rowMax_apply {m n : ℕ} (src : FVec Ideal ⟨2, ![m, n]⟩ .f32) (acc : BitVec 32)
    (h : (⟨2, ![m, n]⟩ : Shape).Reduces [1] (⟨1, ![m]⟩ : Shape)) (hφ : FKind.Formats .f32)
    (hacc : acc = FKind.maximumf.neutral .f32 hφ) (p : Fin m) :
    multiReduction .maximumf [1] (⟨1, ![m]⟩ : Shape) src acc h hφ hacc (ix1 p)
      = (Finset.univ : Finset (Fin n)).fold max (Ideal.ofBits .f32 acc) (fun k => src (ix2 p k)) := by
  refine (Ideal.multiReduction_maximumf_single src acc h hφ hacc (ix1 p)).trans ?_
  have hf : (src ∘ h.lift (ix1 p)) = fun k : Fin n => src (ix2 p k) := funext fun k => congrArg src (lift_row h p k)
  exact congrArg (fun f => Finset.fold max (Ideal.ofBits .f32 acc) f (Finset.univ : Finset (Fin n))) hf

/-- The host's reduction with a maximum body along the second axis, read at row `p`: the fold of `max` over that
    row's entries, from the initial value. -/
theorem hostRowMax_apply {m n : ℕ} {u : Shape} (x : (⟨2, ![m, n]⟩ : Shape).Idx → Ideal .f32) (init : u.Idx → Ideal .f32)
    (h' : (⟨2, ![m, n]⟩ : Shape).ReducesTo [1] (⟨1, ![m]⟩ : Shape)) (h : (⟨2, ![m, n]⟩ : Shape).Reduces [1] (⟨1, ![m]⟩ : Shape))
    (hu : 0 < u.numel) (p : Fin m) :
    Host.reduce FloatOps.maximumf x init h' hu (ix1 p)
      = (Finset.univ : Finset (Fin n)).fold max (init (Shape.Idx.first hu)) (fun k => x (ix2 p k)) := by
  refine (Host.reduce_eq_fold_single FloatOps.maximumf x init h' h hu (ix1 p)).trans ?_
  have hf : (x ∘ h.lift (ix1 p)) = fun k : Fin n => x (ix2 p k) := funext fun k => congrArg x (lift_row h p k)
  exact congrArg (fun f => Finset.fold max (init (Shape.Idx.first hu)) f (Finset.univ : Finset (Fin n))) hf

/-- An `[a, b]` array cast to `[a, b, 1]` reads, at `(p, k, u)`, the array at `(p, k)`: both positions are the
    same one in row-major order. -/
theorem shapeCast_ab_ab1_apply {a b : ℕ} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_three, Shape.rowMajor_val_two]
    show p.val * b + k.val = (p.val * b + k.val) * 1 + u.val
    rw [hu, Nat.mul_one, Nat.add_zero])

/-- An `[a, b, 1]` array spread over `[a, b, c]` reads, at `(p, k, j)`, the array at `(p, k, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (k : Fin b) (j : Fin c) :
    broadcastTo ⟨3, ![a, b, c]⟩ v h (ix3 p k j) = v (ix3 p k (0 : Fin 1)) := by
  refine broadcastTo_apply v h (ix3 p k j) (ix3 p k (0 : Fin 1)) fun ax => ?_
  match ax with
  | ⟨0, _⟩ =>
    show p.val = if a = 1 then 0 else p.val
    split
    · have := p.isLt; omega
    · rfl
  | ⟨1, _⟩ =>
    show k.val = if b = 1 then 0 else k.val
    split
    · have := k.isLt; omega
    · rfl
  | ⟨2, _⟩ => rfl

/-- Putting the dropped middle coordinate `k` back into `(p, j)` gives the entry `(p, k, j)`. -/
theorem lift_mid {a b c : ℕ} (h : (⟨3, ![a, b, c]⟩ : Shape).Reduces [1] (⟨2, ![a, c]⟩ : Shape)) (p : Fin a) (j : Fin c)
    (k : Fin ((⟨3, ![a, b, c]⟩ : Shape).size 1)) : h.lift (ix2 p j) k = ix3 p (⟨k.val, k.isLt⟩ : Fin b) j := by
  funext d; apply Fin.ext
  fin_cases d <;> rfl

/-- A float sum along the middle axis from the zero word, read at `(p, j)`: the sum over `k` of the entries
    `(p, k, j)`, on the extended reals. -/
theorem midSum_apply {a b c : ℕ} (src : FVec Ideal ⟨3, ![a, b, c]⟩ .f32) (acc : BitVec 32)
    (h : (⟨3, ![a, b, c]⟩ : Shape).Reduces [1] (⟨2, ![a, c]⟩ : Shape)) (hφ : FKind.Formats .f32)
    (hacc : acc = FKind.add.neutral .f32 hφ) (p : Fin a) (j : Fin c) :
    multiReduction .add [1] (⟨2, ![a, c]⟩ : Shape) src acc h hφ hacc (ix2 p j) = ∑ k : Fin b, src (ix3 p k j) := by
  refine (Ideal.multiReduction_add_single src acc h hφ hacc (ix2 p j)).trans ?_
  exact Finset.sum_congr rfl fun k _ => congrArg src (lift_mid h p j k)

end Cert.LibRowOps

end
-- ==== Proof.KernelRowA.lean ====
/-
  Reading the kernel's layout operations at an entry, and the first stage of a row: the raw attention
  scores. For row `r` of a block and entry `n` of the 33 stacked embeddings, the kernel multiplies the node's
  own embedding by the first half of the weight row and sums along the lanes, multiplies entry `n`'s embedding
  by the second half and sums along the lanes, adds the two and adds the bias: the specification's `raw`.
-/
import proofs.«122214_j85014582657622_2_alg».proof.Proof.Gen.KernelIdeal.Skeleton
import proofs.«122214_j85014582657622_2_alg».proof.Proof.Spec
import proofs.«122214_j85014582657622_2_alg».proof.Proof.LibRowOps
import Idealize.ShloMosaic.Lib.ValueLayout

noncomputable section

open scoped BigOperators

namespace Cert.KernelIdeal.KRow

open Cert.KernelIdeal Cert.KernelIdeal.Gen Idealize.ShloMosaic Idealize.ShloMosaic.ValueIdx

variable {α : Type}

/-! ## Layout operations of rank 3 read at an entry -/

/-- Putting the dropped last coordinate `k` back into `(p, q)` gives the entry `(p, q, k)`. -/
theorem lift_last {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- A float sum along the last axis from the zero word, read at `(p, q)`: the sum over `k` of the entries
    `(p, q, k)`. -/
theorem lastSum_apply {a b c : ℕ} (src : FVec Ideal ⟨3, ![a, b, c]⟩ .f32) (acc : BitVec 32)
    (h : (⟨3, ![a, b, c]⟩ : Shape).Reduces [2] (⟨2, ![a, b]⟩ : Shape)) (hφ : FKind.Formats .f32)
    (hacc : acc = FKind.add.neutral .f32 hφ) (p : Fin a) (q : Fin b) :
    multiReduction .add [2] (⟨2, ![a, b]⟩ : Shape) src acc h hφ hacc (ix2 p q) = ∑ k : Fin c, src (ix3 p q k) := by
  refine (Ideal.multiReduction_add_single src acc h hφ hacc (ix2 p q)).trans ?_
  exact Finset.sum_congr rfl fun k _ => congrArg src (lift_last h p q k)

/-- A float maximum along the middle axis from the word `acc`, read at `(p, j)`: the fold of `max` over the
    entries `(p, k, j)`, from the word's value. -/
theorem midMax_apply {a b c : ℕ} (src : FVec Ideal ⟨3, ![a, b, c]⟩ .f32) (acc : BitVec 32)
    (h : (⟨3, ![a, b, c]⟩ : Shape).Reduces [1] (⟨2, ![a, c]⟩ : Shape)) (hφ : FKind.Formats .f32)
    (hacc : acc = FKind.maximumf.neutral .f32 hφ) (p : Fin a) (j : Fin c) :
    multiReduction .maximumf [1] (⟨2, ![a, c]⟩ : Shape) src acc h hφ hacc (ix2 p j)
      = (Finset.univ : Finset (Fin b)).fold max (Ideal.ofBits .f32 acc) (fun k => src (ix3 p k j)) := by
  refine (Ideal.multiReduction_maximumf_single src acc h hφ hacc (ix2 p j)).trans ?_
  have hf : (src ∘ h.lift (ix2 p j)) = fun k : Fin b => src (ix3 p k j) :=
    funext fun k => congrArg src (Cert.LibRowOps.lift_mid h p j k)
  exact congrArg (fun f => Finset.fold max (Ideal.ofBits .f32 acc) f (Finset.univ : Finset (Fin b))) hf

/-- A rank-3 array spread over a rank-3 shape reads, at `(p, q, j)`, the operand at the entry whose coordinate
    is `0` on each of the operand's unit axes and the result's coordinate elsewhere. -/
theorem bcast3 {s0 s1 s2 a b c : ℕ} (v : (⟨3, ![s0, s1, s2]⟩ : Shape).Idx → α)
    (h : (⟨3, ![s0, s1, s2]⟩ : Shape).Broadcasts ⟨3, ![a, b, c]⟩) (p : Fin a) (q : Fin b) (j : Fin c)
    (p' : Fin s0) (q' : Fin s1) (j' : Fin s2)
    (h0 : p'.val = if s0 = 1 then 0 else p.val) (h1 : q'.val = if s1 = 1 then 0 else q.val)
    (h2 : j'.val = if s2 = 1 then 0 else j.val) :
    broadcastTo ⟨3, ![a, b, c]⟩ v h (ix3 p q j) = v (ix3 p' q' j') := by
  refine broadcastTo_apply v h (ix3 p q j) (ix3 p' q' j') fun ax => ?_
  match ax with
  | ⟨0, _⟩ => exact h0
  | ⟨1, _⟩ => exact h1
  | ⟨2, _⟩ => exact h2

/-- A one-element vector cast to `[1, 1, 1]` reads its one element. -/
theorem shapeCast_1_111_apply (x : (⟨1, ![1]⟩ : Shape).Idx → α) (h : (⟨1, ![1]⟩ : Shape).ShapeCasts ⟨3, ![1, 1, 1]⟩)
    (u v w : Fin 1) : shapeCast ⟨3, ![1, 1, 1]⟩ x h (ix3 u v w) = x (ix1 (0 : Fin 1)) :=
  shapeCast_apply x h _ _ (by
    have hu : u.val = 0 := by omega
    have hv : v.val = 0 := by omega
    have hw : w.val = 0 := by omega
    rw [Shape.rowMajor_val_three, Shape.rowMajor_val_one]
    show (0 : ℕ) = (u.val * 1 + v.val) * 1 + w.val
    rw [hu, hv, hw])

/-! ## The raw scores -/

/-- Entry `(r, n)` of the raw scores the first part of the body leaves. -/
theorem pay6_apply (v0 : Vec Ideal S1x512x33x128 .f32) (v8 : Vec Ideal S1x256 .f32) (v9 : Vec Ideal S1 .f32)
    (r : Fin 512) (n : Fin 33) (u : Fin 1) :
    k0_pay6 (F := Ideal) v0 v8 v9 (ix3 r n u)
      = Cert.Spec.raw (fun k => v0 (ix4 (0 : Fin 1) r (0 : Fin 33) k)) (fun n k => v0 (ix4 (0 : Fin 1) r n k))
          (fun k => v8 (ix2 (0 : Fin 1) k)) (v9 (ix1 (0 : Fin 1))) n := by
  unfold k0_pay6 k0_pay2 Cert.Spec.raw
  dsimp only
  refine (addf_apply _ _ _).trans ?_
  refine congrArg₂ (· + ·) ((addf_apply _ _ _).trans (congrArg₂ (· + ·) ?_ ?_)) ?_
  · refine (bcast3 _ _ r n u r (0 : Fin 1) (0 : Fin 1) rfl rfl rfl).trans ?_
    refine (Cert.LibRowOps.shapeCast_ab_ab1_apply _ _ r (0 : Fin 1) (0 : Fin 1)).trans ?_
    refine (lastSum_apply _ _ _ _ _ r (0 : Fin 1)).trans ?_
    refine Finset.sum_congr rfl fun k _ => ?_
    refine (mulf_apply _ _ _).trans (congrArg₂ (· * ·) ?_ ?_)
    · refine (slice3_axis1_apply 0 _ _ r (0 : Fin 1) k (0 : Fin 33) rfl).trans ?_
      exact shapeCast_1abc_abc_apply _ _ r (0 : Fin 33) k
    · refine (bcast3 _ _ r (0 : Fin 1) k (0 : Fin 1) (0 : Fin 1) k rfl rfl rfl).trans ?_
      refine (shapeCast_ab_1ab_apply _ _ (0 : Fin 1) (0 : Fin 1) k).trans ?_
      exact slice2_axis1_apply 0 _ _ (0 : Fin 1) k ⟨k.val, by omega⟩ (Nat.zero_add _).symm
  · refine (Cert.LibRowOps.shapeCast_ab_ab1_apply _ _ r n u).trans ?_
    refine (lastSum_apply _ _ _ _ _ r n).trans ?_
    refine Finset.sum_congr rfl fun k _ => ?_
    refine (mulf_apply _ _ _).trans (congrArg₂ (· * ·) ?_ ?_)
    · exact shapeCast_1abc_abc_apply _ _ r n k
    · refine (bcast3 _ _ r n k (0 : Fin 1) (0 : Fin 1) k rfl rfl rfl).trans ?_
      refine (shapeCast_ab_1ab_apply _ _ (0 : Fin 1) (0 : Fin 1) k).trans ?_
      exact slice2_axis1_apply 128 _ _ (0 : Fin 1) k ⟨128 + k.val, by omega⟩ rfl
  · refine (bcast3 _ _ r n u (0 : Fin 1) (0 : Fin 1) (0 : Fin 1) rfl rfl rfl).trans ?_
    exact shapeCast_1_111_apply _ _ _ _ _

end Cert.KernelIdeal.KRow

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.KernelRowB.lean ====
/-
  The second part of a row, stage by stage: the rectifier, the mask term joined to the node's own score, the
  softmax over the 33 entries, the weighted average of the 33 embeddings, the 133 features, and the two dense
  layers. Each stage is read at an entry of row `r` of a block over arbitrary inputs; the last theorem chains
  them through the body's second payload.
-/
import proofs.«122214_j85014582657622_2_alg».proof.Proof.KernelRowA
import proofs.«122214_j85014582657622_2_alg».proof.Proof.LibMatmulPlain

noncomputable section

open scoped BigOperators

namespace Cert.KernelIdeal.KRow

open Cert.KernelIdeal Cert.KernelIdeal.Gen Idealize.ShloMosaic Idealize.ShloMosaic.ValueIdx

/-- The rectifier as the body spells it: a comparison with a splat of zero selects between the value and the
    slope's splat times the value. -/
abbrev leakyV {s : Shape} (x : FVec Ideal s .f32) : FVec Ideal s .f32 :=
  select (cmpf .oge x (broadcast s (Scalar.ofBits (F := Ideal) .f32 0x00000000#32))) x
    (mulf (broadcast s (Scalar.ofBits (F := Ideal) .f32 0x3E4CCCCD#32)) x)

/-- It is the specification's rectifier entry by entry. -/
theorem leaky_apply {s : Shape} (x : FVec Ideal s .f32) (i : s.Idx) : leakyV x i = Cert.Spec.leaky (x i) := rfl

/-- The masked scores: entry 0 is the rectified score of the node itself, entry `n ≥ 1` the rectified score
    of neighbour `n - 1` plus its mask times the mask scale. -/
theorem scores_apply (raw : FVec Ideal S512x33x1 .f32) (mk : FVec Ideal S512x32x1 .f32)
    (hs1 : S512x33x1.Slices ![0, 1, 0] S512x32x1) (hs0 : S512x33x1.Slices ![0, 0, 0] S512x1x1)
    (hc : Shape.Concatenates [S512x1x1, S512x32x1] S512x33x1 1) (r : Fin 512) (n : Fin 33) :
    concatenate S512x33x1 1
        [⟨S512x1x1, extractStridedSlice S512x1x1 ![0, 0, 0] (leakyV raw) hs0⟩,
         ⟨S512x32x1, addf (extractStridedSlice S512x32x1 ![0, 1, 0] (leakyV raw) hs1)
            (mulf mk (broadcast S512x32x1 (Scalar.ofBits (F := Ideal) .f32 0xCE6E6B28#32)))⟩] hc (ix3 r n (0 : Fin 1))
      = Cert.Spec.masked (fun n => Cert.Spec.leaky (raw (ix3 r n (0 : Fin 1)))) (fun n => mk (ix3 r n (0 : Fin 1))) n := by
  have hn := n.isLt
  unfold Cert.Spec.masked
  by_cases h0 : n.val = 0
  · rw [dif_pos h0]
    refine Eq.trans (concatenate_pair_apply_left (t := S512x33x1) (s₁ := S512x1x1) (s₂ := S512x32x1) 1 _ _ hc
      (ix3 r n (0 : Fin 1)) rfl (ix3 r (0 : Fin 1) (0 : Fin 1))
      (fun b => by fin_cases b <;> first | rfl | exact h0.symm)) ?_
    refine (slice3_axis1_apply 0 _ hs0 r (0 : Fin 1) (0 : Fin 1) n (by rw [h0]; rfl)).trans ?_
    exact leaky_apply raw _
  · rw [dif_neg h0]
    refine Eq.trans (concatenate_pair_apply_right (t := S512x33x1) (s₁ := S512x1x1) (s₂ := S512x32x1) 1 _ _ hc
      (ix3 r n (0 : Fin 1)) rfl rfl (ix3 r (⟨n.val - 1, by omega⟩ : Fin 32) (0 : Fin 1))
      (fun b hb => by fin_cases b <;> first | rfl | exact absurd rfl hb)
      (by show n.val - 1 + 1 = n.val; omega)) ?_
    refine (addf_apply _ _ _).trans (congrArg₂ (· + ·) ?_ rfl)
    refine (slice3_axis1_apply 1 _ hs1 r (⟨n.val - 1, by omega⟩ : Fin 32) (0 : Fin 1) n
      (by show n.val = 1 + (n.val - 1); omega)).trans ?_
    exact leaky_apply raw _

/-- The softmax over the 33 entries of a row: the maximum is taken along the middle axis and spread back, the
    exponentials of the differences are summed along the middle axis and spread back, and divide. -/
theorem softmax_apply (sc : FVec Ideal S512x33x1 .f32)
    (hred : S512x33x1.Reduces [1] S512x1) (hφ : FKind.Formats .f32)
    (hmax : (0xFF800000#32 : BitVec 32) = FKind.maximumf.neutral .f32 hφ)
    (hadd : (0x00000000#32 : BitVec 32) = FKind.add.neutral .f32 hφ)
    (hsc : S512x1.ShapeCasts S512x1x1) (hbc : S512x1x1.Broadcasts S512x33x1) (r : Fin 512) (n : Fin 33) :
    divf (exp (subf sc (broadcastTo S512x33x1 (shapeCast S512x1x1
            (multiReduction .maximumf [1] S512x1 sc 0xFF800000#32 hred hφ hmax) hsc) hbc)))
        (broadcastTo S512x33x1 (shapeCast S512x1x1 (multiReduction .add [1] S512x1
            (exp (subf sc (broadcastTo S512x33x1 (shapeCast S512x1x1
              (multiReduction .maximumf [1] S512x1 sc 0xFF800000#32 hred hφ hmax) hsc) hbc)))
            0x00000000#32 hred hφ hadd) hsc) hbc) (ix3 r n (0 : Fin 1))
      = Cert.Spec.att (fun n => sc (ix3 r n (0 : Fin 1))) n := by
  have hM : ∀ n' : Fin 33, broadcastTo S512x33x1 (shapeCast S512x1x1
        (multiReduction .maximumf [1] S512x1 sc 0xFF800000#32 hred hφ hmax) hsc) hbc (ix3 r n' (0 : Fin 1))
      = Cert.Spec.rowMax (fun n => sc (ix3 r n (0 : Fin 1))) := fun n' =>
    (bcast3 _ _ r n' (0 : Fin 1) r (0 : Fin 1) (0 : Fin 1) rfl rfl rfl).trans
      ((Cert.LibRowOps.shapeCast_ab_ab1_apply _ _ r (0 : Fin 1) (0 : Fin 1)).trans
        (midMax_apply sc _ hred hφ hmax r (0 : Fin 1)))
  have hE : ∀ n' : Fin 33, exp (subf sc (broadcastTo S512x33x1 (shapeCast S512x1x1
        (multiReduction .maximumf [1] S512x1 sc 0xFF800000#32 hred hφ hmax) hsc) hbc)) (ix3 r n' (0 : Fin 1))
      = Cert.Spec.expShift (fun n => sc (ix3 r n (0 : Fin 1))) n' := fun n' =>
    congrArg (fun m => Ideal.exp (sc (ix3 r n' (0 : Fin 1)) - m)) (hM n')
  refine (divf_apply _ _ _).trans ?_
  unfold Cert.Spec.att
  refine congrArg₂ Ideal.div (hE n) ?_
  refine (bcast3 _ _ r n (0 : Fin 1) r (0 : Fin 1) (0 : Fin 1) rfl rfl rfl).trans ?_
  refine (Cert.LibRowOps.shapeCast_ab_ab1_apply _ _ r (0 : Fin 1) (0 : Fin 1)).trans ?_
  refine (Cert.LibRowOps.midSum_apply _ _ hred hφ hadd r (0 : Fin 1)).trans ?_
  exact Finset.sum_congr rfl fun k _ => hE k

/-- The 133 features: the averaged embedding, the four local statistics and the global one, side by side. -/
theorem feats_apply (e : FVec Ideal S512x128 .f32) (l : FVec Ideal S512x4 .f32) (g : FVec Ideal S512x1 .f32)
    (hc : Shape.Concatenates [S512x128, S512x4, S512x1] S512x133 1) (r : Fin 512) (k : Fin 133) :
    concatenate S512x133 1 [⟨S512x128, e⟩, ⟨S512x4, l⟩, ⟨S512x1, g⟩] hc (ix2 r k)
      = Cert.Spec.feats (fun q => e (ix2 r q)) (fun j => l (ix2 r j)) (g (ix2 r (0 : Fin 1))) k := by
  have hk := k.isLt
  unfold Cert.Spec.feats
  by_cases h1 : k.val < 128
  · rw [dif_pos h1]
    exact concatenate_apply_piece (t := S512x133) 1 ([⟨S512x128, e⟩, ⟨S512x4, l⟩, ⟨S512x1, g⟩] : List ((s : Shape) × (s.Idx → Ideal .f32))) hc (ix2 r k) 0 (by simp) S512x128 e rfl rfl 0 rfl
      (ix2 r (⟨k.val, h1⟩ : Fin 128)) (fun b hb => by fin_cases b <;> first | rfl | exact absurd rfl hb)
      (Nat.zero_add _)
  · rw [dif_neg h1]
    by_cases h2 : k.val < 132
    · rw [dif_pos h2]
      exact concatenate_apply_piece (t := S512x133) 1 ([⟨S512x128, e⟩, ⟨S512x4, l⟩, ⟨S512x1, g⟩] : List ((s : Shape) × (s.Idx → Ideal .f32))) hc (ix2 r k) 1 (by simp) S512x4 l rfl rfl 128 rfl
        (ix2 r (⟨k.val - 128, by omega⟩ : Fin 4)) (fun b hb => by fin_cases b <;> first | rfl | exact absurd rfl hb)
        (by show 128 + (k.val - 128) = k.val; omega)
    · rw [dif_neg h2]
      exact concatenate_apply_piece (t := S512x133) 1 ([⟨S512x128, e⟩, ⟨S512x4, l⟩, ⟨S512x1, g⟩] : List ((s : Shape) × (s.Idx → Ideal .f32))) hc (ix2 r k) 2 (by simp) S512x1 g rfl rfl 132 rfl
        (ix2 r (0 : Fin 1)) (fun b hb => by fin_cases b <;> first | rfl | exact absurd rfl hb)
        (by show 132 + 0 = k.val; omega)

/-- One dense layer: the input and the transposed weight go through the product into the zero accumulator
    (the narrowing to bf16 is the identity on the extended reals), the bias row is spread down the rows and
    added, and the rectifier follows. Stated for any input width `K`, so that it serves both layers. -/
theorem dense_apply {K : ℕ} (x : FVec Ideal ⟨2, ![512, K]⟩ .f32) (w : Vec Ideal ⟨2, ![128, K]⟩ .f32)
    (b : Vec Ideal ⟨1, ![128]⟩ .f32) (d : DotDims ⟨2, ![512, K]⟩ ⟨2, ![K, 128]⟩ ⟨2, ![512, 128]⟩)
    (hlc : d.lhsContracting = [1]) (hrc : d.rhsContracting = [0]) (hln : d.lhsNonContracting = [0])
    (hrn : d.rhsNonContracting = [1]) (hlb : d.lhsBatch = []) (hrb : d.rhsBatch = [])
    (hb : FTy.bits .bf16 < FTy.bits .f32) (ht : (⟨2, ![128, K]⟩ : Shape).Transposes [1, 0] ⟨2, ![K, 128]⟩)
    (hs : (⟨1, ![128]⟩ : Shape).ShapeCasts ⟨2, ![1, 128]⟩) (hbc : (⟨2, ![1, 128]⟩ : Shape).Broadcasts ⟨2, ![512, 128]⟩)
    (r : Fin 512) (h : Fin 128) :
    leakyV (addf (matmul d none (truncf .bf16 x hb) (truncf .bf16 (transpose ⟨2, ![K, 128]⟩ [1, 0] w ht) hb)
        (constant ⟨2, ![512, 128]⟩ .f32 0x00000000#32))
      (broadcastTo ⟨2, ![512, 128]⟩ (shapeCast ⟨2, ![1, 128]⟩ b hs) hbc)) (ix2 r h)
      = Cert.Spec.dense (fun k => x (ix2 r k)) (fun q k => w (ix2 q k)) (fun q => b (ix1 q)) h := by
  refine (leaky_apply _ _).trans ?_
  unfold Cert.Spec.dense
  refine congrArg Cert.Spec.leaky ?_
  refine (addf_apply _ _ _).trans (congrArg₂ (· + ·) ?_ ?_)
  · refine (Cert.LibMatmulPlain.matmul_zero_apply d hlc hrc hln hrn hlb hrb none _ _ r h).trans ?_
    refine Finset.sum_congr rfl fun k _ => congrArg₂ (· * ·) (truncf_apply _ _ _) ?_
    refine Eq.trans (truncf_apply _ _ _) ?_
    exact transpose_ix2_apply _ _ k h
  · refine (broadcastTo_1b_ab_apply _ _ r h).trans ?_
    exact shapeCast_a_1a_apply _ _ (0 : Fin 1) h

/-- Entry `(r, h)` of what the second part of the body leaves, from the raw scores and the row's inputs. -/
theorem pay7_apply (v1 : FVec Ideal S512x33x128 .f32) (v3 : FVec Ideal S512x32x1 .f32) (v5 : FVec Ideal S512x4 .f32)
    (v7 : FVec Ideal S512x1 .f32) (v10 : Vec Ideal S128x133 .f32) (v11 : Vec Ideal S128 .f32)
    (v12 : Vec Ideal S128x128 .f32) (v13 : Vec Ideal S128 .f32) (v31 : FVec Ideal S512x33x1 .f32)
    (r : Fin 512) (h : Fin 128) :
    k0_pay7 (F := Ideal) v1 v3 v5 v7 v10 v11 v12 v13 v31 (Scalar.ofBits .f32 0x00000000#32) (ix2 r h)
      = Cert.Spec.dense (Cert.Spec.dense
          (Cert.Spec.feats
            (Cert.Spec.nodeEmb (fun n k => v1 (ix3 r n k))
              (Cert.Spec.att (Cert.Spec.masked (fun n => Cert.Spec.leaky (v31 (ix3 r n (0 : Fin 1))))
                (fun n => v3 (ix3 r n (0 : Fin 1))))))
            (fun j => v5 (ix2 r j)) (v7 (ix2 r (0 : Fin 1))))
          (fun q k => v10 (ix2 q k)) (fun q => v11 (ix1 q)))
        (fun q k => v12 (ix2 q k)) (fun q => v13 (ix1 q)) h := by
  unfold k0_pay7
  dsimp only
  refine (dense_apply _ v12 v13 _ rfl rfl rfl rfl rfl rfl _ _ _ _ r h).trans ?_
  refine congrArg (fun f => Cert.Spec.dense f (fun q k => v12 (ix2 q k)) (fun q => v13 (ix1 q)) h) (funext fun k => ?_)
  refine (dense_apply _ v10 v11 _ rfl rfl rfl rfl rfl rfl _ _ _ _ r k).trans ?_
  refine congrArg (fun f => Cert.Spec.dense f (fun q k => v10 (ix2 q k)) (fun q => v11 (ix1 q)) k) (funext fun k' => ?_)
  refine (feats_apply _ v5 v7 _ r k').trans ?_
  refine congrArg (fun e => Cert.Spec.feats e (fun j => v5 (ix2 r j)) (v7 (ix2 r (0 : Fin 1))) k') (funext fun q => ?_)
  refine (Cert.LibRowOps.midSum_apply _ _ _ _ _ r q).trans ?_
  unfold Cert.Spec.nodeEmb
  refine Finset.sum_congr rfl fun n _ => ?_
  refine (mulf_apply _ _ _).trans (congrArg₂ (· * ·) ?_ rfl)
  refine (Cert.LibRowOps.broadcastTo_ab1_abc_apply _ _ r n q).trans ?_
  refine (softmax_apply _ _ _ _ _ _ _ r n).trans ?_
  refine congrArg (fun s => Cert.Spec.att s n) (funext fun n' => ?_)
  exact scores_apply v31 v3 _ _ _ r n'

end Cert.KernelIdeal.KRow

end
-- ==== Proof.KernelRow.lean ====
/-
  One row of a block's result is the specification's row. The block's result is the one whole-block store of
  the body read over whole-block loads of the ten input blocks; the leading unit axis of the blocks is dropped
  on the way in and added on the way out; in between stand the raw scores and the stages of the second part.
-/
import proofs.«122214_j85014582657622_2_alg».proof.Proof.Gen.KernelIdeal.Frame
import proofs.«122214_j85014582657622_2_alg».proof.Proof.Spec
import proofs.«122214_j85014582657622_2_alg».proof.Proof.KernelRowB

noncomputable section

namespace Cert.KernelIdeal.KRow

open Cert.KernelIdeal Cert.KernelIdeal.Gen Idealize.ShloMosaic Idealize.ShloMosaic.ValueIdx

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

theorem out_row (x0 : Vec Ideal S1x512x33x128 .f32) (x1 : Vec Ideal S1x512x32x1 .f32) (x2 : Vec Ideal S1x512x4 .f32)
    (x3 : Vec Ideal S1x512x1 .f32) (x4 : Vec Ideal S1x256 .f32) (x5 : Vec Ideal S1 .f32) (x6 : Vec Ideal S128x133 .f32)
    (x7 : Vec Ideal S128 .f32) (x8 : Vec Ideal S128x128 .f32) (x9 : Vec Ideal S128 .f32) (r : Fin 512) (h : Fin 128) :
    out0_10 (F := Ideal) x0 x1 x2 x3 x4 x5 x6 x7 x8 x9 (ix3 (0 : Fin 1) r h)
      = Cert.Spec.row (fun k => x0 (ix4 (0 : Fin 1) r (0 : Fin 33) k)) (fun n k => x0 (ix4 (0 : Fin 1) r n k))
          (fun n => x1 (ix4 (0 : Fin 1) r n (0 : Fin 1))) (fun j => x2 (ix3 (0 : Fin 1) r j)) (x3 (ix3 (0 : Fin 1) r (0 : Fin 1)))
          (fun k => x4 (ix2 (0 : Fin 1) k)) (x5 (ix1 (0 : Fin 1))) (fun q k => x6 (ix2 q k)) (fun q => x7 (ix1 q))
          (fun q k => x8 (ix2 q k)) (fun q => x9 (ix1 q)) h := by
  unfold out0_10
  rw [View.canon_unit_zero zeros3]
  simp only [View.ld_unit_zero (S := S1x512x33x128) zeros4, View.ld_unit_zero (S := S1x512x32x1) zeros4,
    View.ld_unit_zero (S := S1x512x4) zeros3, View.ld_unit_zero (S := S1x512x1) zeros3,
    View.ld_unit_zero (S := S1x256) zeros2, View.ld_unit_zero (S := S1) zeros1,
    View.ld_unit_zero (S := S128x133) zeros2, View.ld_unit_zero (S := S128) zeros1,
    View.ld_unit_zero (S := S128x128) zeros2]
  unfold k0_pay1
  refine Eq.trans (shapeCast_ab_1ab_apply _ _ (0 : Fin 1) r h) ?_
  refine Eq.trans (pay7_apply _ _ _ _ x6 x7 x8 x9 _ r h) ?_
  have e2 : ∀ (n : Fin 33) (k : Fin 128), k0_pay2 (F := Ideal) x0 (ix3 r n k) = x0 (ix4 (0 : Fin 1) r n k) :=
    fun n k => shapeCast_1abc_abc_apply _ _ r n k
  have e3 : ∀ n : Fin 32, k0_pay3 (F := Ideal) x1 (ix3 r n (0 : Fin 1)) = x1 (ix4 (0 : Fin 1) r n (0 : Fin 1)) :=
    fun n => shapeCast_1abc_abc_apply _ _ r n (0 : Fin 1)
  have e4 : ∀ j : Fin 4, k0_pay4 (F := Ideal) x2 (ix2 r j) = x2 (ix3 (0 : Fin 1) r j) :=
    fun j => shapeCast_1ab_ab_apply _ _ r j
  have e5 : k0_pay5 (F := Ideal) x3 (ix2 r (0 : Fin 1)) = x3 (ix3 (0 : Fin 1) r (0 : Fin 1)) :=
    shapeCast_1ab_ab_apply _ _ r (0 : Fin 1)
  have e6 : ∀ n : Fin 33, k0_pay6 (F := Ideal) x0 x4 x5 (ix3 r n (0 : Fin 1))
      = Cert.Spec.raw (fun k => x0 (ix4 (0 : Fin 1) r (0 : Fin 33) k)) (fun n k => x0 (ix4 (0 : Fin 1) r n k))
          (fun k => x4 (ix2 (0 : Fin 1) k)) (x5 (ix1 (0 : Fin 1))) n :=
    fun n => pay6_apply x0 x4 x5 r n (0 : Fin 1)
  simp only [e2, e3, e4, e5, e6]
  rfl

end Cert.KernelIdeal.KRow

end
-- ==== Proof.KernelFinal.lean ====
/-
  From the blocks the kernel writes to the whole result array, then the run.

  The grid is 8 x 2. The point with coordinates (b, st) stages rows st*512 ... st*512+511 of batch b of the four
  row-indexed arrays and the whole of the six weight arrays, and writes back rows st*512 ... st*512+511 of batch b
  of the result. Row `r` of that block is the specification's row of (b, st*512 + r): each row-indexed input is
  read where the output's block sits (a block's coordinate on an axis is its block index times the block's size
  plus the coordinate inside the block), each weight array at its own index. Every entry (b, s, h) of the result
  lies in the block of the point (b, s / 512), so the array after the run is the specification's `G`.
-/
import proofs.«122214_j85014582657622_2_alg».proof.Proof.Gen.KernelIdeal.Value
import proofs.«122214_j85014582657622_2_alg».proof.Proof.Spec
import proofs.«122214_j85014582657622_2_alg».proof.Proof.KernelRow

noncomputable section

namespace Cert.KernelIdeal.KFinal

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The index maps over the 16 points -/

/-- The four row-indexed inputs move with the output on the batch and row-block axes and stay at zero elsewhere. -/
theorem idx0 : ∀ t : Fin cfg0.N, win0_0.index t (0 : Fin 4) = win0_10.index t (0 : Fin 3)
    ∧ win0_0.index t (1 : Fin 4) = win0_10.index t (1 : Fin 3) ∧ win0_0.index t (2 : Fin 4) = 0 ∧ win0_0.index t (3 : Fin 4) = 0 :=
  (by decide +kernel : ∀ t : Fin grid0.N, _)
theorem idx1 : ∀ t : Fin cfg0.N, win0_1.index t (0 : Fin 4) = win0_10.index t (0 : Fin 3)
    ∧ win0_1.index t (1 : Fin 4) = win0_10.index t (1 : Fin 3) ∧ win0_1.index t (2 : Fin 4) = 0 ∧ win0_1.index t (3 : Fin 4) = 0 :=
  (by decide +kernel : ∀ t : Fin grid0.N, _)
theorem idx2 : ∀ t : Fin cfg0.N, win0_2.index t (0 : Fin 3) = win0_10.index t (0 : Fin 3)
    ∧ win0_2.index t (1 : Fin 3) = win0_10.index t (1 : Fin 3) ∧ win0_2.index t (2 : Fin 3) = 0 :=
  (by decide +kernel : ∀ t : Fin grid0.N, _)
theorem idx3 : ∀ t : Fin cfg0.N, win0_3.index t (0 : Fin 3) = win0_10.index t (0 : Fin 3)
    ∧ win0_3.index t (1 : Fin 3) = win0_10.index t (1 : Fin 3) ∧ win0_3.index t (2 : Fin 3) = 0 :=
  (by decide +kernel : ∀ t : Fin grid0.N, _)
/-- The six weight arrays are staged whole: block index zero at every point. -/
theorem idxW : ∀ t : Fin cfg0.N, win0_4.index t (0 : Fin 2) = 0 ∧ win0_4.index t (1 : Fin 2) = 0
    ∧ win0_5.index t (0 : Fin 1) = 0 ∧ win0_6.index t (0 : Fin 2) = 0 ∧ win0_6.index t (1 : Fin 2) = 0
    ∧ win0_7.index t (0 : Fin 1) = 0 ∧ win0_8.index t (0 : Fin 2) = 0 ∧ win0_8.index t (1 : Fin 2) = 0
    ∧ win0_9.index t (0 : Fin 1) = 0 :=
  (by decide +kernel : ∀ t : Fin grid0.N, _)
/-- The output's block indices stay in their ranges. -/
theorem idx10 : ∀ t : Fin cfg0.N, win0_10.index t (0 : Fin 3) ≤ 7 ∧ win0_10.index t (1 : Fin 3) ≤ 1
    ∧ win0_10.index t (2 : Fin 3) = 0 :=
  (by decide +kernel : ∀ t : Fin grid0.N, _)
/-- Every (batch, row block) pair is some point's. -/
theorem idx_onto : ∀ (q0 : Fin 8) (q1 : Fin 2), ∃ t : Fin cfg0.N, win0_10.index t = ![q0.val, q1.val, 0] :=
  (by decide +kernel : ∀ (q0 : Fin 8) (q1 : Fin 2), ∃ t : Fin grid0.N, win0_10.index t = ![q0.val, q1.val, 0])

/-! ## Each input block read where the output's block sits -/

theorem blk0 (c : Dev nD) (t : Fin cfg0.N) (r : Fin 512) (n : Fin 33) (k : Fin 128) (b : Fin 8) (s : Fin 1024)
    (hb : b.val = win0_10.index t (0 : Fin 3)) (hs : s.val = win0_10.index t (1 : Fin 3) * 512 + r.val) :
    iblk m c 0 t (ix4 (0 : Fin 1) r n k) = V m c main_v15 (ix4 b s n k) := by
  obtain ⟨e0, e1, e2, e3⟩ := idx0 t
  have he : ((cfg0.win 0).blk t).view.emb (ix4 (0 : Fin 1) r n k) = ix4 b s n k := by
    funext a; apply Fin.ext
    match a with
    | ⟨0, _⟩ => show win0_0.index t (0 : Fin 4) * 1 + 1 * 0 = b.val; omega
    | ⟨1, _⟩ => show win0_0.index t (1 : Fin 4) * 512 + 1 * r.val = s.val; omega
    | ⟨2, _⟩ => show win0_0.index t (2 : Fin 4) * 33 + 1 * n.val = n.val; omega
    | ⟨3, _⟩ => show win0_0.index t (3 : Fin 4) * 128 + 1 * k.val = k.val; omega
  show V m c main_v15 (((cfg0.win 0).blk t).view.emb (ix4 (0 : Fin 1) r n k)) = _
  rw [he]

theorem blk1 (c : Dev nD) (t : Fin cfg0.N) (r : Fin 512) (n : Fin 32) (b : Fin 8) (s : Fin 1024)
    (hb : b.val = win0_10.index t (0 : Fin 3)) (hs : s.val = win0_10.index t (1 : Fin 3) * 512 + r.val) :
    iblk m c 1 t (ix4 (0 : Fin 1) r n (0 : Fin 1)) = m ((c : Thread nD τ).loc main_arg2) (ix4 b s n (0 : Fin 1)) := by
  obtain ⟨e0, e1, e2, e3⟩ := idx1 t
  have he : ((cfg0.win 1).blk t).view.emb (ix4 (0 : Fin 1) r n (0 : Fin 1)) = ix4 b s n (0 : Fin 1) := by
    funext a; apply Fin.ext
    match a with
    | ⟨0, _⟩ => show win0_1.index t (0 : Fin 4) * 1 + 1 * 0 = b.val; omega
    | ⟨1, _⟩ => show win0_1.index t (1 : Fin 4) * 512 + 1 * r.val = s.val; omega
    | ⟨2, _⟩ => show win0_1.index t (2 : Fin 4) * 32 + 1 * n.val = n.val; omega
    | ⟨3, _⟩ => show win0_1.index t (3 : Fin 4) * 1 + 1 * 0 = 0; omega
  show V m c main_arg2 (((cfg0.win 1).blk t).view.emb (ix4 (0 : Fin 1) r n (0 : Fin 1))) = _
  rw [he, V_main_arg2 m c]

theorem blk2 (c : Dev nD) (t : Fin cfg0.N) (r : Fin 512) (j : Fin 4) (b : Fin 8) (s : Fin 1024)
    (hb : b.val = win0_10.index t (0 : Fin 3)) (hs : s.val = win0_10.index t (1 : Fin 3) * 512 + r.val) :
    iblk m c 2 t (ix3 (0 : Fin 1) r j) = m ((c : Thread nD τ).loc main_arg3) (ix3 b s j) := by
  obtain ⟨e0, e1, e2⟩ := idx2 t
  have he : ((cfg0.win 2).blk t).view.emb (ix3 (0 : Fin 1) r j) = ix3 b s j := by
    funext a; apply Fin.ext
    match a with
    | ⟨0, _⟩ => show win0_2.index t (0 : Fin 3) * 1 + 1 * 0 = b.val; omega
    | ⟨1, _⟩ => show win0_2.index t (1 : Fin 3) * 512 + 1 * r.val = s.val; omega
    | ⟨2, _⟩ => show win0_2.index t (2 : Fin 3) * 4 + 1 * j.val = j.val; omega
  show V m c main_arg3 (((cfg0.win 2).blk t).view.emb (ix3 (0 : Fin 1) r j)) = _
  rw [he, V_main_arg3 m c]

theorem blk3 (c : Dev nD) (t : Fin cfg0.N) (r : Fin 512) (b : Fin 8) (s : Fin 1024)
    (hb : b.val = win0_10.index t (0 : Fin 3)) (hs : s.val = win0_10.index t (1 : Fin 3) * 512 + r.val) :
    iblk m c 3 t (ix3 (0 : Fin 1) r (0 : Fin 1)) = V m c main_v16 (ix3 b s (0 : Fin 1)) := by
  obtain ⟨e0, e1, e2⟩ := idx3 t
  have he : ((cfg0.win 3).blk t).view.emb (ix3 (0 : Fin 1) r (0 : Fin 1)) = ix3 b s (0 : Fin 1) := by
    funext a; apply Fin.ext
    match a with
    | ⟨0, _⟩ => show win0_3.index t (0 : Fin 3) * 1 + 1 * 0 = b.val; omega
    | ⟨1, _⟩ => show win0_3.index t (1 : Fin 3) * 512 + 1 * r.val = s.val; omega
    | ⟨2, _⟩ => show win0_3.index t (2 : Fin 3) * 1 + 1 * 0 = 0; omega
  show V m c main_v16 (((cfg0.win 3).blk t).view.emb (ix3 (0 : Fin 1) r (0 : Fin 1))) = _
  rw [he]

theorem blk4 (c : Dev nD) (t : Fin cfg0.N) (k : Fin 256) :
    iblk m c 4 t (ix2 (0 : Fin 1) k) = m ((c : Thread nD τ).loc main_arg6) (ix2 (0 : Fin 1) k) := by
  obtain ⟨e40, e41, e5, e60, e61, e7, e80, e81, e9⟩ := idxW t
  have he : ((cfg0.win 4).blk t).view.emb (ix2 (0 : Fin 1) k) = ix2 (0 : Fin 1) k := by
    funext a; apply Fin.ext
    match a with
    | ⟨0, _⟩ => show win0_4.index t (0 : Fin 2) * 1 + 1 * 0 = 0; omega
    | ⟨1, _⟩ => show win0_4.index t (1 : Fin 2) * 256 + 1 * k.val = k.val; omega
  show V m c main_arg6 (((cfg0.win 4).blk t).view.emb (ix2 (0 : Fin 1) k)) = _
  rw [he, V_main_arg6 m c]

theorem blk5 (c : Dev nD) (t : Fin cfg0.N) :
    iblk m c 5 t (ix1 (0 : Fin 1)) = m ((c : Thread nD τ).loc main_arg7) (ix1 (0 : Fin 1)) := by
  obtain ⟨e40, e41, e5, e60, e61, e7, e80, e81, e9⟩ := idxW t
  have he : ((cfg0.win 5).blk t).view.emb (ix1 (0 : Fin 1)) = ix1 (0 : Fin 1) := by
    funext a; apply Fin.ext
    match a with
    | ⟨0, _⟩ => show win0_5.index t (0 : Fin 1) * 1 + 1 * 0 = 0; omega
  show V m c main_arg7 (((cfg0.win 5).blk t).view.emb (ix1 (0 : Fin 1))) = _
  rw [he, V_main_arg7 m c]

theorem blk6 (c : Dev nD) (t : Fin cfg0.N) (q : Fin 128) (k : Fin 133) :
    iblk m c 6 t (ix2 q k) = m ((c : Thread nD τ).loc main_arg8) (ix2 q k) := by
  obtain ⟨e40, e41, e5, e60, e61, e7, e80, e81, e9⟩ := idxW t
  have he : ((cfg0.win 6).blk t).view.emb (ix2 q k) = ix2 q k := by
    funext a; apply Fin.ext
    match a with
    | ⟨0, _⟩ => show win0_6.index t (0 : Fin 2) * 128 + 1 * q.val = q.val; omega
    | ⟨1, _⟩ => show win0_6.index t (1 : Fin 2) * 133 + 1 * k.val = k.val; omega
  show V m c main_arg8 (((cfg0.win 6).blk t).view.emb (ix2 q k)) = _
  rw [he, V_main_arg8 m c]

theorem blk7 (c : Dev nD) (t : Fin cfg0.N) (q : Fin 128) :
    iblk m c 7 t (ix1 q) = m ((c : Thread nD τ).loc main_arg9) (ix1 q) := by
  obtain ⟨e40, e41, e5, e60, e61, e7, e80, e81, e9⟩ := idxW t
  have he : ((cfg0.win 7).blk t).view.emb (ix1 q) = ix1 q := by
    funext a; apply Fin.ext
    match a with
    | ⟨0, _⟩ => show win0_7.index t (0 : Fin 1) * 128 + 1 * q.val = q.val; omega
  show V m c main_arg9 (((cfg0.win 7).blk t).view.emb (ix1 q)) = _
  rw [he, V_main_arg9 m c]

theorem blk8 (c : Dev nD) (t : Fin cfg0.N) (q k : Fin 128) :
    iblk m c 8 t (ix2 q k) = m ((c : Thread nD τ).loc main_arg10) (ix2 q k) := by
  obtain ⟨e40, e41, e5, e60, e61, e7, e80, e81, e9⟩ := idxW t
  have he : ((cfg0.win 8).blk t).view.emb (ix2 q k) = ix2 q k := by
    funext a; apply Fin.ext
    match a with
    | ⟨0, _⟩ => show win0_8.index t (0 : Fin 2) * 128 + 1 * q.val = q.val; omega
    | ⟨1, _⟩ => show win0_8.index t (1 : Fin 2) * 128 + 1 * k.val = k.val; omega
  show V m c main_arg10 (((cfg0.win 8).blk t).view.emb (ix2 q k)) = _
  rw [he, V_main_arg10 m c]

theorem blk9 (c : Dev nD) (t : Fin cfg0.N) (q : Fin 128) :
    iblk m c 9 t (ix1 q) = m ((c : Thread nD τ).loc main_arg11) (ix1 q) := by
  obtain ⟨e40, e41, e5, e60, e61, e7, e80, e81, e9⟩ := idxW t
  have he : ((cfg0.win 9).blk t).view.emb (ix1 q) = ix1 q := by
    funext a; apply Fin.ext
    match a with
    | ⟨0, _⟩ => show win0_9.index t (0 : Fin 1) * 128 + 1 * q.val = q.val; omega
  show V m c main_arg11 (((cfg0.win 9).blk t).view.emb (ix1 q)) = _
  rw [he, V_main_arg11 m c]

/-! ## A block's result is the block of the whole function -/

/-- Over arbitrary blocks and arrays: if each input block reads its array where the output's block sits (batch
    `b`, rows from `st * 512`), the body's result at a block entry is the whole function at the array entry the
    output's block puts it at. -/
theorem block_rows (A15 : S8x1024x33x128.Idx → EReal) (A2 : S8x1024x32x1.Idx → EReal) (A3 : S8x1024x4.Idx → EReal)
    (A16 : S8x1024x1.Idx → EReal) (A6 : S1x256.Idx → EReal) (A7 : S1.Idx → EReal) (A8 : S128x133.Idx → EReal)
    (A9 : S128.Idx → EReal) (A10 : S128x128.Idx → EReal) (A11 : S128.Idx → EReal)
    (x0 : Vec Ideal S1x512x33x128 .f32) (x1 : Vec Ideal S1x512x32x1 .f32) (x2 : Vec Ideal S1x512x4 .f32)
    (x3 : Vec Ideal S1x512x1 .f32) (x4 : Vec Ideal S1x256 .f32) (x5 : Vec Ideal S1 .f32) (x6 : Vec Ideal S128x133 .f32)
    (x7 : Vec Ideal S128 .f32) (x8 : Vec Ideal S128x128 .f32) (x9 : Vec Ideal S128 .f32) (b : Fin 8) (st : ℕ)
    (h0 : ∀ (r : Fin 512) (n : Fin 33) (k : Fin 128) (s : Fin 1024), s.val = st * 512 + r.val →
      x0 (ix4 (0 : Fin 1) r n k) = A15 (ix4 b s n k))
    (h1 : ∀ (r : Fin 512) (n : Fin 32) (s : Fin 1024), s.val = st * 512 + r.val →
      x1 (ix4 (0 : Fin 1) r n (0 : Fin 1)) = A2 (ix4 b s n (0 : Fin 1)))
    (h2 : ∀ (r : Fin 512) (j : Fin 4) (s : Fin 1024), s.val = st * 512 + r.val → x2 (ix3 (0 : Fin 1) r j) = A3 (ix3 b s j))
    (h3 : ∀ (r : Fin 512) (s : Fin 1024), s.val = st * 512 + r.val →
      x3 (ix3 (0 : Fin 1) r (0 : Fin 1)) = A16 (ix3 b s (0 : Fin 1)))
    (h4 : ∀ k : Fin 256, x4 (ix2 (0 : Fin 1) k) = A6 (ix2 (0 : Fin 1) k)) (h5 : x5 (ix1 (0 : Fin 1)) = A7 (ix1 (0 : Fin 1)))
    (h6 : ∀ (q : Fin 128) (k : Fin 133), x6 (ix2 q k) = A8 (ix2 q k)) (h7 : ∀ q : Fin 128, x7 (ix1 q) = A9 (ix1 q))
    (h8 : ∀ q k : Fin 128, x8 (ix2 q k) = A10 (ix2 q k)) (h9 : ∀ q : Fin 128, x9 (ix1 q) = A11 (ix1 q))
    (y : S1x512x128.Idx) (i : S8x1024x128.Idx) (hi0 : (i 0).val = b.val) (hi1 : (i 1).val = st * 512 + (y 1).val)
    (hi2 : (i 2).val = (y 2).val) :
    out0_10 (F := Ideal) x0 x1 x2 x3 x4 x5 x6 x7 x8 x9 y
      = Cert.Spec.G (fun b s k => A15 (ix4 b s (0 : Fin 33) k)) (fun b s n k => A15 (ix4 b s n k))
          (fun b s n => A2 (ix4 b s n (0 : Fin 1)))
          (fun b s j => A3 (ix3 b s j))
          (fun b s => A16 (ix3 b s (0 : Fin 1)))
          (fun k => A6 (ix2 (0 : Fin 1) k)) (A7 (ix1 (0 : Fin 1)))
          (fun q k => A8 (ix2 q k)) (fun q => A9 (ix1 q))
          (fun q k => A10 (ix2 q k)) (fun q => A11 (ix1 q)) i := by
  obtain ⟨u, r, h, rfl⟩ : ∃ (u : Fin 1) (r : Fin 512) (h : Fin 128), y = ix3 u r h := ⟨y 0, y 1, y 2, eq_ix3 y⟩
  obtain ⟨b', s, h', rfl⟩ : ∃ (b' : Fin 8) (s : Fin 1024) (h' : Fin 128), i = ix3 b' s h' := ⟨i 0, i 1, i 2, eq_ix3 i⟩
  obtain rfl : u = 0 := Subsingleton.elim _ _
  obtain rfl : b' = b := Fin.ext hi0
  obtain rfl : h' = h := Fin.ext hi2
  have hs : s.val = st * 512 + r.val := hi1
  rw [Cert.KernelIdeal.KRow.out_row]
  have e0 : ∀ (n : Fin 33) (k : Fin 128), x0 (ix4 (0 : Fin 1) r n k) = A15 (ix4 b' s n k) := fun n k => h0 r n k s hs
  have e1 : ∀ n : Fin 32, x1 (ix4 (0 : Fin 1) r n (0 : Fin 1)) = A2 (ix4 b' s n (0 : Fin 1)) := fun n => h1 r n s hs
  have e2 : ∀ j : Fin 4, x2 (ix3 (0 : Fin 1) r j) = A3 (ix3 b' s j) := fun j => h2 r j s hs
  have e3 : x3 (ix3 (0 : Fin 1) r (0 : Fin 1)) = A16 (ix3 b' s (0 : Fin 1)) := h3 r s hs
  simp only [e0, e1, e2, e3, h4, h5, h6, h7, h8, h9]
  rfl

/-- What point `t` writes back is block `t` of any function that the body's result agrees with, entry by entry,
    where the output's block sits. -/
theorem flushed_eq_of (c : Dev nD) (t : Fin cfg0.N) (Gf : S8x1024x128.Idx → EReal)
    (hG : ∀ (y : S1x512x128.Idx) (i : S8x1024x128.Idx), (i 0).val = win0_10.index t (0 : Fin 3) →
      (i 1).val = win0_10.index t (1 : Fin 3) * 512 + (y 1).val → (i 2).val = (y 2).val →
      out0_10 (iblk m c 0 t) (iblk m c 1 t) (iblk m c 2 t) (iblk m c 3 t) (iblk m c 4 t) (iblk m c 5 t) (iblk m c 6 t)
      (iblk m c 7 t) (iblk m c 8 t) (iblk m c 9 t) y = Gf i) :
    (dats m 0 c).flushed 10 t = ((cfg0.win 10).blk t).view.read (Elt Ideal) Gf := by
  rw [Cert.KernelIdeal.Value.flushed10]
  obtain ⟨f0, f1, f2⟩ := idx10 t
  funext j
  have hj0 : (j 0).val < 1 := (j 0).isLt
  have hj1 : (j 1).val < 512 := (j 1).isLt
  have hj2 : (j 2).val < 128 := (j 2).isLt
  show out0_10 (iblk m c 0 t) (iblk m c 1 t) (iblk m c 2 t) (iblk m c 3 t) (iblk m c 4 t) (iblk m c 5 t) (iblk m c 6 t)
      (iblk m c 7 t) (iblk m c 8 t) (iblk m c 9 t) j = Gf (((cfg0.win 10).blk t).view.emb j)
  exact hG j (((cfg0.win 10).blk t).view.emb j)
    (by show win0_10.index t (0 : Fin 3) * 1 + 1 * (j 0).val = win0_10.index t (0 : Fin 3); omega)
    (by show win0_10.index t (1 : Fin 3) * 512 + 1 * (j 1).val = win0_10.index t (1 : Fin 3) * 512 + (j 1).val; omega)
    (by show win0_10.index t (2 : Fin 3) * 128 + 1 * (j 2).val = (j 2).val; omega)

/-- What point `t` writes back is block `t` of the whole function of the arrays the region finds. -/
theorem flushed_eq (c : Dev nD) (t : Fin cfg0.N) :
    (dats m 0 c).flushed 10 t = ((cfg0.win 10).blk t).view.read (Elt Ideal)
      (Cert.Spec.G (fun b s k => V m c main_v15 (ix4 b s (0 : Fin 33) k)) (fun b s n k => V m c main_v15 (ix4 b s n k))
          (fun b s n => m ((c : Thread nD τ).loc main_arg2) (ix4 b s n (0 : Fin 1)))
          (fun b s j => m ((c : Thread nD τ).loc main_arg3) (ix3 b s j))
          (fun b s => V m c main_v16 (ix3 b s (0 : Fin 1)))
          (fun k => m ((c : Thread nD τ).loc main_arg6) (ix2 (0 : Fin 1) k)) (m ((c : Thread nD τ).loc main_arg7) (ix1 (0 : Fin 1)))
          (fun q k => m ((c : Thread nD τ).loc main_arg8) (ix2 q k)) (fun q => m ((c : Thread nD τ).loc main_arg9) (ix1 q))
          (fun q k => m ((c : Thread nD τ).loc main_arg10) (ix2 q k)) (fun q => m ((c : Thread nD τ).loc main_arg11) (ix1 q))) :=
  flushed_eq_of m c t _ fun y i h0 h1 h2 => by
    obtain ⟨f0, f1, f2⟩ := idx10 t
    exact block_rows (V m c main_v15) (m ((c : Thread nD τ).loc main_arg2)) (m ((c : Thread nD τ).loc main_arg3)) (V m c main_v16)
      (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      (iblk m c 0 t) (iblk m c 1 t) (iblk m c 2 t) (iblk m c 3 t) (iblk m c 4 t) (iblk m c 5 t) (iblk m c 6 t)
      (iblk m c 7 t) (iblk m c 8 t) (iblk m c 9 t)
      (⟨win0_10.index t (0 : Fin 3), by omega⟩ : Fin 8) (win0_10.index t (1 : Fin 3))
      (fun r n k s hs => blk0 m c t r n k _ s rfl hs) (fun r n s hs => blk1 m c t r n _ s rfl hs)
      (fun r j s hs => blk2 m c t r j _ s rfl hs) (fun r s hs => blk3 m c t r _ s rfl hs)
      (fun k => blk4 m c t k) (blk5 m c t) (fun q k => blk6 m c t q k) (fun q => blk7 m c t q)
      (fun q k => blk8 m c t q k) (fun q => blk9 m c t q) y i h0 h1 h2

/-! ## The cover, the array and the run -/

/-- An entry of the result lies in point `t`'s block iff each coordinate is in the block's range on its axis. -/
theorem mem_blk (t : Fin cfg0.N) (i : S8x1024x128.Idx) :
    i ∈ ((cfg0.win 10).blk t).view.set ↔ ∀ a : Fin 3, win0_10.index t a * S1x512x128.size a ≤ (i a).val
      ∧ (i a).val < win0_10.index t a * S1x512x128.size a + S1x512x128.size a := by
  show i ∈ ((View.whole main_v17).slice (win0_10.rect t)).set ↔ _
  rw [View.set_slice_whole, Rect.mem_set_unit]
  exact Iff.rfl

/-- Entry (b, s, h) lies in the block of the point (b, s / 512). -/
theorem cover (i : S8x1024x128.Idx) :
    ∃ t : Fin cfg0.N, (cfg0.win 10).flush t = true ∧ i ∈ ((cfg0.win 10).blk t).view.set := by
  have hi0 : (i 0).val < 8 := (i 0).isLt
  have hi1 : (i 1).val < 1024 := (i 1).isLt
  have hi2 : (i 2).val < 128 := (i 2).isLt
  obtain ⟨t, ht⟩ := idx_onto ⟨(i 0).val, hi0⟩ ⟨(i 1).val / 512, by omega⟩
  have q0 : win0_10.index t (0 : Fin 3) = (i 0).val := congrFun ht 0
  have q1 : win0_10.index t (1 : Fin 3) = (i 1).val / 512 := congrFun ht 1
  have q2 : win0_10.index t (2 : Fin 3) = 0 := congrFun ht 2
  refine ⟨t, flush0_10 t, ?_⟩
  rw [mem_blk]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 512 ≤ (i 1).val ∧ (i 1).val < win0_10.index t (1 : Fin 3) * 512 + 512; omega
  | ⟨2, _⟩ => show win0_10.index t (2 : Fin 3) * 128 ≤ (i 2).val ∧ (i 2).val < win0_10.index t (2 : Fin 3) * 128 + 128; omega

/-- The result array after the run is the specification's function of the arrays the region finds. -/
theorem final (m : (ℓ : Loc nD τ sig) → Buf (Elt Ideal) ℓ) (c : Dev nD) :
    (dats m 0 c).arrAt 10 cfg0.N
      = Cert.Spec.G (fun b s k => V m c main_v15 (ix4 b s (0 : Fin 33) k)) (fun b s n k => V m c main_v15 (ix4 b s n k))
          (fun b s n => m ((c : Thread nD τ).loc main_arg2) (ix4 b s n (0 : Fin 1)))
          (fun b s j => m ((c : Thread nD τ).loc main_arg3) (ix3 b s j))
          (fun b s => V m c main_v16 (ix3 b s (0 : Fin 1)))
          (fun k => m ((c : Thread nD τ).loc main_arg6) (ix2 (0 : Fin 1) k)) (m ((c : Thread nD τ).loc main_arg7) (ix1 (0 : Fin 1)))
          (fun q k => m ((c : Thread nD τ).loc main_arg8) (ix2 q k)) (fun q => m ((c : Thread nD τ).loc main_arg9) (ix1 q))
          (fun q k => m ((c : Thread nD τ).loc main_arg10) (ix2 q k)) (fun q => m ((c : Thread nD τ).loc main_arg11) (ix1 q)) :=
  (dats m 0 c).arrAt_eq_of_cover 10 _ (fun t _ => flushed_eq m c t) (fun i => cover i)

/-- The run, read: the result array at the specification's function, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v17) = Cert.Spec.G (fun b s k => V m c main_v15 (ix4 b s (0 : Fin 33) k)) (fun b s n k => V m c main_v15 (ix4 b s n k))
          (fun b s n => m ((c : Thread nD τ).loc main_arg2) (ix4 b s n (0 : Fin 1)))
          (fun b s j => m ((c : Thread nD τ).loc main_arg3) (ix3 b s j))
          (fun b s => V m c main_v16 (ix3 b s (0 : Fin 1)))
          (fun k => m ((c : Thread nD τ).loc main_arg6) (ix2 (0 : Fin 1) k)) (m ((c : Thread nD τ).loc main_arg7) (ix1 (0 : Fin 1)))
          (fun q k => m ((c : Thread nD τ).loc main_arg8) (ix2 q k)) (fun q => m ((c : Thread nD τ).loc main_arg9) (ix1 q))
          (fun q k => m ((c : Thread nD τ).loc main_arg10) (ix2 q k)) (fun q => m ((c : Thread nD τ).loc main_arg11) (ix1 q))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Cert.KernelIdeal.Value.run_blocks m ρ)

end Cert.KernelIdeal.KFinal

end
-- ==== Proof.RefRun.lean ====
/-
  The reference program's run, read back.

  @main is a straight line of host operations once its three calls of the outlined leaky rectifier (each of which
  calls the outlined select) are unfolded at their call sites: eighty-five operations, listed here in program
  order. Every weakly fair execution terminates with each buffer at the fold of the operations' results over the
  launch contents.
-/
import proofs.«122214_j85014582657622_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: the two row gathers with their index wrap-around, the stack of
    33 embeddings, the score product and bias, the rectifier (seven operations into the first call's buffers), the
    mask term scattered onto entries 1..32, the softmax, the weighted sum, the 133 features, and two dense layers
    each followed by the rectifier (seven operations into the second and the third call's buffers). -/
abbrev ops : List (HloOp τ sig (Elt F)) :=
  [ nullary main_c (constantI S_ 32 0#32),
    unary main_c main_v0 (broadcastInDim S8x1024 ![] bcast_S_S8x1024),
    binary main_arg0 main_v0 main_v1 (cmpi .slt),
    nullary main_c_0 (constantI S_ 32 100001#32),
    unary main_c_0 main_v2 (broadcastInDim S8x1024 ![] bcast_S_S8x1024),
    binary main_arg0 main_v2 main_v3 addi,
    ternary main_v1 main_v3 main_arg0 main_v4 select,
    unary main_v4 main_v5 (broadcastInDim S8x1024x1 ![0, 1] bcast_S8x1024_S8x1024x1_0_1),
    binary main_arg5 main_v5 main_v6 (fun x i => Host.gather gather_S100001x128_S8x1024x1_S8x1024x128_2_0_n_n_0_2_1128 x i),
    unary main_v6 main_v7 (broadcastInDim S8x1024x1x128 ![0, 1, 3] bcast_S8x1024x128_S8x1024x1x128_0_1_3),
    nullary main_c_1 (constantI S_ 32 0#32),
    unary main_c_1 main_v8 (broadcastInDim S8x1024x32 ![] bcast_S_S8x1024x32),
    binary main_arg1 main_v8 main_v9 (cmpi .slt),
    nullary main_c_2 (constantI S_ 32 100001#32),
    unary main_c_2 main_v10 (broadcastInDim S8x1024x32 ![] bcast_S_S8x1024x32),
    binary main_arg1 main_v10 main_v11 addi,
    ternary main_v9 main_v11 main_arg1 main_v12 select,
    unary main_v12 main_v13 (broadcastInDim S8x1024x32x1 ![0, 1, 2] bcast_S8x1024x32_S8x1024x32x1_0_1_2),
    binary main_arg5 main_v13 main_v14 (fun x i => Host.gather gather_S100001x128_S8x1024x32x1_S8x1024x32x128_3_0_n_n_0_3_1128 x i),
    binary main_v7 main_v14 main_v15 (fun a b => concatenate S8x1024x33x128 2 [⟨S8x1024x1x128, a⟩, ⟨S8x1024x32x128, b⟩] concatenates_S8x1024x1x128_S8x1024x32x128_S8x1024x33x128_d2),
    unary main_v7 main_v16 (broadcastInDim S8x1024x33x128 ![0, 1, 2, 3] bcast_S8x1024x1x128_S8x1024x33x128_0_1_2_3),
    binary main_v16 main_v15 main_v17 (fun a b => concatenate S8x1024x33x256 3 [⟨S8x1024x33x128, a⟩, ⟨S8x1024x33x128, b⟩] concatenates_S8x1024x33x128_S8x1024x33x128_S8x1024x33x256_d3),
    binary main_v17 main_arg6 main_v18 (fun l r => Host.dotGeneral dot_S8x1024x33x256_S1x256_S8x1024x33x1_3_1_012_0_n_n none l r),
    unary main_arg7 main_v19 (broadcastInDim S1x1x1x1 ![3] bcast_S1_S1x1x1x1_3),
    unary main_v19 main_v20 (broadcastInDim S8x1024x33x1 ![0, 1, 2, 3] bcast_S1x1x1x1_S8x1024x33x1_0_1_2_3),
    binary main_v18 main_v20 main_v21 addf,
    nullary main_cst (constant S_ .f32 0x3E4CCCCD#32),
    TRef.nullary main_call0.cst (constant S_ .f32 0x00000000#32),
    TRef.unary main_call0.cst main_call0.v0 (broadcastInDim S8x1024x33x1 ![] bcast_S_S8x1024x33x1),
    TRef.binary (.of main_v21) main_call0.v0 main_call0.v1 (cmpf .oge),
    TRef.unary (.of main_cst) main_call0.v2 id,
    TRef.unary main_call0.v2 main_call0.v3 (broadcastInDim S8x1024x33x1 ![] bcast_S_S8x1024x33x1),
    TRef.binary main_call0.v3 (.of main_v21) main_call0.v4 mulf,
    TRef.ternary main_call0.v1 (.of main_v21) main_call0.v4 main_call0.call0.v0 select,
    nullary main_cst_3 (constant S_ .f32 0xCE6E6B28#32),
    unary main_cst_3 main_v23 (broadcastInDim S8x1024x32x1 ![] bcast_S_S8x1024x32x1),
    binary main_arg2 main_v23 main_v24 mulf,
    nullary main_c_4 (constantI S_ 32 1#32),
    unary main_c_4 main_v25 (broadcastInDim S1 ![] bcast_S_S1),
    ternary main_v22 main_v25 main_v24 main_v26 (fun x i u => Host.scatter scatter_S8x1024x33x1_S1_S8x1024x32x1_0123_n_2_0 FloatOps.addf x i u),
    nullary main_cst_5 (constant S_ .f32 0xFF800000#32),
    binary main_v26 main_cst_5 main_v27 (fun x v => Host.reduce FloatOps.maximumf x v reducesTo_S8x1024x33x1_S8x1024x1_d2 h_S_),
    nullary main_cst_6 (constant S_ .f32 0xFF800000#32),
    unary main_cst_6 main_v28 (broadcastInDim S8x1024x1 ![] bcast_S_S8x1024x1),
    binary main_v28 main_v27 main_v29 maximumf,
    unary main_v29 main_v30 (broadcastInDim S8x1024x1x1 ![0, 1, 3] bcast_S8x1024x1_S8x1024x1x1_0_1_3),
    unary main_v30 main_v31 (broadcastInDim S8x1024x33x1 ![0, 1, 2, 3] bcast_S8x1024x1x1_S8x1024x33x1_0_1_2_3),
    binary main_v26 main_v31 main_v32 subf,
    unary main_v32 main_v33 Host.exp,
    nullary main_cst_7 (constant S_ .f32 0x00000000#32),
    binary main_v33 main_cst_7 main_v34 (fun x v => Host.reduceAdd x v reducesTo_S8x1024x33x1_S8x1024x1_d2 h_S_),
    unary main_v34 main_v35 (broadcastInDim S8x1024x1x1 ![0, 1, 3] bcast_S8x1024x1_S8x1024x1x1_0_1_3),
    unary main_v35 main_v36 (broadcastInDim S8x1024x33x1 ![0, 1, 2, 3] bcast_S8x1024x1x1_S8x1024x33x1_0_1_2_3),
    binary main_v33 main_v36 main_v37 Host.divf,
    unary main_v37 main_v38 (broadcastInDim S8x1024x33x128 ![0, 1, 2, 3] bcast_S8x1024x33x1_S8x1024x33x128_0_1_2_3),
    binary main_v38 main_v15 main_v39 mulf,
    nullary main_cst_8 (constant S_ .f32 0x00000000#32),
    binary main_v39 main_cst_8 main_v40 (fun x v => Host.reduceAdd x v reducesTo_S8x1024x33x128_S8x1024x128_d2 h_S_),
    unary main_arg4 main_v41 (broadcastInDim S8x1024x1 ![0, 1, 2] bcast_S8x1x1_S8x1024x1_0_1_2),
    nary ![main_v40, main_arg3, main_v41] main_v42 (fun u => concatenate S8x1024x133 2 [⟨S8x1024x128, u 0⟩, ⟨S8x1024x4, u 1⟩, ⟨S8x1024x1, u 2⟩] concatenates_S8x1024x128_S8x1024x4_S8x1024x1_S8x1024x133_d2),
    binary main_v42 main_arg8 main_v43 (fun l r => Host.dotGeneral dot_S8x1024x133_S128x133_S8x1024x128_2_1_01_0_n_n none l r),
    unary main_arg9 main_v44 (broadcastInDim S1x1x128 ![2] bcast_S128_S1x1x128_2),
    unary main_v44 main_v45 (broadcastInDim S8x1024x128 ![0, 1, 2] bcast_S1x1x128_S8x1024x128_0_1_2),
    binary main_v43 main_v45 main_v46 addf,
    nullary main_cst_9 (constant S_ .f32 0x3E4CCCCD#32),
    TRef.nullary main_call1.cst (constant S_ .f32 0x00000000#32),
    TRef.unary main_call1.cst main_call1.v0 (broadcastInDim S8x1024x128 ![] bcast_S_S8x1024x128),
    TRef.binary (.of main_v46) main_call1.v0 main_call1.v1 (cmpf .oge),
    TRef.unary (.of main_cst_9) main_call1.v2 id,
    TRef.unary main_call1.v2 main_call1.v3 (broadcastInDim S8x1024x128 ![] bcast_S_S8x1024x128),
    TRef.binary main_call1.v3 (.of main_v46) main_call1.v4 mulf,
    TRef.ternary main_call1.v1 (.of main_v46) main_call1.v4 main_call1.call0.v0 select,
    binary main_v47 main_arg10 main_v48 (fun l r => Host.dotGeneral dot_S8x1024x128_S128x128_S8x1024x128_2_1_01_0_n_n none l r),
    unary main_arg11 main_v49 (broadcastInDim S1x1x128 ![2] bcast_S128_S1x1x128_2),
    unary main_v49 main_v50 (broadcastInDim S8x1024x128 ![0, 1, 2] bcast_S1x1x128_S8x1024x128_0_1_2),
    binary main_v48 main_v50 main_v51 addf,
    nullary main_cst_10 (constant S_ .f32 0x3E4CCCCD#32),
    TRef.nullary main_call2.cst (constant S_ .f32 0x00000000#32),
    TRef.unary main_call2.cst main_call2.v0 (broadcastInDim S8x1024x128 ![] bcast_S_S8x1024x128),
    TRef.binary (.of main_v51) main_call2.v0 main_call2.v1 (cmpf .oge),
    TRef.unary (.of main_cst_10) main_call2.v2 id,
    TRef.unary main_call2.v2 main_call2.v3 (broadcastInDim S8x1024x128 ![] bcast_S_S8x1024x128),
    TRef.binary main_call2.v3 (.of main_v51) main_call2.v4 mulf,
    TRef.ternary main_call2.v1 (.of main_v51) main_call2.v4 main_call2.call0.v0 select ]

-- eighty-five binds re-associated: the rewrite under the chain recurses once per statement
set_option maxRecDepth 4096 in
set_option maxHeartbeats 8000000 in
/-- @main is that straight line: its two windows, the outlined functions' definitions unfolded at their calls and
    the records at their fields, and sequencing re-associated. -/
theorem main_eq (c : Dev nD) : main (F := F) c = seq ops := by
  simp only [main, main_part0, main_part1, fn_leaky_relu.body, fn_leaky_relu_0.body, fn_where.body, fn_where_1.body,
    seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [List.Forall, nullary_bufs_sub, unary_bufs_sub, binary_bufs_sub, ternary_bufs_sub, nary_bufs_sub, and_self]

/-- Every weakly fair execution of @main terminates, and every final state has each buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTail.lean ====
/-
  The reference's operations after the stacked embeddings, as one function of the arrays they read.

  `v7` is the node's own gathered embedding laid out as [8, 1024, 1, 128], `v15` the 33 stacked
  embeddings [8, 1024, 33, 128]; the rest are the program's arguments. The function follows the
  program line by line: the node's embedding spread over the 33 entries and joined to the stack along
  the last axis, the product with the weight row, the bias, the leaky rectifier, the mask term added to
  entries 1..32, the softmax over the 33 entries, the weighted sum, the 133 features, two dense layers.
-/
import proofs.«122214_j85014582657622_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- The leaky rectifier on an array, as the program's outlined function spells it: compare with a
    spread zero, multiply by the spread slope, select. -/
def leakyArr (s : Shape) (bc : S_.BroadcastsInDim s (![] : Fin 0 → Fin s.rank)) (x : FVec Ideal s .f32)
    (slope : FVec Ideal S_ .f32) : FVec Ideal s .f32 :=
  select (cmpf .oge x (broadcastInDim s ![] bc (constant (F := Ideal) S_ .f32 0x00000000#32))) x
    (mulf (broadcastInDim s ![] bc (id slope)) x)

/-- The attention scores after the mask term, [8, 1024, 33, 1]. -/
def scoresArr (v7 : FVec Ideal S8x1024x1x128 .f32) (v15 : FVec Ideal S8x1024x33x128 .f32)
    (a2 : FVec Ideal S8x1024x32x1 .f32) (a6 : FVec Ideal S1x256 .f32) (a7 : FVec Ideal S1 .f32) :
    FVec Ideal S8x1024x33x1 .f32 :=
  let v16 : FVec Ideal S8x1024x33x128 .f32 := broadcastInDim S8x1024x33x128 ![0, 1, 2, 3] bcast_S8x1024x1x128_S8x1024x33x128_0_1_2_3 v7
  let v17 : FVec Ideal S8x1024x33x256 .f32 := concatenate S8x1024x33x256 3 [⟨S8x1024x33x128, v16⟩, ⟨S8x1024x33x128, v15⟩] concatenates_S8x1024x33x128_S8x1024x33x128_S8x1024x33x256_d3
  let v18 : FVec Ideal S8x1024x33x1 .f32 := Host.dotGeneral (F := Ideal) dot_S8x1024x33x256_S1x256_S8x1024x33x1_3_1_012_0_n_n none v17 a6
  let v19 : FVec Ideal S1x1x1x1 .f32 := broadcastInDim S1x1x1x1 ![3] bcast_S1_S1x1x1x1_3 a7
  let v20 : FVec Ideal S8x1024x33x1 .f32 := broadcastInDim S8x1024x33x1 ![0, 1, 2, 3] bcast_S1x1x1x1_S8x1024x33x1_0_1_2_3 v19
  let v21 : FVec Ideal S8x1024x33x1 .f32 := addf v18 v20
  let v22 : FVec Ideal S8x1024x33x1 .f32 := leakyArr S8x1024x33x1 bcast_S_S8x1024x33x1 v21 (constant (F := Ideal) S_ .f32 0x3E4CCCCD#32)
  let v23 : FVec Ideal S8x1024x32x1 .f32 := broadcastInDim S8x1024x32x1 ![] bcast_S_S8x1024x32x1 (constant (F := Ideal) S_ .f32 0xCE6E6B28#32)
  let v24 : FVec Ideal S8x1024x32x1 .f32 := mulf a2 v23
  let v25 : IVec S1 32 := broadcastInDim S1 ![] bcast_S_S1 (constantI S_ 32 1#32)
  Host.scatter scatter_S8x1024x33x1_S1_S8x1024x32x1_0123_n_2_0 (FloatOps.addf (F := Ideal)) v22 v25 v24

/-- The softmax weights over the 33 entries, [8, 1024, 33, 1]. -/
def attArr (v26 : FVec Ideal S8x1024x33x1 .f32) : FVec Ideal S8x1024x33x1 .f32 :=
  let v27 : FVec Ideal S8x1024x1 .f32 := Host.reduce (FloatOps.maximumf (F := Ideal)) v26 (constant (F := Ideal) S_ .f32 0xFF800000#32) reducesTo_S8x1024x33x1_S8x1024x1_d2 h_S_
  let v28 : FVec Ideal S8x1024x1 .f32 := broadcastInDim S8x1024x1 ![] bcast_S_S8x1024x1 (constant (F := Ideal) S_ .f32 0xFF800000#32)
  let v29 : FVec Ideal S8x1024x1 .f32 := maximumf v28 v27
  let v30 : FVec Ideal S8x1024x1x1 .f32 := broadcastInDim S8x1024x1x1 ![0, 1, 3] bcast_S8x1024x1_S8x1024x1x1_0_1_3 v29
  let v31 : FVec Ideal S8x1024x33x1 .f32 := broadcastInDim S8x1024x33x1 ![0, 1, 2, 3] bcast_S8x1024x1x1_S8x1024x33x1_0_1_2_3 v30
  let v32 : FVec Ideal S8x1024x33x1 .f32 := subf v26 v31
  let v33 : FVec Ideal S8x1024x33x1 .f32 := Host.exp v32
  let v34 : FVec Ideal S8x1024x1 .f32 := Host.reduceAdd (F := Ideal) v33 (constant (F := Ideal) S_ .f32 0x00000000#32) reducesTo_S8x1024x33x1_S8x1024x1_d2 h_S_
  let v35 : FVec Ideal S8x1024x1x1 .f32 := broadcastInDim S8x1024x1x1 ![0, 1, 3] bcast_S8x1024x1_S8x1024x1x1_0_1_3 v34
  let v36 : FVec Ideal S8x1024x33x1 .f32 := broadcastInDim S8x1024x33x1 ![0, 1, 2, 3] bcast_S8x1024x1x1_S8x1024x33x1_0_1_2_3 v35
  Host.divf (F := Ideal) v33 v36

/-- The 133 features, [8, 1024, 133]. -/
def featsArr (v37 : FVec Ideal S8x1024x33x1 .f32) (v15 : FVec Ideal S8x1024x33x128 .f32)
    (a3 : FVec Ideal S8x1024x4 .f32) (a4 : FVec Ideal S8x1x1 .f32) : FVec Ideal S8x1024x133 .f32 :=
  let v38 : FVec Ideal S8x1024x33x128 .f32 := broadcastInDim S8x1024x33x128 ![0, 1, 2, 3] bcast_S8x1024x33x1_S8x1024x33x128_0_1_2_3 v37
  let v39 : FVec Ideal S8x1024x33x128 .f32 := mulf v38 v15
  let v40 : FVec Ideal S8x1024x128 .f32 := Host.reduceAdd (F := Ideal) v39 (constant (F := Ideal) S_ .f32 0x00000000#32) reducesTo_S8x1024x33x128_S8x1024x128_d2 h_S_
  let v41 : FVec Ideal S8x1024x1 .f32 := broadcastInDim S8x1024x1 ![0, 1, 2] bcast_S8x1x1_S8x1024x1_0_1_2 a4
  concatenate S8x1024x133 2 [⟨S8x1024x128, v40⟩, ⟨S8x1024x4, a3⟩, ⟨S8x1024x1, v41⟩] concatenates_S8x1024x128_S8x1024x4_S8x1024x1_S8x1024x133_d2

/-- One dense layer of the head with the leaky rectifier, on [8, 1024, K] features. -/
def denseArr {sx sw : Shape} (d : DotDims sx sw S8x1024x128) (x : FVec Ideal sx .f32) (w : FVec Ideal sw .f32)
    (b : FVec Ideal S128 .f32) : FVec Ideal S8x1024x128 .f32 :=
  let v43 : FVec Ideal S8x1024x128 .f32 := Host.dotGeneral (F := Ideal) d none x w
  let v44 : FVec Ideal S1x1x128 .f32 := broadcastInDim S1x1x128 ![2] bcast_S128_S1x1x128_2 b
  let v45 : FVec Ideal S8x1024x128 .f32 := broadcastInDim S8x1024x128 ![0, 1, 2] bcast_S1x1x128_S8x1024x128_0_1_2 v44
  let v46 : FVec Ideal S8x1024x128 .f32 := addf v43 v45
  leakyArr S8x1024x128 bcast_S_S8x1024x128 v46 (constant (F := Ideal) S_ .f32 0x3E4CCCCD#32)

/-- Everything after the stacked embeddings. -/
def tail (v7 : FVec Ideal S8x1024x1x128 .f32) (v15 : FVec Ideal S8x1024x33x128 .f32)
    (a2 : FVec Ideal S8x1024x32x1 .f32) (a3 : FVec Ideal S8x1024x4 .f32) (a4 : FVec Ideal S8x1x1 .f32)
    (a6 : FVec Ideal S1x256 .f32) (a7 : FVec Ideal S1 .f32) (a8 : FVec Ideal S128x133 .f32)
    (a9 : FVec Ideal S128 .f32) (a10 : FVec Ideal S128x128 .f32) (a11 : FVec Ideal S128 .f32) :
    FVec Ideal S8x1024x128 .f32 :=
  denseArr dot_S8x1024x128_S128x128_S8x1024x128_2_1_01_0_n_n
    (denseArr dot_S8x1024x133_S128x133_S8x1024x128_2_1_01_0_n_n
      (featsArr (attArr (scoresArr v7 v15 a2 a6 a7)) v15 a3 a4) a8 a9) a10 a11

end Cert.ReferenceIdeal.RefValue

end
-- ==== Proof.LibNary3.lean ====
/-
  A host operation with a literal family of THREE operand buffers (a three-operand concatenate), read at its result:
  the operation's function of the three operands' contents, each read at its own buffer — so that reading a line of
  operations can go on into the operands.  (The library states this for a family of four; over a family given only as
  a function of the index the operands' buffers are not literal and the reading stops there.)  With it, the one-pass
  reading of a line of operations that contains such an operation.
-/
import Idealize.ShloMosaic.Lib.StableHlo.Run

namespace Cert.Nary3

open Idealize.ShloMosaic Idealize.ShloMosaic.StableHlo

variable {nD : Nat} {τ : Topo} {sig : RefSig} {Val : EltTy → Type}
variable {x a b y : Ref sig .tc}

/-- The result of an operation over the three literal operands x, a, b, read at its result buffer y. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, in the form the one-pass reading rewrites with. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.Nary3

/-- The one-pass reading of a line of host operations, with the three-operand family read at its literal operands. -/
macro "after_results_simp3" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Cert.Nary3.nary3_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))
-- ==== Proof.LibFoldAppend.lean ====
/-
  A line of host operations cut in two.

  The buffer contents after a line of host operations are a fold: each operation rewrites its own result buffer from
  the buffers it reads and leaves the rest.  The fold over a concatenation of two lines is the fold over the second,
  started from the fold over the first.  So a long line can be read stretch by stretch: cut it where a called
  function's operations begin and end, state what each stretch leaves in the buffers the later ones read as a small
  function of ANY contents before it, and follow the boundaries forward from the launch contents.  Read that way a
  called function's operations (whose values pass through casts between two spellings of one type) only ever act on
  variables, and every step is a small equation; read in one piece, the same casts sit around large terms.
-/
import Idealize.ShloMosaic.Lib.StableHlo.Run

namespace Cert.FoldAppend

open Idealize.ShloMosaic Idealize.ShloMosaic.StableHlo

variable {τ : Topo} {sig : RefSig} {Val : EltTy → Type}

/-- The fold of a concatenation is the fold of the second part over the fold of the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.FoldAppend
-- ==== Proof.RefOut.lean ====
/-
  What the reference's run leaves in its result buffer and in its arguments, as functions of the launch contents:
  the result is the tail function (the operations after the stacked embeddings) of the stack the two gathers build,
  and no operation writes an argument.

  The line of eighty-five operations is read in six stretches, cut where the three calls of the outlined rectifier
  begin and end: what each stretch leaves in the buffers that later stretches read is a small function of ANY contents
  before it, and the boundaries are followed forward from the launch contents.
-/
import proofs.«122214_j85014582657622_2_alg».proof.Proof.RefRun
import proofs.«122214_j85014582657622_2_alg».proof.Proof.RefTail
import proofs.«122214_j85014582657622_2_alg».proof.Proof.LibNary3
import proofs.«122214_j85014582657622_2_alg».proof.Proof.LibFoldAppend
import Idealize.ShloMosaic.Lib.Pipeline.Value
import Idealize.ShloMosaic.Lib.ValueIdx

noncomputable section

namespace Cert.ReferenceIdeal.RefOut

open Cert.ReferenceIdeal Cert.ReferenceIdeal.Gen Cert.ReferenceIdeal.RefRun Cert.ReferenceIdeal.RefValue
open Idealize.ShloMosaic Idealize.ShloMosaic.TcCoe Idealize.SL.Sem Idealize.ShloMosaic.StableHlo Idealize.ShloMosaic.ValueIdx

/-- The node's own embedding, [8, 1024, 1, 128]: its row of the table, the row number wrapped around when negative. -/
def srcArr (a0 : IVec S8x1024 32) (a5 : FVec Ideal S100001x128 .f32) : FVec Ideal S8x1024x1x128 .f32 :=
  broadcastInDim S8x1024x1x128 ![0, 1, 3] bcast_S8x1024x128_S8x1024x1x128_0_1_3
    (Host.gather gather_S100001x128_S8x1024x1_S8x1024x128_2_0_n_n_0_2_1128 a5
      (broadcastInDim S8x1024x1 ![0, 1] bcast_S8x1024_S8x1024x1_0_1
        (select (cmpi .slt a0 (broadcastInDim S8x1024 ![] bcast_S_S8x1024 (constantI S_ 32 0#32)))
          (addi a0 (broadcastInDim S8x1024 ![] bcast_S_S8x1024 (constantI S_ 32 100001#32))) a0)))

/-- The 32 neighbours' embeddings, [8, 1024, 32, 128]. -/
def neiArr (a1 : IVec S8x1024x32 32) (a5 : FVec Ideal S100001x128 .f32) : FVec Ideal S8x1024x32x128 .f32 :=
  Host.gather gather_S100001x128_S8x1024x32x1_S8x1024x32x128_3_0_n_n_0_3_1128 a5
    (broadcastInDim S8x1024x32x1 ![0, 1, 2] bcast_S8x1024x32_S8x1024x32x1_0_1_2
      (select (cmpi .slt a1 (broadcastInDim S8x1024x32 ![] bcast_S_S8x1024x32 (constantI S_ 32 0#32)))
        (addi a1 (broadcastInDim S8x1024x32 ![] bcast_S_S8x1024x32 (constantI S_ 32 100001#32))) a1))

/-- The stack of 33 embeddings, [8, 1024, 33, 128]: the node's own first, then its neighbours'. -/
def neArr (a0 : IVec S8x1024 32) (a1 : IVec S8x1024x32 32) (a5 : FVec Ideal S100001x128 .f32) :
    FVec Ideal S8x1024x33x128 .f32 :=
  concatenate S8x1024x33x128 2 [⟨S8x1024x1x128, srcArr a0 a5⟩, ⟨S8x1024x32x128, neiArr a1 a5⟩]
    concatenates_S8x1024x1x128_S8x1024x32x128_S8x1024x33x128_d2

/-! ## The stretches -/

section Lists
variable {F : FTy → Type} [FloatOps F]

/-- Up to the slope constant: the gathers, the stack, the score product and the bias. -/
abbrev opsA : List (HloOp τ sig (Elt F)) :=
  [ nullary main_c (constantI S_ 32 0#32),
    unary main_c main_v0 (broadcastInDim S8x1024 ![] bcast_S_S8x1024),
    binary main_arg0 main_v0 main_v1 (cmpi .slt),
    nullary main_c_0 (constantI S_ 32 100001#32),
    unary main_c_0 main_v2 (broadcastInDim S8x1024 ![] bcast_S_S8x1024),
    binary main_arg0 main_v2 main_v3 addi,
    ternary main_v1 main_v3 main_arg0 main_v4 select,
    unary main_v4 main_v5 (broadcastInDim S8x1024x1 ![0, 1] bcast_S8x1024_S8x1024x1_0_1),
    binary main_arg5 main_v5 main_v6 (fun x i => Host.gather gather_S100001x128_S8x1024x1_S8x1024x128_2_0_n_n_0_2_1128 x i),
    unary main_v6 main_v7 (broadcastInDim S8x1024x1x128 ![0, 1, 3] bcast_S8x1024x128_S8x1024x1x128_0_1_3),
    nullary main_c_1 (constantI S_ 32 0#32),
    unary main_c_1 main_v8 (broadcastInDim S8x1024x32 ![] bcast_S_S8x1024x32),
    binary main_arg1 main_v8 main_v9 (cmpi .slt),
    nullary main_c_2 (constantI S_ 32 100001#32),
    unary main_c_2 main_v10 (broadcastInDim S8x1024x32 ![] bcast_S_S8x1024x32),
    binary main_arg1 main_v10 main_v11 addi,
    ternary main_v9 main_v11 main_arg1 main_v12 select,
    unary main_v12 main_v13 (broadcastInDim S8x1024x32x1 ![0, 1, 2] bcast_S8x1024x32_S8x1024x32x1_0_1_2),
    binary main_arg5 main_v13 main_v14 (fun x i => Host.gather gather_S100001x128_S8x1024x32x1_S8x1024x32x128_3_0_n_n_0_3_1128 x i),
    binary main_v7 main_v14 main_v15 (fun a b => concatenate S8x1024x33x128 2 [⟨S8x1024x1x128, a⟩, ⟨S8x1024x32x128, b⟩] concatenates_S8x1024x1x128_S8x1024x32x128_S8x1024x33x128_d2),
    unary main_v7 main_v16 (broadcastInDim S8x1024x33x128 ![0, 1, 2, 3] bcast_S8x1024x1x128_S8x1024x33x128_0_1_2_3),
    binary main_v16 main_v15 main_v17 (fun a b => concatenate S8x1024x33x256 3 [⟨S8x1024x33x128, a⟩, ⟨S8x1024x33x128, b⟩] concatenates_S8x1024x33x128_S8x1024x33x128_S8x1024x33x256_d3),
    binary main_v17 main_arg6 main_v18 (fun l r => Host.dotGeneral dot_S8x1024x33x256_S1x256_S8x1024x33x1_3_1_012_0_n_n none l r),
    unary main_arg7 main_v19 (broadcastInDim S1x1x1x1 ![3] bcast_S1_S1x1x1x1_3),
    unary main_v19 main_v20 (broadcastInDim S8x1024x33x1 ![0, 1, 2, 3] bcast_S1x1x1x1_S8x1024x33x1_0_1_2_3),
    binary main_v18 main_v20 main_v21 addf,
    nullary main_cst (constant S_ .f32 0x3E4CCCCD#32) ]

/-- The first call of the rectifier, on the scores. -/
abbrev opsL0 : List (HloOp τ sig (Elt F)) :=
  [ TRef.nullary main_call0.cst (constant S_ .f32 0x00000000#32),
    TRef.unary main_call0.cst main_call0.v0 (broadcastInDim S8x1024x33x1 ![] bcast_S_S8x1024x33x1),
    TRef.binary (.of main_v21) main_call0.v0 main_call0.v1 (cmpf .oge),
    TRef.unary (.of main_cst) main_call0.v2 id,
    TRef.unary main_call0.v2 main_call0.v3 (broadcastInDim S8x1024x33x1 ![] bcast_S_S8x1024x33x1),
    TRef.binary main_call0.v3 (.of main_v21) main_call0.v4 mulf,
    TRef.ternary main_call0.v1 (.of main_v21) main_call0.v4 main_call0.call0.v0 select ]

/-- From the mask term to the weighted sum of the embeddings and the spread statistic. -/
abbrev opsB1 : List (HloOp τ sig (Elt F)) :=
  [ nullary main_cst_3 (constant S_ .f32 0xCE6E6B28#32),
    unary main_cst_3 main_v23 (broadcastInDim S8x1024x32x1 ![] bcast_S_S8x1024x32x1),
    binary main_arg2 main_v23 main_v24 mulf,
    nullary main_c_4 (constantI S_ 32 1#32),
    unary main_c_4 main_v25 (broadcastInDim S1 ![] bcast_S_S1),
    ternary main_v22 main_v25 main_v24 main_v26 (fun x i u => Host.scatter scatter_S8x1024x33x1_S1_S8x1024x32x1_0123_n_2_0 FloatOps.addf x i u),
    nullary main_cst_5 (constant S_ .f32 0xFF800000#32),
    binary main_v26 main_cst_5 main_v27 (fun x v => Host.reduce FloatOps.maximumf x v reducesTo_S8x1024x33x1_S8x1024x1_d2 h_S_),
    nullary main_cst_6 (constant S_ .f32 0xFF800000#32),
    unary main_cst_6 main_v28 (broadcastInDim S8x1024x1 ![] bcast_S_S8x1024x1),
    binary main_v28 main_v27 main_v29 maximumf,
    unary main_v29 main_v30 (broadcastInDim S8x1024x1x1 ![0, 1, 3] bcast_S8x1024x1_S8x1024x1x1_0_1_3),
    unary main_v30 main_v31 (broadcastInDim S8x1024x33x1 ![0, 1, 2, 3] bcast_S8x1024x1x1_S8x1024x33x1_0_1_2_3),
    binary main_v26 main_v31 main_v32 subf,
    unary main_v32 main_v33 Host.exp,
    nullary main_cst_7 (constant S_ .f32 0x00000000#32),
    binary main_v33 main_cst_7 main_v34 (fun x v => Host.reduceAdd x v reducesTo_S8x1024x33x1_S8x1024x1_d2 h_S_),
    unary main_v34 main_v35 (broadcastInDim S8x1024x1x1 ![0, 1, 3] bcast_S8x1024x1_S8x1024x1x1_0_1_3),
    unary main_v35 main_v36 (broadcastInDim S8x1024x33x1 ![0, 1, 2, 3] bcast_S8x1024x1x1_S8x1024x33x1_0_1_2_3),
    binary main_v33 main_v36 main_v37 Host.divf,
    unary main_v37 main_v38 (broadcastInDim S8x1024x33x128 ![0, 1, 2, 3] bcast_S8x1024x33x1_S8x1024x33x128_0_1_2_3),
    binary main_v38 main_v15 main_v39 mulf,
    nullary main_cst_8 (constant S_ .f32 0x00000000#32),
    binary main_v39 main_cst_8 main_v40 (fun x v => Host.reduceAdd x v reducesTo_S8x1024x33x128_S8x1024x128_d2 h_S_),
    unary main_arg4 main_v41 (broadcastInDim S8x1024x1 ![0, 1, 2] bcast_S8x1x1_S8x1024x1_0_1_2) ]

/-- The join of the weighted sum, the local statistics and the spread statistic into 133 features. -/
abbrev opsN : List (HloOp τ sig (Elt F)) :=
  [ nary ![main_v40, main_arg3, main_v41] main_v42 (fun u => concatenate S8x1024x133 2 [⟨S8x1024x128, u 0⟩, ⟨S8x1024x4, u 1⟩, ⟨S8x1024x1, u 2⟩] concatenates_S8x1024x128_S8x1024x4_S8x1024x1_S8x1024x133_d2) ]

/-- The first dense layer's sum and the next slope constant. -/
abbrev opsB2 : List (HloOp τ sig (Elt F)) :=
  [ binary main_v42 main_arg8 main_v43 (fun l r => Host.dotGeneral dot_S8x1024x133_S128x133_S8x1024x128_2_1_01_0_n_n none l r),
    unary main_arg9 main_v44 (broadcastInDim S1x1x128 ![2] bcast_S128_S1x1x128_2),
    unary main_v44 main_v45 (broadcastInDim S8x1024x128 ![0, 1, 2] bcast_S1x1x128_S8x1024x128_0_1_2),
    binary main_v43 main_v45 main_v46 addf,
    nullary main_cst_9 (constant S_ .f32 0x3E4CCCCD#32) ]

/-- The second call of the rectifier, after the first dense layer. -/
abbrev opsL1 : List (HloOp τ sig (Elt F)) :=
  [ TRef.nullary main_call1.cst (constant S_ .f32 0x00000000#32),
    TRef.unary main_call1.cst main_call1.v0 (broadcastInDim S8x1024x128 ![] bcast_S_S8x1024x128),
    TRef.binary (.of main_v46) main_call1.v0 main_call1.v1 (cmpf .oge),
    TRef.unary (.of main_cst_9) main_call1.v2 id,
    TRef.unary main_call1.v2 main_call1.v3 (broadcastInDim S8x1024x128 ![] bcast_S_S8x1024x128),
    TRef.binary main_call1.v3 (.of main_v46) main_call1.v4 mulf,
    TRef.ternary main_call1.v1 (.of main_v46) main_call1.v4 main_call1.call0.v0 select ]

/-- The second dense layer's sum and the last slope constant. -/
abbrev opsC : List (HloOp τ sig (Elt F)) :=
  [ binary main_v47 main_arg10 main_v48 (fun l r => Host.dotGeneral dot_S8x1024x128_S128x128_S8x1024x128_2_1_01_0_n_n none l r),
    unary main_arg11 main_v49 (broadcastInDim S1x1x128 ![2] bcast_S128_S1x1x128_2),
    unary main_v49 main_v50 (broadcastInDim S8x1024x128 ![0, 1, 2] bcast_S1x1x128_S8x1024x128_0_1_2),
    binary main_v48 main_v50 main_v51 addf,
    nullary main_cst_10 (constant S_ .f32 0x3E4CCCCD#32) ]

/-- The third call of the rectifier, after the second dense layer. -/
abbrev opsL2 : List (HloOp τ sig (Elt F)) :=
  [ TRef.nullary main_call2.cst (constant S_ .f32 0x00000000#32),
    TRef.unary main_call2.cst main_call2.v0 (broadcastInDim S8x1024x128 ![] bcast_S_S8x1024x128),
    TRef.binary (.of main_v51) main_call2.v0 main_call2.v1 (cmpf .oge),
    TRef.unary (.of main_cst_10) main_call2.v2 id,
    TRef.unary main_call2.v2 main_call2.v3 (broadcastInDim S8x1024x128 ![] bcast_S_S8x1024x128),
    TRef.binary main_call2.v3 (.of main_v51) main_call2.v4 mulf,
    TRef.ternary main_call2.v1 (.of main_v51) main_call2.v4 main_call2.call0.v0 select ]

/-- The line is its stretches, one after the other. -/
theorem ops_split : (ops (F := F)) = opsA ++ (opsL0 ++ (opsB1 ++ (opsN ++ (opsB2 ++ (opsL1 ++ (opsC ++ opsL2)))))) := rfl

end Lists

section Stretches
variable (W : Valuation τ sig (Elt Ideal))

/-- A buffer no operation of the named stretch writes keeps its contents. -/
local macro "kept_in" l:ident : tactic =>
  `(tactic| (refine after_of_forall_not_mem _ _ (List.forall_iff_forall_mem.mp ?_)
             simp only [$l:ident, List.Forall, nullary_writes, unary_writes, binary_writes, ternary_writes, nary_writes, Finset.mem_singleton]
             repeat' apply And.intro
             all_goals exact devRef_ne_of_ne (by decide)))

/-! ### The first stretch -/

set_option maxRecDepth 8192 in
set_option maxHeartbeats 2000000 in
theorem A_v15 : after (opsA (F := Ideal)) W (main_v15 : DevRef τ sig)
    = neArr (W (main_arg0 : DevRef τ sig)) (W (main_arg1 : DevRef τ sig)) (W (main_arg5 : DevRef τ sig)) := by
  unfold neArr srcArr neiArr
  after_results_simp
  try rfl

set_option maxRecDepth 8192 in
set_option maxHeartbeats 2000000 in
theorem A_v21 : after (opsA (F := Ideal)) W (main_v21 : DevRef τ sig)
    = addf (Host.dotGeneral (F := Ideal) (φ₁ := .f32) (φ₂ := .f32) dot_S8x1024x33x256_S1x256_S8x1024x33x1_3_1_012_0_n_n none
        (concatenate S8x1024x33x256 3
          [⟨S8x1024x33x128, broadcastInDim S8x1024x33x128 ![0, 1, 2, 3] bcast_S8x1024x1x128_S8x1024x33x128_0_1_2_3
              (srcArr (W (main_arg0 : DevRef τ sig)) (W (main_arg5 : DevRef τ sig)))⟩,
            ⟨S8x1024x33x128, neArr (W (main_arg0 : DevRef τ sig)) (W (main_arg1 : DevRef τ sig)) (W (main_arg5 : DevRef τ sig))⟩]
          concatenates_S8x1024x33x128_S8x1024x33x128_S8x1024x33x256_d3)
        (W (main_arg6 : DevRef τ sig) : FVec Ideal S1x256 .f32))
      (broadcastInDim S8x1024x33x1 ![0, 1, 2, 3] bcast_S1x1x1x1_S8x1024x33x1_0_1_2_3
        (broadcastInDim S1x1x1x1 ![3] bcast_S1_S1x1x1x1_3 (W (main_arg7 : DevRef τ sig)))) := by
  unfold neArr srcArr neiArr
  after_results_simp
  try rfl

theorem A_cst : after (opsA (F := Ideal)) W (main_cst : DevRef τ sig) = constant (F := Ideal) S_ .f32 0x3E4CCCCD#32 := by
  after_results_simp
  try rfl

theorem A_arg2 : after (opsA (F := Ideal)) W (main_arg2 : DevRef τ sig) = W (main_arg2 : DevRef τ sig) := by kept_in opsA
theorem A_arg3 : after (opsA (F := Ideal)) W (main_arg3 : DevRef τ sig) = W (main_arg3 : DevRef τ sig) := by kept_in opsA
theorem A_arg4 : after (opsA (F := Ideal)) W (main_arg4 : DevRef τ sig) = W (main_arg4 : DevRef τ sig) := by kept_in opsA
theorem A_arg8 : after (opsA (F := Ideal)) W (main_arg8 : DevRef τ sig) = W (main_arg8 : DevRef τ sig) := by kept_in opsA
theorem A_arg9 : after (opsA (F := Ideal)) W (main_arg9 : DevRef τ sig) = W (main_arg9 : DevRef τ sig) := by kept_in opsA
theorem A_arg10 : after (opsA (F := Ideal)) W (main_arg10 : DevRef τ sig) = W (main_arg10 : DevRef τ sig) := by kept_in opsA
theorem A_arg11 : after (opsA (F := Ideal)) W (main_arg11 : DevRef τ sig) = W (main_arg11 : DevRef τ sig) := by kept_in opsA

/-! ### The first call -/

theorem L0_v22 : after (opsL0 (F := Ideal)) W (main_v22 : DevRef τ sig)
    = leakyArr S8x1024x33x1 bcast_S_S8x1024x33x1 (W (main_v21 : DevRef τ sig)) (W (main_cst : DevRef τ sig)) := by
  after_results_simp
  rfl

theorem L0_v15 : after (opsL0 (F := Ideal)) W (main_v15 : DevRef τ sig) = W (main_v15 : DevRef τ sig) := by kept_in opsL0
theorem L0_arg2 : after (opsL0 (F := Ideal)) W (main_arg2 : DevRef τ sig) = W (main_arg2 : DevRef τ sig) := by kept_in opsL0
theorem L0_arg3 : after (opsL0 (F := Ideal)) W (main_arg3 : DevRef τ sig) = W (main_arg3 : DevRef τ sig) := by kept_in opsL0
theorem L0_arg4 : after (opsL0 (F := Ideal)) W (main_arg4 : DevRef τ sig) = W (main_arg4 : DevRef τ sig) := by kept_in opsL0
theorem L0_arg8 : after (opsL0 (F := Ideal)) W (main_arg8 : DevRef τ sig) = W (main_arg8 : DevRef τ sig) := by kept_in opsL0
theorem L0_arg9 : after (opsL0 (F := Ideal)) W (main_arg9 : DevRef τ sig) = W (main_arg9 : DevRef τ sig) := by kept_in opsL0
theorem L0_arg10 : after (opsL0 (F := Ideal)) W (main_arg10 : DevRef τ sig) = W (main_arg10 : DevRef τ sig) := by kept_in opsL0
theorem L0_arg11 : after (opsL0 (F := Ideal)) W (main_arg11 : DevRef τ sig) = W (main_arg11 : DevRef τ sig) := by kept_in opsL0

/-! ### From the mask term to the weighted sum -/

set_option maxRecDepth 8192 in
set_option maxHeartbeats 2000000 in
theorem B1_v40 : after (opsB1 (F := Ideal)) W (main_v40 : DevRef τ sig)
    = Host.reduceAdd (F := Ideal)
        (mulf (broadcastInDim S8x1024x33x128 ![0, 1, 2, 3] bcast_S8x1024x33x1_S8x1024x33x128_0_1_2_3
            (attArr
              (Host.scatter scatter_S8x1024x33x1_S1_S8x1024x32x1_0123_n_2_0 (FloatOps.addf (F := Ideal))
                (W (main_v22 : DevRef τ sig) : FVec Ideal S8x1024x33x1 .f32) (broadcastInDim S1 ![] bcast_S_S1 (constantI S_ 32 1#32))
                (mulf (W (main_arg2 : DevRef τ sig) : FVec Ideal S8x1024x32x1 .f32)
                  (broadcastInDim S8x1024x32x1 ![] bcast_S_S8x1024x32x1 (constant (F := Ideal) S_ .f32 0xCE6E6B28#32))))))
          (W (main_v15 : DevRef τ sig) : FVec Ideal S8x1024x33x128 .f32))
        (constant (F := Ideal) S_ .f32 0x00000000#32) reducesTo_S8x1024x33x128_S8x1024x128_d2 h_S_ := by
  unfold attArr
  after_results_simp
  try rfl

theorem B1_v41 : after (opsB1 (F := Ideal)) W (main_v41 : DevRef τ sig)
    = broadcastInDim S8x1024x1 ![0, 1, 2] bcast_S8x1x1_S8x1024x1_0_1_2 (W (main_arg4 : DevRef τ sig)) := by
  after_results_simp
  try rfl

theorem B1_arg3 : after (opsB1 (F := Ideal)) W (main_arg3 : DevRef τ sig) = W (main_arg3 : DevRef τ sig) := by kept_in opsB1
theorem B1_arg8 : after (opsB1 (F := Ideal)) W (main_arg8 : DevRef τ sig) = W (main_arg8 : DevRef τ sig) := by kept_in opsB1
theorem B1_arg9 : after (opsB1 (F := Ideal)) W (main_arg9 : DevRef τ sig) = W (main_arg9 : DevRef τ sig) := by kept_in opsB1
theorem B1_arg10 : after (opsB1 (F := Ideal)) W (main_arg10 : DevRef τ sig) = W (main_arg10 : DevRef τ sig) := by kept_in opsB1
theorem B1_arg11 : after (opsB1 (F := Ideal)) W (main_arg11 : DevRef τ sig) = W (main_arg11 : DevRef τ sig) := by kept_in opsB1

/-! ### The join into 133 features, and the first dense layer's sum -/

theorem N_v42 : after (opsN (F := Ideal)) W (main_v42 : DevRef τ sig)
    = concatenate S8x1024x133 2
        [⟨S8x1024x128, W (main_v40 : DevRef τ sig)⟩, ⟨S8x1024x4, W (main_arg3 : DevRef τ sig)⟩, ⟨S8x1024x1, W (main_v41 : DevRef τ sig)⟩]
        concatenates_S8x1024x128_S8x1024x4_S8x1024x1_S8x1024x133_d2 := by
  simp only [after_cons, after_nil]
  exact Cert.Nary3.nary3_result _ _ _ _

theorem N_arg8 : after (opsN (F := Ideal)) W (main_arg8 : DevRef τ sig) = W (main_arg8 : DevRef τ sig) := by kept_in opsN
theorem N_arg9 : after (opsN (F := Ideal)) W (main_arg9 : DevRef τ sig) = W (main_arg9 : DevRef τ sig) := by kept_in opsN
theorem N_arg10 : after (opsN (F := Ideal)) W (main_arg10 : DevRef τ sig) = W (main_arg10 : DevRef τ sig) := by kept_in opsN
theorem N_arg11 : after (opsN (F := Ideal)) W (main_arg11 : DevRef τ sig) = W (main_arg11 : DevRef τ sig) := by kept_in opsN

theorem B2_v46 : after (opsB2 (F := Ideal)) W (main_v46 : DevRef τ sig)
    = addf (Host.dotGeneral (F := Ideal) (φ₁ := .f32) (φ₂ := .f32) dot_S8x1024x133_S128x133_S8x1024x128_2_1_01_0_n_n none
        (W (main_v42 : DevRef τ sig) : FVec Ideal S8x1024x133 .f32) (W (main_arg8 : DevRef τ sig) : FVec Ideal S128x133 .f32))
      (broadcastInDim S8x1024x128 ![0, 1, 2] bcast_S1x1x128_S8x1024x128_0_1_2
        (broadcastInDim S1x1x128 ![2] bcast_S128_S1x1x128_2 (W (main_arg9 : DevRef τ sig)))) := by
  after_results_simp
  try rfl

theorem B2_cst9 : after (opsB2 (F := Ideal)) W (main_cst_9 : DevRef τ sig) = constant (F := Ideal) S_ .f32 0x3E4CCCCD#32 := by
  after_results_simp
  try rfl

theorem B2_arg10 : after (opsB2 (F := Ideal)) W (main_arg10 : DevRef τ sig) = W (main_arg10 : DevRef τ sig) := by kept_in opsB2
theorem B2_arg11 : after (opsB2 (F := Ideal)) W (main_arg11 : DevRef τ sig) = W (main_arg11 : DevRef τ sig) := by kept_in opsB2

/-! ### The second call -/

theorem L1_v47 : after (opsL1 (F := Ideal)) W (main_v47 : DevRef τ sig)
    = leakyArr S8x1024x128 bcast_S_S8x1024x128 (W (main_v46 : DevRef τ sig)) (W (main_cst_9 : DevRef τ sig)) := by
  after_results_simp
  rfl

theorem L1_arg10 : after (opsL1 (F := Ideal)) W (main_arg10 : DevRef τ sig) = W (main_arg10 : DevRef τ sig) := by kept_in opsL1
theorem L1_arg11 : after (opsL1 (F := Ideal)) W (main_arg11 : DevRef τ sig) = W (main_arg11 : DevRef τ sig) := by kept_in opsL1

/-! ### The second dense layer's sum, and the third call -/

theorem C_v51 : after (opsC (F := Ideal)) W (main_v51 : DevRef τ sig)
    = addf (Host.dotGeneral (F := Ideal) (φ₁ := .f32) (φ₂ := .f32) dot_S8x1024x128_S128x128_S8x1024x128_2_1_01_0_n_n none
        (W (main_v47 : DevRef τ sig) : FVec Ideal S8x1024x128 .f32) (W (main_arg10 : DevRef τ sig) : FVec Ideal S128x128 .f32))
      (broadcastInDim S8x1024x128 ![0, 1, 2] bcast_S1x1x128_S8x1024x128_0_1_2
        (broadcastInDim S1x1x128 ![2] bcast_S128_S1x1x128_2 (W (main_arg11 : DevRef τ sig)))) := by
  after_results_simp
  try rfl

theorem C_cst10 : after (opsC (F := Ideal)) W (main_cst_10 : DevRef τ sig) = constant (F := Ideal) S_ .f32 0x3E4CCCCD#32 := by
  after_results_simp
  try rfl

theorem L2_v52 : after (opsL2 (F := Ideal)) W (main_v52 : DevRef τ sig)
    = leakyArr S8x1024x128 bcast_S_S8x1024x128 (W (main_v51 : DevRef τ sig)) (W (main_cst_10 : DevRef τ sig)) := by
  after_results_simp
  rfl

end Stretches

/-- After the eighty-five operations the result buffer holds the tail function of the stack and the arguments. -/
theorem out_eq (V : Valuation τ sig (Elt Ideal)) :
    after (ops (F := Ideal)) V (main_v52 : DevRef τ sig)
      = tail (srcArr (V (main_arg0 : DevRef τ sig)) (V (main_arg5 : DevRef τ sig)))
          (neArr (V (main_arg0 : DevRef τ sig)) (V (main_arg1 : DevRef τ sig)) (V (main_arg5 : DevRef τ sig)))
          (V (main_arg2 : DevRef τ sig)) (V (main_arg3 : DevRef τ sig)) (V (main_arg4 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig)) := by
  rw [ops_split]
  simp only [Cert.FoldAppend.after_append]
  rw [L2_v52, C_v51, C_cst10, L1_v47, L1_arg10, L1_arg11, B2_v46, B2_cst9, B2_arg10, B2_arg11,
    N_v42, N_arg8, N_arg9, N_arg10, N_arg11,
    B1_v40, B1_v41, B1_arg3, B1_arg8, B1_arg9, B1_arg10, B1_arg11,
    L0_v22, L0_v15, L0_arg2, L0_arg3, L0_arg4, L0_arg8, L0_arg9, L0_arg10, L0_arg11,
    A_v21, A_cst, A_v15, A_arg2, A_arg3, A_arg4, A_arg8, A_arg9, A_arg10, A_arg11]
  rfl

/-- No operation writes the named argument: it is found as launched. -/
local macro "arg_kept" : tactic =>
  `(tactic| (refine after_of_forall_not_mem _ _ (List.forall_iff_forall_mem.mp ?_)
             simp only [ops, List.Forall, nullary_writes, unary_writes, binary_writes, ternary_writes, nary_writes, Finset.mem_singleton]
             repeat' apply And.intro
             all_goals exact devRef_ne_of_ne (by decide)))

variable (V : Valuation τ sig (Elt Ideal))

theorem arg0_eq : after (ops (F := Ideal)) V (main_arg0 : DevRef τ sig) = V (main_arg0 : DevRef τ sig) := by arg_kept
theorem arg1_eq : after (ops (F := Ideal)) V (main_arg1 : DevRef τ sig) = V (main_arg1 : DevRef τ sig) := by arg_kept
theorem arg2_eq : after (ops (F := Ideal)) V (main_arg2 : DevRef τ sig) = V (main_arg2 : DevRef τ sig) := by arg_kept
theorem arg3_eq : after (ops (F := Ideal)) V (main_arg3 : DevRef τ sig) = V (main_arg3 : DevRef τ sig) := by arg_kept
theorem arg4_eq : after (ops (F := Ideal)) V (main_arg4 : DevRef τ sig) = V (main_arg4 : DevRef τ sig) := by arg_kept
theorem arg5_eq : after (ops (F := Ideal)) V (main_arg5 : DevRef τ sig) = V (main_arg5 : DevRef τ sig) := by arg_kept
theorem arg6_eq : after (ops (F := Ideal)) V (main_arg6 : DevRef τ sig) = V (main_arg6 : DevRef τ sig) := by arg_kept
theorem arg7_eq : after (ops (F := Ideal)) V (main_arg7 : DevRef τ sig) = V (main_arg7 : DevRef τ sig) := by arg_kept
theorem arg8_eq : after (ops (F := Ideal)) V (main_arg8 : DevRef τ sig) = V (main_arg8 : DevRef τ sig) := by arg_kept
theorem arg9_eq : after (ops (F := Ideal)) V (main_arg9 : DevRef τ sig) = V (main_arg9 : DevRef τ sig) := by arg_kept
theorem arg10_eq : after (ops (F := Ideal)) V (main_arg10 : DevRef τ sig) = V (main_arg10 : DevRef τ sig) := by arg_kept
theorem arg11_eq : after (ops (F := Ideal)) V (main_arg11 : DevRef τ sig) = V (main_arg11 : DevRef τ sig) := by arg_kept

/-- Entry 0 of the stack is the node's own embedding. -/
theorem neArr_zero (a0 : IVec S8x1024 32) (a1 : IVec S8x1024x32 32) (a5 : FVec Ideal S100001x128 .f32)
    (b : Fin 8) (s : Fin 1024) (k : Fin 128) :
    neArr a0 a1 a5 (ix4 b s (0 : Fin 33) k) = srcArr a0 a5 (ix4 b s (0 : Fin 1) k) := by
  unfold neArr
  exact concatenate_pair_apply_left (2 : Fin 4) (srcArr a0 a5) (neiArr a1 a5) _ (ix4 b s (0 : Fin 33) k) rfl
    (ix4 b s (0 : Fin 1) k) (fun d => by match d with | ⟨0, _⟩ => rfl | ⟨1, _⟩ => rfl | ⟨2, _⟩ => rfl | ⟨3, _⟩ => rfl)

end Cert.ReferenceIdeal.RefOut

end
-- ==== Proof.RefValueRun.lean ====
/-
  The reference's run with its result named: every weakly fair execution terminates, the result buffer holds the
  tail function of the stack of gathered embeddings and of the arguments as launched, and the arguments are unchanged.
-/
import proofs.«122214_j85014582657622_2_alg».proof.Proof.RefOut

noncomputable section

namespace Cert.ReferenceIdeal.RefValueRun

open Cert.ReferenceIdeal Cert.ReferenceIdeal.Gen Cert.ReferenceIdeal.RefRun Cert.ReferenceIdeal.RefValue Cert.ReferenceIdeal.RefOut
open Idealize.ShloMosaic Idealize.ShloMosaic.TcCoe Idealize.SL.Sem Idealize.ShloMosaic.StableHlo

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v52)
          = tail (srcArr (m ((c.tc : Thread nD τ).loc main_arg0)) (m ((c.tc : Thread nD τ).loc main_arg5)))
              (neArr (m ((c.tc : Thread nD τ).loc main_arg0)) (m ((c.tc : Thread nD τ).loc main_arg1)) (m ((c.tc : Thread nD τ).loc main_arg5)))
              (m ((c.tc : Thread nD τ).loc main_arg2)) (m ((c.tc : Thread nD τ).loc main_arg3)) (m ((c.tc : Thread nD τ).loc main_arg4))
              (m ((c.tc : Thread nD τ).loc main_arg6)) (m ((c.tc : Thread nD τ).loc main_arg7)) (m ((c.tc : Thread nD τ).loc main_arg8))
              (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
      ⟨(h c main_v52).trans (out_eq (launchContents m c)),
       (h c main_arg0).trans (arg0_eq (launchContents m c)), (h c main_arg1).trans (arg1_eq (launchContents m c)),
       (h c main_arg2).trans (arg2_eq (launchContents m c)), (h c main_arg3).trans (arg3_eq (launchContents m c)),
       (h c main_arg4).trans (arg4_eq (launchContents m c)), (h c main_arg5).trans (arg5_eq (launchContents m c)),
       (h c main_arg6).trans (arg6_eq (launchContents m c)), (h c main_arg7).trans (arg7_eq (launchContents m c)),
       (h c main_arg8).trans (arg8_eq (launchContents m c)), (h c main_arg9).trans (arg9_eq (launchContents m c)),
       (h c main_arg10).trans (arg10_eq (launchContents m c)), (h c main_arg11).trans (arg11_eq (launchContents m c))⟩)
    (run_main (F := Ideal) m ρ)

end Cert.ReferenceIdeal.RefValueRun

end
-- ==== Proof.KernelPrefix.lean ====
/-
  What the host operations before the kernel's region leave in the two arrays the region stages that are not
  arguments: the stack of 33 gathered embeddings and the global statistic spread over the positions.

  A row number below zero is wrapped around by adding the table's height; the node's own row is gathered and given
  a unit axis, the 32 neighbours' rows are gathered, and the two are joined along the third axis.
-/
import proofs.«122214_j85014582657622_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.KPrefix

open Cert.KernelIdeal Cert.KernelIdeal.Gen Idealize.ShloMosaic Idealize.ShloMosaic.TcCoe Idealize.SL.Sem
open Idealize.ShloMosaic.StableHlo Idealize.ShloMosaic.ValueIdx

/-- The node's own embedding, [8, 1024, 1, 128]: its row of the table, the row number wrapped around when negative. -/
def srcArr (a0 : IVec S8x1024 32) (a5 : FVec Ideal S100001x128 .f32) : FVec Ideal S8x1024x1x128 .f32 :=
  broadcastInDim S8x1024x1x128 ![0, 1, 3] bcast_S8x1024x128_S8x1024x1x128_0_1_3
    (Host.gather gather_S100001x128_S8x1024x1_S8x1024x128_2_0_n_n_0_2_1128 a5
      (broadcastInDim S8x1024x1 ![0, 1] bcast_S8x1024_S8x1024x1_0_1
        (select (cmpi .slt a0 (broadcastInDim S8x1024 ![] bcast_S_S8x1024 (constantI S_ 32 0#32)))
          (addi a0 (broadcastInDim S8x1024 ![] bcast_S_S8x1024 (constantI S_ 32 100001#32))) a0)))

/-- The 32 neighbours' embeddings, [8, 1024, 32, 128]. -/
def neiArr (a1 : IVec S8x1024x32 32) (a5 : FVec Ideal S100001x128 .f32) : FVec Ideal S8x1024x32x128 .f32 :=
  Host.gather gather_S100001x128_S8x1024x32x1_S8x1024x32x128_3_0_n_n_0_3_1128 a5
    (broadcastInDim S8x1024x32x1 ![0, 1, 2] bcast_S8x1024x32_S8x1024x32x1_0_1_2
      (select (cmpi .slt a1 (broadcastInDim S8x1024x32 ![] bcast_S_S8x1024x32 (constantI S_ 32 0#32)))
        (addi a1 (broadcastInDim S8x1024x32 ![] bcast_S_S8x1024x32 (constantI S_ 32 100001#32))) a1))

/-- The stack of 33 embeddings, [8, 1024, 33, 128]: the node's own first, then its neighbours'. -/
def neArr (a0 : IVec S8x1024 32) (a1 : IVec S8x1024x32 32) (a5 : FVec Ideal S100001x128 .f32) :
    FVec Ideal S8x1024x33x128 .f32 :=
  concatenate S8x1024x33x128 2 [⟨S8x1024x1x128, srcArr a0 a5⟩, ⟨S8x1024x32x128, neiArr a1 a5⟩]
    concatenates_S8x1024x1x128_S8x1024x32x128_S8x1024x33x128_d2

variable (m : (ℓ : Loc nD τ sig) → Buf (Elt Ideal) ℓ)

set_option maxRecDepth 8192 in
set_option maxHeartbeats 2000000 in
/-- The region finds the stack of embeddings in the first window's array. -/
theorem V_v15 (c : Dev nD) :
    (V m c main_v15 : S8x1024x33x128.Idx → EReal)
      = neArr (m ((c : Thread nD τ).loc main_arg0)) (m ((c : Thread nD τ).loc main_arg1)) (m ((c : Thread nD τ).loc main_arg5)) := by
  unfold neArr srcArr neiArr
  dsimp only [Gen.V, Gen.hostOps0]
  after_results_simp
  try rfl

/-- The region finds the global statistic spread over the 1024 positions in the fourth window's array. -/
theorem V_v16 (c : Dev nD) :
    (V m c main_v16 : S8x1024x1.Idx → EReal)
      = broadcastInDim S8x1024x1 ![0, 1, 2] bcast_S8x1x1_S8x1024x1_0_1_2 (m ((c : Thread nD τ).loc main_arg4)) := by
  dsimp only [Gen.V, Gen.hostOps0]
  after_results

/-- Entry 0 of the stack is the node's own embedding. -/
theorem neArr_zero (a0 : IVec S8x1024 32) (a1 : IVec S8x1024x32 32) (a5 : FVec Ideal S100001x128 .f32)
    (b : Fin 8) (s : Fin 1024) (k : Fin 128) :
    neArr a0 a1 a5 (ix4 b s (0 : Fin 33) k) = srcArr a0 a5 (ix4 b s (0 : Fin 1) k) := by
  unfold neArr
  exact concatenate_pair_apply_left (2 : Fin 4) (srcArr a0 a5) (neiArr a1 a5) _ (ix4 b s (0 : Fin 33) k) rfl
    (ix4 b s (0 : Fin 1) k) (fun d => by match d with | ⟨0, _⟩ => rfl | ⟨1, _⟩ => rfl | ⟨2, _⟩ => rfl | ⟨3, _⟩ => rfl)

/-- The spread statistic at (b, s) is the statistic of batch b. -/
theorem spread_stat (a4 : FVec Ideal S8x1x1 .f32) (b : Fin 8) (s : Fin 1024) :
    broadcastInDim S8x1024x1 ![0, 1, 2] bcast_S8x1x1_S8x1024x1_0_1_2 a4 (ix3 b s (0 : Fin 1))
      = a4 (ix3 b (0 : Fin 1) (0 : Fin 1)) :=
  broadcastInDim_apply _ _ a4 _ (ix3 b (0 : Fin 1) (0 : Fin 1))
    (fun d => by match d with | ⟨0, _⟩ => rfl | ⟨1, _⟩ => rfl | ⟨2, _⟩ => rfl)

end Cert.KernelIdeal.KPrefix

end
-- ==== Proof.LibHostRead.lean ====
/-
  Host operations read at an index given by coordinates: a `broadcast_in_dim` that inserts unit axes or stretches
  them, a `dot_general` that contracts the last axis of a rank-3 array with the last axis of a matrix, and a
  reduction along axis 2 of a rank-4 array (a sum from an initial value, a commutative associative fold).
  Every lemma is general in the extents.
-/
import Idealize.ShloMosaic.Lib.Pipeline.Value
import Idealize.ShloMosaic.Lib.IdealHost
import Idealize.ShloMosaic.Lib.ValueIdx
import Idealize.ShloMosaic.PureOps.Ideal.Laws

open scoped BigOperators

namespace Cert.HostRead

open Idealize.ShloMosaic Idealize.ShloMosaic.ValueIdx

variable {α : Type}

/-- A coordinate is itself, or zero where its axis has one point. -/
theorem val_eq_ite {n : Nat} (c : Fin n) : c.val = if n = 1 then 0 else c.val := by
  split
  · have := c.isLt; omega
  · rfl

/-! ## Unit axes inserted -/

/-- `[a, c] → [a, 1, c]` along axes 0 and 2. -/
theorem bcast_ac_a1c {a c : Nat} (h : (⟨2, ![a, c]⟩ : Shape).BroadcastsInDim ⟨3, ![a, 1, c]⟩ ![0, 2])
    (X : (⟨2, ![a, c]⟩ : Shape).Idx → α) (i : Fin a) (u : Fin 1) (k : Fin c) :
    broadcastInDim ⟨3, ![a, 1, c]⟩ ![0, 2] h X (ix3 i u k) = X (ix2 i k) :=
  broadcastInDim_apply _ h X _ _ fun ax => by
    match ax with
    | ⟨0, _⟩ => exact val_eq_ite i
    | ⟨1, _⟩ => exact val_eq_ite k

/-- `[b, c] → [1, b, c]` along axes 1 and 2. -/
theorem bcast_bc_1bc {b c : Nat} (h : (⟨2, ![b, c]⟩ : Shape).BroadcastsInDim ⟨3, ![1, b, c]⟩ ![1, 2])
    (X : (⟨2, ![b, c]⟩ : Shape).Idx → α) (u : Fin 1) (j : Fin b) (k : Fin c) :
    broadcastInDim ⟨3, ![1, b, c]⟩ ![1, 2] h X (ix3 u j k) = X (ix2 j k) :=
  broadcastInDim_apply _ h X _ _ fun ax => by
    match ax with
    | ⟨0, _⟩ => exact val_eq_ite j
    | ⟨1, _⟩ => exact val_eq_ite k

/-- `[a, b] → [a, b, 1]` along axes 0 and 1. -/
theorem bcast_ab_ab1 {a b : Nat} (h : (⟨2, ![a, b]⟩ : Shape).BroadcastsInDim ⟨3, ![a, b, 1]⟩ ![0, 1])
    (X : (⟨2, ![a, b]⟩ : Shape).Idx → α) (i : Fin a) (j : Fin b) (u : Fin 1) :
    broadcastInDim ⟨3, ![a, b, 1]⟩ ![0, 1] h X (ix3 i j u) = X (ix2 i j) :=
  broadcastInDim_apply _ h X _ _ fun ax => by
    match ax with
    | ⟨0, _⟩ => exact val_eq_ite i
    | ⟨1, _⟩ => exact val_eq_ite j

/-- `[c] → [1, 1, c]` along axis 2. -/
theorem bcast_c_11c {c : Nat} (h : (⟨1, ![c]⟩ : Shape).BroadcastsInDim ⟨3, ![1, 1, c]⟩ ![2])
    (X : (⟨1, ![c]⟩ : Shape).Idx → α) (u v : Fin 1) (k : Fin c) :
    broadcastInDim ⟨3, ![1, 1, c]⟩ ![2] h X (ix3 u v k) = X (ix1 k) :=
  broadcastInDim_apply _ h X _ _ fun ax => by
    match ax with
    | ⟨0, _⟩ => exact val_eq_ite k

/-- `[d] → [1, 1, 1, d]` along axis 3. -/
theorem bcast_d_111d {d : Nat} (h : (⟨1, ![d]⟩ : Shape).BroadcastsInDim ⟨4, ![1, 1, 1, d]⟩ ![3])
    (X : (⟨1, ![d]⟩ : Shape).Idx → α) (u v w : Fin 1) (l : Fin d) :
    broadcastInDim ⟨4, ![1, 1, 1, d]⟩ ![3] h X (ix4 u v w l) = X (ix1 l) :=
  broadcastInDim_apply _ h X _ _ fun ax => by
    match ax with
    | ⟨0, _⟩ => exact val_eq_ite l

/-- `[a, b, c] → [a, b, c, 1]` along axes 0, 1, 2. -/
theorem bcast_abc_abc1 {a b c : Nat} (h : (⟨3, ![a, b, c]⟩ : Shape).BroadcastsInDim ⟨4, ![a, b, c, 1]⟩ ![0, 1, 2])
    (X : (⟨3, ![a, b, c]⟩ : Shape).Idx → α) (i : Fin a) (j : Fin b) (k : Fin c) (u : Fin 1) :
    broadcastInDim ⟨4, ![a, b, c, 1]⟩ ![0, 1, 2] h X (ix4 i j k u) = X (ix3 i j k) :=
  broadcastInDim_apply _ h X _ _ fun ax => by
    match ax with
    | ⟨0, _⟩ => exact val_eq_ite i
    | ⟨1, _⟩ => exact val_eq_ite j
    | ⟨2, _⟩ => exact val_eq_ite k

/-- `[a, c, d] → [a, 1, c, d]` along axes 0, 2, 3. -/
theorem bcast_acd_a1cd {a c d : Nat} (h : (⟨3, ![a, c, d]⟩ : Shape).BroadcastsInDim ⟨4, ![a, 1, c, d]⟩ ![0, 2, 3])
    (X : (⟨3, ![a, c, d]⟩ : Shape).Idx → α) (i : Fin a) (u : Fin 1) (k : Fin c) (l : Fin d) :
    broadcastInDim ⟨4, ![a, 1, c, d]⟩ ![0, 2, 3] h X (ix4 i u k l) = X (ix3 i k l) :=
  broadcastInDim_apply _ h X _ _ fun ax => by
    match ax with
    | ⟨0, _⟩ => exact val_eq_ite i
    | ⟨1, _⟩ => exact val_eq_ite k
    | ⟨2, _⟩ => exact val_eq_ite l

/-- `[a, b, d] → [a, b, 1, d]` along axes 0, 1, 3. -/
theorem bcast_abd_ab1d {a b d : Nat} (h : (⟨3, ![a, b, d]⟩ : Shape).BroadcastsInDim ⟨4, ![a, b, 1, d]⟩ ![0, 1, 3])
    (X : (⟨3, ![a, b, d]⟩ : Shape).Idx → α) (i : Fin a) (j : Fin b) (u : Fin 1) (l : Fin d) :
    broadcastInDim ⟨4, ![a, b, 1, d]⟩ ![0, 1, 3] h X (ix4 i j u l) = X (ix3 i j l) :=
  broadcastInDim_apply _ h X _ _ fun ax => by
    match ax with
    | ⟨0, _⟩ => exact val_eq_ite i
    | ⟨1, _⟩ => exact val_eq_ite j
    | ⟨2, _⟩ => exact val_eq_ite l

/-! ## Unit axes stretched (the same rank, axes in order) -/

/-- `[a, 1, c] → [a, b, c]`. -/
theorem bcast_a1c_abc {a b c : Nat} (h : (⟨3, ![a, 1, c]⟩ : Shape).BroadcastsInDim ⟨3, ![a, b, c]⟩ ![0, 1, 2])
    (X : (⟨3, ![a, 1, c]⟩ : Shape).Idx → α) (i : Fin a) (j : Fin b) (k : Fin c) :
    broadcastInDim ⟨3, ![a, b, c]⟩ ![0, 1, 2] h X (ix3 i j k) = X (ix3 i (0 : Fin 1) k) :=
  broadcastInDim_apply _ h X _ _ fun ax => by
    match ax with
    | ⟨0, _⟩ => exact val_eq_ite i
    | ⟨1, _⟩ => exact (if_pos rfl).symm
    | ⟨2, _⟩ => exact val_eq_ite k

/-- `[1, b, c] → [a, b, c]`. -/
theorem bcast_1bc_abc {a b c : Nat} (h : (⟨3, ![1, b, c]⟩ : Shape).BroadcastsInDim ⟨3, ![a, b, c]⟩ ![0, 1, 2])
    (X : (⟨3, ![1, b, c]⟩ : Shape).Idx → α) (i : Fin a) (j : Fin b) (k : Fin c) :
    broadcastInDim ⟨3, ![a, b, c]⟩ ![0, 1, 2] h X (ix3 i j k) = X (ix3 (0 : Fin 1) j k) :=
  broadcastInDim_apply _ h X _ _ fun ax => by
    match ax with
    | ⟨0, _⟩ => exact (if_pos rfl).symm
    | ⟨1, _⟩ => exact val_eq_ite j
    | ⟨2, _⟩ => exact val_eq_ite k

/-- `[1, 1, c] → [a, b, c]`. -/
theorem bcast_11c_abc {a b c : Nat} (h : (⟨3, ![1, 1, c]⟩ : Shape).BroadcastsInDim ⟨3, ![a, b, c]⟩ ![0, 1, 2])
    (X : (⟨3, ![1, 1, c]⟩ : Shape).Idx → α) (i : Fin a) (j : Fin b) (k : Fin c) :
    broadcastInDim ⟨3, ![a, b, c]⟩ ![0, 1, 2] h X (ix3 i j k) = X (ix3 (0 : Fin 1) (0 : Fin 1) k) :=
  broadcastInDim_apply _ h X _ _ fun ax => by
    match ax with
    | ⟨0, _⟩ => exact (if_pos rfl).symm
    | ⟨1, _⟩ => exact (if_pos rfl).symm
    | ⟨2, _⟩ => exact val_eq_ite k

/-- `[a, b, 1] → [a, b, c]`. -/
theorem bcast_ab1_abc {a b c : Nat} (h : (⟨3, ![a, b, 1]⟩ : Shape).BroadcastsInDim ⟨3, ![a, b, c]⟩ ![0, 1, 2])
    (X : (⟨3, ![a, b, 1]⟩ : Shape).Idx → α) (i : Fin a) (j : Fin b) (k : Fin c) :
    broadcastInDim ⟨3, ![a, b, c]⟩ ![0, 1, 2] h X (ix3 i j k) = X (ix3 i j (0 : Fin 1)) :=
  broadcastInDim_apply _ h X _ _ fun ax => by
    match ax with
    | ⟨0, _⟩ => exact val_eq_ite i
    | ⟨1, _⟩ => exact val_eq_ite j
    | ⟨2, _⟩ => exact (if_pos rfl).symm

/-- `[a, 1, c, d] → [a, b, c, d]`. -/
theorem bcast_a1cd_abcd {a b c d : Nat}
    (h : (⟨4, ![a, 1, c, d]⟩ : Shape).BroadcastsInDim ⟨4, ![a, b, c, d]⟩ ![0, 1, 2, 3])
    (X : (⟨4, ![a, 1, c, d]⟩ : Shape).Idx → α) (i : Fin a) (j : Fin b) (k : Fin c) (l : Fin d) :
    broadcastInDim ⟨4, ![a, b, c, d]⟩ ![0, 1, 2, 3] h X (ix4 i j k l) = X (ix4 i (0 : Fin 1) k l) :=
  broadcastInDim_apply _ h X _ _ fun ax => by
    match ax with
    | ⟨0, _⟩ => exact val_eq_ite i
    | ⟨1, _⟩ => exact (if_pos rfl).symm
    | ⟨2, _⟩ => exact val_eq_ite k
    | ⟨3, _⟩ => exact val_eq_ite l

/-- `[a, b, 1, d] → [a, b, c, d]`. -/
theorem bcast_ab1d_abcd {a b c d : Nat}
    (h : (⟨4, ![a, b, 1, d]⟩ : Shape).BroadcastsInDim ⟨4, ![a, b, c, d]⟩ ![0, 1, 2, 3])
    (X : (⟨4, ![a, b, 1, d]⟩ : Shape).Idx → α) (i : Fin a) (j : Fin b) (k : Fin c) (l : Fin d) :
    broadcastInDim ⟨4, ![a, b, c, d]⟩ ![0, 1, 2, 3] h X (ix4 i j k l) = X (ix4 i j (0 : Fin 1) l) :=
  broadcastInDim_apply _ h X _ _ fun ax => by
    match ax with
    | ⟨0, _⟩ => exact val_eq_ite i
    | ⟨1, _⟩ => exact val_eq_ite j
    | ⟨2, _⟩ => exact (if_pos rfl).symm
    | ⟨3, _⟩ => exact val_eq_ite l

/-- `[a, b, c, 1] → [a, b, c, d]`. -/
theorem bcast_abc1_abcd {a b c d : Nat}
    (h : (⟨4, ![a, b, c, 1]⟩ : Shape).BroadcastsInDim ⟨4, ![a, b, c, d]⟩ ![0, 1, 2, 3])
    (X : (⟨4, ![a, b, c, 1]⟩ : Shape).Idx → α) (i : Fin a) (j : Fin b) (k : Fin c) (l : Fin d) :
    broadcastInDim ⟨4, ![a, b, c, d]⟩ ![0, 1, 2, 3] h X (ix4 i j k l) = X (ix4 i j k (0 : Fin 1)) :=
  broadcastInDim_apply _ h X _ _ fun ax => by
    match ax with
    | ⟨0, _⟩ => exact val_eq_ite i
    | ⟨1, _⟩ => exact val_eq_ite j
    | ⟨2, _⟩ => exact val_eq_ite k
    | ⟨3, _⟩ => exact (if_pos rfl).symm

/-- `[1, 1, 1, d] → [a, b, c, d]`. -/
theorem bcast_111d_abcd {a b c d : Nat}
    (h : (⟨4, ![1, 1, 1, d]⟩ : Shape).BroadcastsInDim ⟨4, ![a, b, c, d]⟩ ![0, 1, 2, 3])
    (X : (⟨4, ![1, 1, 1, d]⟩ : Shape).Idx → α) (i : Fin a) (j : Fin b) (k : Fin c) (l : Fin d) :
    broadcastInDim ⟨4, ![a, b, c, d]⟩ ![0, 1, 2, 3] h X (ix4 i j k l) = X (ix4 (0 : Fin 1) (0 : Fin 1) (0 : Fin 1) l) :=
  broadcastInDim_apply _ h X _ _ fun ax => by
    match ax with
    | ⟨0, _⟩ => exact (if_pos rfl).symm
    | ⟨1, _⟩ => exact (if_pos rfl).symm
    | ⟨2, _⟩ => exact (if_pos rfl).symm
    | ⟨3, _⟩ => exact val_eq_ite l

/-! ## A `dot_general` contracting the last axis of a rank-3 array with the last axis of a matrix -/

/-- Over `[a, b, k]` and `[m, k]`, contracting axis 2 with axis 1: at `(i, j, c)` the sum over the contracted coordinate
    of the products of the entries. At the ideal values. `D` is any record with these dimension numbers. -/
theorem dot3_apply {a b k m : Nat} {φ₁ φ₂ : FTy}
    (w : DotDims.WF ⟨3, ![a, b, k]⟩ ⟨2, ![m, k]⟩ ⟨3, ![a, b, m]⟩ [2] [1] [0, 1] [0] [] [])
    (D : DotDims ⟨3, ![a, b, k]⟩ ⟨2, ![m, k]⟩ ⟨3, ![a, b, m]⟩) (hD : D = ⟨[2], [1], [0, 1], [0], [], [], w⟩)
    (prec : Option ContractPrecision) (A : FVec Ideal ⟨3, ![a, b, k]⟩ φ₁) (B : FVec Ideal ⟨2, ![m, k]⟩ φ₂)
    (i : Fin a) (j : Fin b) (c : Fin m) :
    Host.dotGeneral (F := Ideal) D prec A B (ix3 i j c) = ∑ e : Fin k, A (ix3 i j e) * B (ix2 c e) := by
  subst hD
  show FloatOps.dotGeneral _ prec _ A B (ix3 i j c) = _
  rw [Ideal.dotGeneral_apply,
    ← Equiv.sum_comp (contrEquiv1 (⟨[2], [1], [0, 1], [0], [], [], w⟩ : DotDims _ _ _) k rfl rfl).symm]
  refine Finset.sum_congr rfl fun e _ => ?_
  have c3 := contrEquiv1_symm_val
    (⟨[2], [1], [0, 1], [0], [], [], w⟩ : DotDims ⟨3, ![a, b, k]⟩ ⟨2, ![m, k]⟩ ⟨3, ![a, b, m]⟩) k rfl rfl e
  have l3 : (⟨[2], [1], [0, 1], [0], [], [], w⟩ : DotDims ⟨3, ![a, b, k]⟩ ⟨2, ![m, k]⟩ ⟨3, ![a, b, m]⟩).lhsIdx (ix3 i j c)
      ((contrEquiv1 _ k rfl rfl).symm e) = ix3 i j e := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![a, b, k]⟩ ⟨2, ![m, k]⟩ ⟨3, ![a, b, m]⟩).rhsIdx (ix3 i j c)
      ((contrEquiv1 _ k rfl rfl).symm e) = ix2 c e := by
    funext ax; apply Fin.ext
    match ax with
    | ⟨0, _⟩ => simp [DotDims.rhsIdx]; rfl
    | ⟨1, _⟩ => simp [DotDims.rhsIdx]; exact c3
  rw [l3, r3]

/-! ## A reduction along axis 2 of a rank-4 array -/

/-- The index of the source over `(i, j, l)` with `k` on the reduced axis is `(i, j, k, l)`. -/
theorem lift4_axis2 {a b c d : Nat} (h : (⟨4, ![a, b, c, d]⟩ : Shape).Reduces [2] ⟨3, ![a, b, d]⟩)
    (i : Fin a) (j : Fin b) (l : Fin d) (k : Fin c) : h.lift (ix3 i j l) k = ix4 i j k l := by
  funext ax; apply Fin.ext
  match ax with
  | ⟨0, _⟩ => rfl
  | ⟨1, _⟩ => rfl
  | ⟨2, _⟩ => rfl
  | ⟨3, _⟩ => rfl

/-- The host's float sum along axis 2, at the ideal values: the initial value plus the sum over that axis. -/
theorem reduceAdd4_axis2_apply {a b c d : Nat} {φ : FTy} {u : Shape}
    (h' : (⟨4, ![a, b, c, d]⟩ : Shape).ReducesTo [2] ⟨3, ![a, b, d]⟩)
    (h : (⟨4, ![a, b, c, d]⟩ : Shape).Reduces [2] ⟨3, ![a, b, d]⟩) (hu : 0 < u.numel)
    (X : FVec Ideal ⟨4, ![a, b, c, d]⟩ φ) (init : u.Idx → Ideal φ) (i : Fin a) (j : Fin b) (l : Fin d) :
    Host.reduceAdd (F := Ideal) X init h' hu (ix3 i j l)
      = init (Shape.Idx.first hu) + ∑ k : Fin c, X (ix4 i j k l) := by
  refine (hostReduceAdd_apply X init h' hu _).trans ?_
  refine (Ideal.hostReduceAdd_single h' h X _ _).trans ?_
  exact congrArg _ (Finset.sum_congr rfl fun k _ => congrArg X (lift4_axis2 h i j l k))

/-- The host's reduction along axis 2 with a commutative associative body: the fold from the initial value over that
    axis. -/
theorem reduceFold4_axis2_apply {a b c d : Nat} {u : Shape} (f : α → α → α) [Std.Commutative f] [Std.Associative f]
    (h' : (⟨4, ![a, b, c, d]⟩ : Shape).ReducesTo [2] ⟨3, ![a, b, d]⟩)
    (h : (⟨4, ![a, b, c, d]⟩ : Shape).Reduces [2] ⟨3, ![a, b, d]⟩) (hu : 0 < u.numel)
    (X : (⟨4, ![a, b, c, d]⟩ : Shape).Idx → α) (init : u.Idx → α) (i : Fin a) (j : Fin b) (l : Fin d) :
    Host.reduce f X init h' hu (ix3 i j l)
      = (Finset.univ : Finset (Fin c)).fold f (init (Shape.Idx.first hu)) (fun k => X (ix4 i j k l)) := by
  refine (Host.reduce_eq_fold_single f X init h' h hu _).trans ?_
  exact congrArg (fun g => (Finset.univ : Finset (Fin c)).fold f (init (Shape.Idx.first hu)) g)
    (funext fun k => congrArg X (lift4_axis2 h i j l k))

end Cert.HostRead
-- ==== Proof.RefReadBase.lean ====
/-
  Two readings shared by the stages of the reference: the leaky rectifier on an array is the scalar
  rectifier at every entry, and a product contracting the last axis of a rank-4 array with the last
  axis of a matrix is, entry by entry, the sum over the contracted coordinate.
-/
import proofs.«122214_j85014582657622_2_alg».proof.Proof.RefTail
import proofs.«122214_j85014582657622_2_alg».proof.Proof.Spec
import proofs.«122214_j85014582657622_2_alg».proof.Proof.LibHostRead

open scoped BigOperators

noncomputable section

namespace Cert.ReferenceIdeal.RefRead

open Cert.ReferenceIdeal Cert.ReferenceIdeal.Gen Cert.ReferenceIdeal.RefValue Idealize.ShloMosaic
  Idealize.ShloMosaic.ValueIdx

/-- The array rectifier with the program's slope word, read at an entry: the comparison with the
    spread zero, the product with the spread slope and the select are all entrywise, and a spread
    scalar reads the scalar everywhere. -/
theorem leakyArr_apply (s : Shape) (bc : S_.BroadcastsInDim s (![] : Fin 0 → Fin s.rank))
    (x : FVec Ideal s .f32) (i : s.Idx) :
    leakyArr s bc x (constant (F := Ideal) S_ .f32 0x3E4CCCCD#32) i = Cert.Spec.leaky (x i) := by
  unfold leakyArr Cert.Spec.leaky
  show Scalar.select (FloatOps.cmpf .oge (x i)
      (broadcastInDim s ![] bc (constant (F := Ideal) S_ .f32 0x00000000#32) i)) (x i)
      (broadcastInDim s ![] bc (id (constant (F := Ideal) S_ .f32 0x3E4CCCCD#32)) i * x i) = _
  rw [broadcastInDim_scalar_apply, broadcastInDim_scalar_apply]
  rfl

/-- Over `[a, b, n, k]` and `[m, k]`, contracting axis 3 with axis 1: at `(i, j, r, c)` the sum over
    the contracted coordinate of the products of the entries. -/
theorem dot4_apply {a b n k m : Nat} {φ₁ φ₂ : FTy}
    (w : DotDims.WF ⟨4, ![a, b, n, k]⟩ ⟨2, ![m, k]⟩ ⟨4, ![a, b, n, m]⟩ [3] [1] [0, 1, 2] [0] [] [])
    (D : DotDims ⟨4, ![a, b, n, k]⟩ ⟨2, ![m, k]⟩ ⟨4, ![a, b, n, m]⟩)
    (hD : D = ⟨[3], [1], [0, 1, 2], [0], [], [], w⟩)
    (prec : Option ContractPrecision) (A : FVec Ideal ⟨4, ![a, b, n, k]⟩ φ₁) (B : FVec Ideal ⟨2, ![m, k]⟩ φ₂)
    (i : Fin a) (j : Fin b) (r : Fin n) (c : Fin m) :
    Host.dotGeneral (F := Ideal) D prec A B (ix4 i j r c) = ∑ e : Fin k, A (ix4 i j r e) * B (ix2 c e) := by
  subst hD
  show FloatOps.dotGeneral _ prec _ A B (ix4 i j r c) = _
  rw [Ideal.dotGeneral_apply,
    ← Equiv.sum_comp (contrEquiv1 (⟨[3], [1], [0, 1, 2], [0], [], [], w⟩ : DotDims _ _ _) k rfl rfl).symm]
  refine Finset.sum_congr rfl fun e _ => ?_
  have c3 := contrEquiv1_symm_val
    (⟨[3], [1], [0, 1, 2], [0], [], [], w⟩ :
      DotDims ⟨4, ![a, b, n, k]⟩ ⟨2, ![m, k]⟩ ⟨4, ![a, b, n, m]⟩) k rfl rfl e
  have l3 : (⟨[3], [1], [0, 1, 2], [0], [], [], w⟩ :
      DotDims ⟨4, ![a, b, n, k]⟩ ⟨2, ![m, k]⟩ ⟨4, ![a, b, n, m]⟩).lhsIdx (ix4 i j r c)
      ((contrEquiv1 _ k rfl rfl).symm e) = ix4 i j r e := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact c3
  have r3 : (⟨[3], [1], [0, 1, 2], [0], [], [], w⟩ :
      DotDims ⟨4, ![a, b, n, k]⟩ ⟨2, ![m, k]⟩ ⟨4, ![a, b, n, m]⟩).rhsIdx (ix4 i j r c)
      ((contrEquiv1 _ k rfl rfl).symm e) = ix2 c e := by
    funext ax; apply Fin.ext
    match ax with
    | ⟨0, _⟩ => simp [DotDims.rhsIdx]; rfl
    | ⟨1, _⟩ => simp [DotDims.rhsIdx]; exact c3
  rw [l3, r3]

end Cert.ReferenceIdeal.RefRead

end
-- ==== Proof.LibScatterRows.lean ====
/-
  A BLOCK OF ROWS WRITTEN INTO A LARGER ARRAY BY ONE SCATTER WINDOW, read at an entry.

  `stablehlo.scatter` of an `[N, C]` array of updates into an `[M, C]` operand, with both axes of the updates
  window axes, no inserted axis, the one component of the single scatter index naming the operand's axis 0, and
  that index equal to 0: the whole of the updates is ONE window whose corner is the operand's corner (what writing
  an array into the first `N` rows of a larger one lowers to). Entry `(k, c)` of the result is the body applied to
  the operand's entry and the update's entry `(k, c)` when `k < N`, and the operand's entry when `N ≤ k`
  (`scatter_rows_apply`).

  The scatter is a left fold of point updates over the update indices in row-major order. Three layers:
  * a fold of point updates over any list, read at one point: a point no element of the list is sent to keeps its
    value (`foldl_point_of_not_hit`); a point exactly one element of a list without repeats is sent to is
    updated once, by that element (`foldl_point_of_hit_once`);
  * the same two statements for `Host.scatter` with any dimension numbers, in terms of the result index of each
    update index (`scatter_apply_of_not_hit`, `scatter_apply_of_hit_once`): the update indices in row-major order
    are the list of all of them, without repeats, because row-major order is a bijection;
  * for the dimension numbers above the window starts at 0 on both axes and the window coordinate on each axis is
    the update index's own coordinate, so update index `(r, c)` lands at operand index `(r, c)`
    (`rows_resultIdx`): an injective map whose image is the rows below `N`.
-/
import Idealize.ShloMosaic.Lib.ValueIdx
import Idealize.ShloMosaic.PureOps.ShapeOps

noncomputable section

namespace Cert.LibScatterRows

open Idealize.ShloMosaic Idealize.ShloMosaic.ValueIdx

/-! ## A left fold of point updates, read at one point

`g n` is the point element `n` updates (`none`: it updates nothing), `u n` the value it brings, `f` combines the old
value with the brought one. The step is given by its two defining equations rather than as a `match`, so that the
lemmas apply to any function that satisfies them. -/

section Fold
variable {ι κ α : Type} [DecidableEq ι]

/-- A point that no element of the list updates keeps its value through the fold. By induction on the list: the
    head's step changes only the point the head is sent to, which is another one. -/
theorem foldl_point_of_not_hit (g : κ → Option ι) (f : α → α → α) (u : κ → α)
    (step : (ι → α) → κ → ι → α)
    (hs : ∀ r n i, g n = some i → step r n = fun j => if j = i then f (r i) (u n) else r j)
    (hn : ∀ r n, g n = none → step r n = r)
    (L : List κ) (x : ι → α) (i' : ι) (h : ∀ n ∈ L, g n ≠ some i') :
    L.foldl step x i' = x i' := by
  induction L generalizing x with
  | nil => rfl
  | cons n L ih =>
    rw [List.foldl_cons, ih _ (fun m hm => h m (List.mem_cons_of_mem _ hm))]
    cases hg : g n with
    | none => rw [hn x n hg]
    | some i =>
      rw [hs x n i hg]
      have hne : i' ≠ i := fun e => h n (List.mem_cons_self ..) (by rw [hg, e])
      exact if_neg hne

/-- A point that exactly one element `n0` of a list without repeats updates is, after the fold, `f` of its first value
    and the value `n0` brings. By induction on the list: if `n0` is the head, the head's step makes the update and
    the tail (which does not contain `n0` again, so updates the point no more) keeps it; if `n0` is in the tail, the
    head is another element, so leaves the point alone, and the induction hypothesis applies to the tail. -/
theorem foldl_point_of_hit_once (g : κ → Option ι) (f : α → α → α) (u : κ → α)
    (step : (ι → α) → κ → ι → α)
    (hs : ∀ r n i, g n = some i → step r n = fun j => if j = i then f (r i) (u n) else r j)
    (hn : ∀ r n, g n = none → step r n = r)
    (L : List κ) (hnd : L.Nodup) (x : ι → α) (i' : ι) (n0 : κ) (hn0 : n0 ∈ L) (hg0 : g n0 = some i')
    (huniq : ∀ n ∈ L, g n = some i' → n = n0) :
    L.foldl step x i' = f (x i') (u n0) := by
  induction L generalizing x with
  | nil => cases hn0
  | cons n L ih =>
    rw [List.foldl_cons]
    have hnd' := List.nodup_cons.1 hnd
    rcases List.mem_cons.1 hn0 with heq | hmem
    · subst heq
      rw [foldl_point_of_not_hit g f u step hs hn L _ i' (fun m hm hgm => by
        have := huniq m (List.mem_cons_of_mem _ hm) hgm
        subst this; exact hnd'.1 hm)]
      rw [hs x n0 i' hg0]; exact if_pos rfl
    · have hne : n ≠ n0 := fun e => hnd'.1 (e ▸ hmem)
      have hgn : g n ≠ some i' := fun e => hne (huniq n (List.mem_cons_self ..) e)
      rw [ih hnd'.2 _ hmem (fun m hm => huniq m (List.mem_cons_of_mem _ hm))]
      congr 1
      cases hg : g n with
      | none => rw [hn x n hg]
      | some i => rw [hs x n i hg]; exact if_neg (fun e => hgn (by rw [hg, e]))

end Fold

/-! ## `Host.scatter` read at an operand index, for any dimension numbers -/

section Scatter
variable {α : Type} {s si u : Shape} {w : Nat}

/-- An operand index that is the result index of no update index keeps the operand's element. -/
theorem scatter_apply_of_not_hit (d : ScatterDims s si u) (f : α → α → α) (x : s.Idx → α) (idx : IVec si w)
    (upd : u.Idx → α) (i' : s.Idx) (h : ∀ j, d.resultIdx? j idx ≠ some i') :
    Host.scatter d f x idx upd i' = x i' := by
  unfold Host.scatter
  exact foldl_point_of_not_hit (fun n => d.resultIdx? (u.rowMajor.symm n) idx) f (fun n => upd (u.rowMajor.symm n)) _
    (fun r n i hg => by
      have hg' : d.resultIdx? (u.rowMajor.symm n) idx = some i := hg
      simp only [hg'])
    (fun r n hg => by
      have hg' : d.resultIdx? (u.rowMajor.symm n) idx = none := hg
      simp only [hg'])
    (List.finRange u.numel) x i' (fun n _ => h (u.rowMajor.symm n))

/-- An operand index that is the result index of exactly one update index `j0` holds the body applied to the
    operand's element and the update's element at `j0`. The fold runs over the positions `0 … numel − 1`, a list
    without repeats, each standing for the update index at that row-major position; that correspondence is a
    bijection, so the one position sent to the operand index is `j0`'s. -/
theorem scatter_apply_of_hit_once (d : ScatterDims s si u) (f : α → α → α) (x : s.Idx → α) (idx : IVec si w)
    (upd : u.Idx → α) (i' : s.Idx) (j0 : u.Idx) (h0 : d.resultIdx? j0 idx = some i')
    (huniq : ∀ j, d.resultIdx? j idx = some i' → j = j0) :
    Host.scatter d f x idx upd i' = f (x i') (upd j0) := by
  unfold Host.scatter
  refine (foldl_point_of_hit_once (fun n => d.resultIdx? (u.rowMajor.symm n) idx) f
    (fun n => upd (u.rowMajor.symm n)) _
    (fun r n i hg => by
      have hg' : d.resultIdx? (u.rowMajor.symm n) idx = some i := hg
      simp only [hg'])
    (fun r n hg => by
      have hg' : d.resultIdx? (u.rowMajor.symm n) idx = none := hg
      simp only [hg'])
    (List.finRange u.numel) (List.nodup_finRange _) x i' (u.rowMajor j0) (List.mem_finRange _)
    (by simp only [Equiv.symm_apply_apply]; exact h0)
    (fun n _ hg => by
      have := huniq (u.rowMajor.symm n) hg
      rw [← this, Equiv.apply_symm_apply])).trans ?_
  simp only [Equiv.symm_apply_apply]

end Scatter

/-! ## One window of `N` rows at the corner of an `[M, C]` operand -/

section Rows
variable {M N C w : Nat}

/-- The dimension numbers: operand `[M, C]`, scatter indices `[1]` (one index vector of one component, along axis
    0), updates `[N, C]`; both update axes are window axes, no operand axis is inserted, the index's component
    is the start on operand axis 0. Their conditions `wf` are decided on a program's literal shapes. -/
abbrev rowsDims (M N C : Nat) (wf : ScatterDims.WF ⟨2, ![M, C]⟩ ⟨1, ![1]⟩ ⟨2, ![N, C]⟩ [0, 1] [] [0] 0) :
    ScatterDims ⟨2, ![M, C]⟩ ⟨1, ![1]⟩ ⟨2, ![N, C]⟩ where
  updateWindowDims := [0, 1]
  insertedWindowDims := []
  scatterDimsToOperandDims := [0]
  indexVectorDim := 0
  wf := wf

/-- With no inserted axis the operand's kept axes are both of its axes. -/
theorem rows_sKept (wf : ScatterDims.WF ⟨2, ![M, C]⟩ ⟨1, ![1]⟩ ⟨2, ![N, C]⟩ [0, 1] [] [0] 0) :
    (rowsDims M N C wf).sKept = [0, 1] := rfl

/-- The conditions contain `N ≤ M`: window axis 0 of the updates is at most the operand axis it goes to. -/
theorem rows_le (wf : ScatterDims.WF ⟨2, ![M, C]⟩ ⟨1, ![1]⟩ ⟨2, ![N, C]⟩ [0, 1] [] [0] 0) : N ≤ M :=
  (rowsDims M N C wf).window_size ⟨0, Nat.zero_lt_two⟩

/-- The window starts at 0 on operand axis 0: that start is the scatter index's one component, read at the
    scatter-indices index whose only coordinate is 0, and it is 0 by hypothesis. -/
theorem rows_start0 (wf : ScatterDims.WF ⟨2, ![M, C]⟩ ⟨1, ![1]⟩ ⟨2, ![N, C]⟩ [0, 1] [] [0] 0)
    (idx : IVec ⟨1, ![1]⟩ w) (hidx : (idx (ix1 0)).toInt = 0) (j : (⟨2, ![N, C]⟩ : Shape).Idx) :
    (rowsDims M N C wf).start j idx 0 = 0 := by
  unfold ScatterDims.start
  rw [dif_pos (show (0 : Fin 2) ∈ (rowsDims M N C wf).scatterDimsToOperandDims from List.mem_singleton.mpr rfl)]
  have hsi : (rowsDims M N C wf).siIdx j ⟨List.idxOf (0 : Fin 2) (rowsDims M N C wf).scatterDimsToOperandDims,
      List.idxOf_lt_length_iff.2 (List.mem_singleton.mpr rfl)⟩ = ix1 0 := by
    funext b; refine Fin.ext ?_
    match b with
    | ⟨0, _⟩ => rfl
  rw [hsi]; exact hidx

/-- The window starts at 0 on operand axis 1: the scatter index has no component for it. -/
theorem rows_start1 (wf : ScatterDims.WF ⟨2, ![M, C]⟩ ⟨1, ![1]⟩ ⟨2, ![N, C]⟩ [0, 1] [] [0] 0)
    (idx : IVec ⟨1, ![1]⟩ w) (j : (⟨2, ![N, C]⟩ : Shape).Idx) :
    (rowsDims M N C wf).start j idx 1 = 0 := by
  unfold ScatterDims.start
  rw [dif_neg (show (1 : Fin 2) ∉ (rowsDims M N C wf).scatterDimsToOperandDims from
    fun h => Nat.one_ne_zero (congrArg Fin.val (List.mem_singleton.mp h)))]

/-- The window coordinate on operand axis 0 is the update index's coordinate 0. -/
theorem rows_window0 (wf : ScatterDims.WF ⟨2, ![M, C]⟩ ⟨1, ![1]⟩ ⟨2, ![N, C]⟩ [0, 1] [] [0] 0)
    (j : (⟨2, ![N, C]⟩ : Shape).Idx) : (rowsDims M N C wf).window j 0 = (j 0).val := by
  unfold ScatterDims.window
  rw [dif_pos (show (0 : Fin 2) ∈ (rowsDims M N C wf).sKept by rw [rows_sKept]; exact List.mem_cons_self ..)]
  rfl

/-- The window coordinate on operand axis 1 is the update index's coordinate 1. -/
theorem rows_window1 (wf : ScatterDims.WF ⟨2, ![M, C]⟩ ⟨1, ![1]⟩ ⟨2, ![N, C]⟩ [0, 1] [] [0] 0)
    (j : (⟨2, ![N, C]⟩ : Shape).Idx) : (rowsDims M N C wf).window j 1 = (j 1).val := by
  unfold ScatterDims.window
  rw [dif_pos (show (1 : Fin 2) ∈ (rowsDims M N C wf).sKept by rw [rows_sKept]; exact List.mem_cons_of_mem _ (List.mem_cons_self ..))]
  rfl

end Rows

section RowsMain
variable {α : Type} {M N C w : Nat}

/-- Update index `(r, c)` lands at operand index `(r, c)`: start plus window coordinate is `0 + r` on axis 0 and
    `0 + c` on axis 1, inside the operand because `r < N ≤ M` and `c < C`; no update is dropped. -/
theorem rows_resultIdx (wf : ScatterDims.WF ⟨2, ![M, C]⟩ ⟨1, ![1]⟩ ⟨2, ![N, C]⟩ [0, 1] [] [0] 0)
    (idx : IVec ⟨1, ![1]⟩ w) (hidx : (idx (ix1 0)).toInt = 0) (j : (⟨2, ![N, C]⟩ : Shape).Idx) :
    (rowsDims M N C wf).resultIdx? j idx
      = some (ix2 ⟨(j 0).val, Nat.lt_of_lt_of_le (idx2_lt0 j) (rows_le wf)⟩ (j 1)) := by
  have hNM := rows_le wf
  have hj0 := idx2_lt0 j
  have hj1 := idx2_lt1 j
  have h0 : (rowsDims M N C wf).start j idx 0 + ((rowsDims M N C wf).window j 0 : Int) = ((j 0).val : Int) := by
    rw [rows_start0 wf idx hidx j, rows_window0 wf j, Int.zero_add]
  have h1 : (rowsDims M N C wf).start j idx 1 + ((rowsDims M N C wf).window j 1 : Int) = ((j 1).val : Int) := by
    rw [rows_start1 wf idx j, rows_window1 wf j, Int.zero_add]
  unfold ScatterDims.resultIdx?
  have hall : ∀ a : Fin 2, 0 ≤ (rowsDims M N C wf).start j idx a + ((rowsDims M N C wf).window j a : Int) ∧
      (rowsDims M N C wf).start j idx a + ((rowsDims M N C wf).window j a : Int)
        < (((⟨2, ![M, C]⟩ : Shape).size a : Nat) : Int) := by
    intro a
    match a with
    | ⟨0, _⟩ =>
      show 0 ≤ (rowsDims M N C wf).start j idx 0 + ((rowsDims M N C wf).window j 0 : Int) ∧
        (rowsDims M N C wf).start j idx 0 + ((rowsDims M N C wf).window j 0 : Int) < ((M : Nat) : Int)
      rw [h0]; exact ⟨by omega, by omega⟩
    | ⟨1, _⟩ =>
      show 0 ≤ (rowsDims M N C wf).start j idx 1 + ((rowsDims M N C wf).window j 1 : Int) ∧
        (rowsDims M N C wf).start j idx 1 + ((rowsDims M N C wf).window j 1 : Int) < ((C : Nat) : Int)
      rw [h1]; exact ⟨by omega, by omega⟩
  rw [dif_pos hall]
  congr 1
  funext a
  refine Fin.ext ?_
  match a with
  | ⟨0, _⟩ =>
    show ((rowsDims M N C wf).start j idx 0 + ((rowsDims M N C wf).window j 0 : Int)).toNat = (j 0).val
    rw [h0]; exact Int.toNat_natCast _
  | ⟨1, _⟩ =>
    show ((rowsDims M N C wf).start j idx 1 + ((rowsDims M N C wf).window j 1 : Int)).toNat = (j 1).val
    rw [h1]; exact Int.toNat_natCast _

/-- THE SCATTER READ AT `(k, c)`: in the first `N` rows the body applied to the operand's entry and the update's
    entry at the same place, below them the operand's entry. The map from update indices to operand indices is
    `(r, c) ↦ (r, c)`: for `k < N` its only preimage of `(k, c)` is `(k, c)` itself, and for `N ≤ k` there is none
    because an update index's row is below `N`. -/
theorem scatter_rows_apply (wf : ScatterDims.WF ⟨2, ![M, C]⟩ ⟨1, ![1]⟩ ⟨2, ![N, C]⟩ [0, 1] [] [0] 0)
    (f : α → α → α) (x : (⟨2, ![M, C]⟩ : Shape).Idx → α) (idx : IVec ⟨1, ![1]⟩ w)
    (hidx : (idx (ix1 0)).toInt = 0) (upd : (⟨2, ![N, C]⟩ : Shape).Idx → α) (k : Fin M) (c : Fin C) :
    Host.scatter (rowsDims M N C wf) f x idx upd (ix2 k c)
      = if h : k.val < N then f (x (ix2 k c)) (upd (ix2 ⟨k.val, h⟩ c)) else x (ix2 k c) := by
  by_cases h : k.val < N
  · rw [dif_pos h]
    refine scatter_apply_of_hit_once (rowsDims M N C wf) f x idx upd (ix2 k c) (ix2 ⟨k.val, h⟩ c) ?_ ?_
    · rw [rows_resultIdx wf idx hidx]; rfl
    · intro j hj
      rw [rows_resultIdx wf idx hidx j] at hj
      have e := Option.some.inj hj
      have e0 : (j 0).val = k.val := congrArg Fin.val (congrFun e 0)
      have e1 : j 1 = c := congrFun e 1
      rw [eq_ix2 j]
      congr 1
      · exact Fin.ext e0
  · rw [dif_neg h]
    refine scatter_apply_of_not_hit (rowsDims M N C wf) f x idx upd (ix2 k c) ?_
    intro j hj
    rw [rows_resultIdx wf idx hidx j] at hj
    have e := Option.some.inj hj
    have e0 : (j 0).val = k.val := congrArg Fin.val (congrFun e 0)
    have := idx2_lt0 j
    omega

end RowsMain

end Cert.LibScatterRows

end
-- ==== Proof.LibScatterAt.lean ====
/-
  A SCATTER WHOSE UPDATE INDICES LAND AT KNOWN, PAIRWISE DISTINCT PLACES, read at an entry.

  `stablehlo.scatter` sends update index `j` to the operand index whose coordinate on every axis is the window's
  start plus the window coordinate of `j`, when that is inside the operand. Two general facts, for any dimension
  numbers:
  * when start plus window coordinate is, axis by axis, the coordinate of a given operand index `i`, the update
    lands at `i` and is not dropped (`resultIdx_of_coords`): the conditions `0 ≤ · < size` hold because `i` is an
    index of the operand;
  * when every update index `j` lands at `g j` for an injective map `g` (one window written at a fixed place,
    whatever its rank), the scatter read at `g j0` is the body applied to the operand's entry and the update's
    entry at `j0` (`scatter_apply_at_image`), and read at an index outside the image of `g` it is the operand's
    entry (`scatter_apply_off_image`): each operand entry meets at most one update of the fold.
-/
import proofs.«122214_j85014582657622_2_alg».proof.Proof.LibScatterRows

noncomputable section

namespace Cert.LibScatterAt

open Idealize.ShloMosaic Idealize.ShloMosaic.ValueIdx

variable {α : Type} {s si u : Shape} {w : Nat}

/-- An update index whose start plus window coordinate is, on every axis, the coordinate of the operand index `i`
    lands at `i`. -/
theorem resultIdx_of_coords (d : ScatterDims s si u) (j : u.Idx) (idx : IVec si w) (i : s.Idx)
    (h : ∀ a, d.start j idx a + (d.window j a : Int) = ((i a).val : Int)) :
    d.resultIdx? j idx = some i := by
  unfold ScatterDims.resultIdx?
  have hall : ∀ a, 0 ≤ d.start j idx a + (d.window j a : Int) ∧
      d.start j idx a + (d.window j a : Int) < ((s.size a : Nat) : Int) := by
    intro a
    rw [h a]
    have := (i a).isLt
    exact ⟨by omega, by omega⟩
  rw [dif_pos hall]
  congr 1
  funext a
  refine Fin.ext ?_
  show (d.start j idx a + (d.window j a : Int)).toNat = (i a).val
  rw [h a]
  exact Int.toNat_natCast _

/-- Every update index `j` lands at `g j`, `g` injective: the entry at `g j0` is the body applied to the operand's
    entry there and the update's entry at `j0`. -/
theorem scatter_apply_at_image (d : ScatterDims s si u) (f : α → α → α) (x : s.Idx → α) (idx : IVec si w)
    (upd : u.Idx → α) (g : u.Idx → s.Idx) (hg : ∀ j, d.resultIdx? j idx = some (g j))
    (hinj : Function.Injective g) (i' : s.Idx) (j0 : u.Idx) (h0 : g j0 = i') :
    Host.scatter d f x idx upd i' = f (x i') (upd j0) := by
  refine Cert.LibScatterRows.scatter_apply_of_hit_once d f x idx upd i' j0 (by rw [hg j0, h0]) ?_
  intro j hj
  rw [hg j] at hj
  exact hinj ((Option.some.inj hj).trans h0.symm)

/-- Every update index `j` lands at `g j`: an entry no `g j` equals keeps the operand's value. -/
theorem scatter_apply_off_image (d : ScatterDims s si u) (f : α → α → α) (x : s.Idx → α) (idx : IVec si w)
    (upd : u.Idx → α) (g : u.Idx → s.Idx) (hg : ∀ j, d.resultIdx? j idx = some (g j))
    (i' : s.Idx) (h : ∀ j, g j ≠ i') :
    Host.scatter d f x idx upd i' = x i' := by
  refine Cert.LibScatterRows.scatter_apply_of_not_hit d f x idx upd i' ?_
  intro j hj
  rw [hg j] at hj
  exact h j (Option.some.inj hj)

end Cert.LibScatterAt

end
-- ==== Proof.RefReadMask.lean ====
/-
  The mask term of the reference: one scatter that adds a `[8, 1024, 32, 1]` window of updates into the
  `[8, 1024, 33, 1]` scores at start index 1 along the entry axis. Update index `(b, s, r, 0)` lands at
  `(b, s, r + 1, 0)`: an injective map that misses exactly the entries with coordinate 0 on the entry
  axis. So entry 0 of a row keeps its score and entry `n ≥ 1` has the update at `n - 1` added.
-/
import proofs.«122214_j85014582657622_2_alg».proof.Proof.Gen.ReferenceIdeal
import proofs.«122214_j85014582657622_2_alg».proof.Proof.LibScatterAt

noncomputable section

namespace Cert.ReferenceIdeal.RefRead

open Cert.ReferenceIdeal Cert.ReferenceIdeal.Gen Idealize.ShloMosaic Idealize.ShloMosaic.ValueIdx

/-- The scatter's dimension numbers with the conditions as a variable: every axis of the updates is a
    window axis, no operand axis is inserted, the one index component is the start on the entry axis. -/
abbrev maskDims (wf : ScatterDims.WF S8x1024x33x1 S1 S8x1024x32x1 [0, 1, 2, 3] [] [2] 0) :
    ScatterDims S8x1024x33x1 S1 S8x1024x32x1 where
  updateWindowDims := [0, 1, 2, 3]
  insertedWindowDims := []
  scatterDimsToOperandDims := [2]
  indexVectorDim := 0
  wf := wf

variable (wf : ScatterDims.WF S8x1024x33x1 S1 S8x1024x32x1 [0, 1, 2, 3] [] [2] 0)

/-- With no inserted axis the operand's kept axes are all four. -/
theorem mask_sKept : (maskDims wf).sKept = [0, 1, 2, 3] := rfl

/-- The window coordinate on each operand axis is the update index's own coordinate. -/
theorem mask_window0 (j : S8x1024x32x1.Idx) : (maskDims wf).window j 0 = (j 0).val := by
  unfold ScatterDims.window
  rw [dif_pos (show (0 : Fin 4) ∈ (maskDims wf).sKept by rw [mask_sKept]; decide)]
  rfl
theorem mask_window1 (j : S8x1024x32x1.Idx) : (maskDims wf).window j 1 = (j 1).val := by
  unfold ScatterDims.window
  rw [dif_pos (show (1 : Fin 4) ∈ (maskDims wf).sKept by rw [mask_sKept]; decide)]
  rfl
theorem mask_window2 (j : S8x1024x32x1.Idx) : (maskDims wf).window j 2 = (j 2).val := by
  unfold ScatterDims.window
  rw [dif_pos (show (2 : Fin 4) ∈ (maskDims wf).sKept by rw [mask_sKept]; decide)]
  rfl
theorem mask_window3 (j : S8x1024x32x1.Idx) : (maskDims wf).window j 3 = (j 3).val := by
  unfold ScatterDims.window
  rw [dif_pos (show (3 : Fin 4) ∈ (maskDims wf).sKept by rw [mask_sKept]; decide)]
  rfl

/-- The window starts at 0 on the axes the index does not name. -/
theorem mask_start0 (idx : IVec S1 32) (j : S8x1024x32x1.Idx) : (maskDims wf).start j idx 0 = 0 := by
  unfold ScatterDims.start
  rw [dif_neg (show (0 : Fin 4) ∉ (maskDims wf).scatterDimsToOperandDims from by
    show (0 : Fin 4) ∉ ([2] : List (Fin 4)); decide)]
theorem mask_start1 (idx : IVec S1 32) (j : S8x1024x32x1.Idx) : (maskDims wf).start j idx 1 = 0 := by
  unfold ScatterDims.start
  rw [dif_neg (show (1 : Fin 4) ∉ (maskDims wf).scatterDimsToOperandDims from by
    show (1 : Fin 4) ∉ ([2] : List (Fin 4)); decide)]
theorem mask_start3 (idx : IVec S1 32) (j : S8x1024x32x1.Idx) : (maskDims wf).start j idx 3 = 0 := by
  unfold ScatterDims.start
  rw [dif_neg (show (3 : Fin 4) ∉ (maskDims wf).scatterDimsToOperandDims from by
    show (3 : Fin 4) ∉ ([2] : List (Fin 4)); decide)]

/-- On the entry axis the window starts at the index's value; the index array holds the word 1
    everywhere. -/
theorem mask_start2 (idx : IVec S1 32) (hidx : ∀ i, idx i = 1#32) (j : S8x1024x32x1.Idx) :
    (maskDims wf).start j idx 2 = 1 := by
  unfold ScatterDims.start
  rw [dif_pos (show (2 : Fin 4) ∈ (maskDims wf).scatterDimsToOperandDims from by
    show (2 : Fin 4) ∈ ([2] : List (Fin 4)); decide), hidx]
  rfl

/-- Where update index `j` lands: one further along the entry axis. -/
def maskTarget (j : S8x1024x32x1.Idx) : S8x1024x33x1.Idx :=
  ix4 (j 0 : Fin 8) (j 1 : Fin 1024)
    (⟨(j 2).val + 1, by have h : (j 2).val < 32 := (j 2).isLt; omega⟩ : Fin 33) (j 3 : Fin 1)

/-- No update is dropped: start plus window coordinate is the target's coordinate on every axis. -/
theorem mask_resultIdx (idx : IVec S1 32) (hidx : ∀ i, idx i = 1#32) (j : S8x1024x32x1.Idx) :
    (maskDims wf).resultIdx? j idx = some (maskTarget j) := by
  refine Cert.LibScatterAt.resultIdx_of_coords (maskDims wf) j idx (maskTarget j) fun a => ?_
  match a with
  | ⟨0, _⟩ =>
    show (maskDims wf).start j idx 0 + ((maskDims wf).window j 0 : Int) = ((j 0).val : Int)
    rw [mask_start0 wf idx j, mask_window0 wf j]; omega
  | ⟨1, _⟩ =>
    show (maskDims wf).start j idx 1 + ((maskDims wf).window j 1 : Int) = ((j 1).val : Int)
    rw [mask_start1 wf idx j, mask_window1 wf j]; omega
  | ⟨2, _⟩ =>
    show (maskDims wf).start j idx 2 + ((maskDims wf).window j 2 : Int) = (((j 2).val + 1 : Nat) : Int)
    rw [mask_start2 wf idx hidx j, mask_window2 wf j]; omega
  | ⟨3, _⟩ =>
    show (maskDims wf).start j idx 3 + ((maskDims wf).window j 3 : Int) = ((j 3).val : Int)
    rw [mask_start3 wf idx j, mask_window3 wf j]; omega

/-- Distinct update indices land at distinct entries. -/
theorem maskTarget_injective : Function.Injective maskTarget := by
  intro j j' e
  funext a
  refine Fin.ext ?_
  match a with
  | ⟨0, _⟩ => exact congrArg Fin.val (congrFun e (0 : Fin 4))
  | ⟨1, _⟩ => exact congrArg Fin.val (congrFun e (1 : Fin 4))
  | ⟨2, _⟩ =>
    have h : (j 2).val + 1 = (j' 2).val + 1 := congrArg Fin.val (congrFun e (2 : Fin 4))
    show (j 2).val = (j' 2).val
    omega
  | ⟨3, _⟩ => exact congrArg Fin.val (congrFun e (3 : Fin 4))

/-- THE SCATTER READ AT `(b, s, n, 0)`: entry 0 keeps the operand's value; entry `n ≥ 1` is the body
    applied to the operand's value and the update at `(b, s, n - 1, 0)`. -/
theorem maskScatter_apply {α : Type} (f : α → α → α) (x : S8x1024x33x1.Idx → α) (idx : IVec S1 32)
    (hidx : ∀ i, idx i = 1#32) (upd : S8x1024x32x1.Idx → α) (b : Fin 8) (s : Fin 1024) (n : Fin 33) :
    Host.scatter scatter_S8x1024x33x1_S1_S8x1024x32x1_0123_n_2_0 f x idx upd (ix4 b s n (0 : Fin 1))
      = if h : n.val = 0 then x (ix4 b s n (0 : Fin 1))
        else f (x (ix4 b s n (0 : Fin 1))) (upd (ix4 b s (⟨n.val - 1, by omega⟩ : Fin 32) (0 : Fin 1))) := by
  show Host.scatter (maskDims scatter_S8x1024x33x1_S1_S8x1024x32x1_0123_n_2_0_wf) f x idx upd _ = _
  by_cases h : n.val = 0
  · rw [dif_pos h]
    refine Cert.LibScatterAt.scatter_apply_off_image _ f x idx upd maskTarget
      (mask_resultIdx _ idx hidx) _ fun j e => ?_
    have h2 : (j 2).val + 1 = n.val := congrArg Fin.val (congrFun e (2 : Fin 4))
    omega
  · rw [dif_neg h]
    refine Cert.LibScatterAt.scatter_apply_at_image _ f x idx upd maskTarget
      (mask_resultIdx _ idx hidx) maskTarget_injective _
      (ix4 b s (⟨n.val - 1, by omega⟩ : Fin 32) (0 : Fin 1)) ?_
    funext a
    refine Fin.ext ?_
    match a with
    | ⟨0, _⟩ => rfl
    | ⟨1, _⟩ => rfl
    | ⟨2, _⟩ => show n.val - 1 + 1 = n.val; omega
    | ⟨3, _⟩ => rfl

end Cert.ReferenceIdeal.RefRead

end
-- ==== Proof.RefReadScores.lean ====
/-
  The attention scores of a row as the reference computes them, read at an entry: the node's own
  embedding spread over the 33 entries and joined with the stacked embeddings along the last axis
  (128 + 128 columns), the product with the one weight row as a sum over the 256 columns split into
  its two halves, the bias spread from one scalar, the entrywise rectifier, and the mask term added
  to the entries 1 … 32.
-/
import proofs.«122214_j85014582657622_2_alg».proof.Proof.RefReadBase
import proofs.«122214_j85014582657622_2_alg».proof.Proof.RefReadMask

open scoped BigOperators

noncomputable section

namespace Cert.ReferenceIdeal.RefRead

open Cert.ReferenceIdeal Cert.ReferenceIdeal.Gen Cert.ReferenceIdeal.RefValue Idealize.ShloMosaic
  Idealize.ShloMosaic.ValueIdx

/-- Two arrays of 128 columns joined along the last axis, read at column `e`: the first below 128,
    the second, 128 columns back, from there on. -/
theorem join2_apply (X0 X1 : FVec Ideal S8x1024x33x128 .f32) (b : Fin 8) (s : Fin 1024) (n : Fin 33)
    (e : Fin 256) :
    concatenate S8x1024x33x256 3 [⟨S8x1024x33x128, X0⟩, ⟨S8x1024x33x128, X1⟩]
        concatenates_S8x1024x33x128_S8x1024x33x128_S8x1024x33x256_d3 (ix4 b s n e)
      = if h : e.val < 128 then X0 (ix4 b s n ⟨e.val, h⟩)
        else X1 (ix4 b s n ⟨e.val - 128, by omega⟩) := by
  by_cases h : e.val < 128
  · rw [dif_pos h]
    refine concatenate_apply_piece (t := S8x1024x33x256) (3 : Fin 4) [⟨S8x1024x33x128, X0⟩, ⟨S8x1024x33x128, X1⟩]
        concatenates_S8x1024x33x128_S8x1024x33x128_S8x1024x33x256_d3 (ix4 b s n e) 0 (by show (0 : Nat) < 2; omega) S8x1024x33x128 X0 rfl rfl 0 rfl
      (ix4 b s n ⟨e.val, h⟩) ?_ ?_
    · intro c hc
      match c, hc with
      | ⟨0, _⟩, _ => rfl
      | ⟨1, _⟩, _ => rfl
      | ⟨2, _⟩, _ => rfl
      | ⟨3, _⟩, hc => exact absurd rfl hc
    · show 0 + e.val = e.val
      omega
  · rw [dif_neg h]
    refine concatenate_apply_piece (t := S8x1024x33x256) (3 : Fin 4) [⟨S8x1024x33x128, X0⟩, ⟨S8x1024x33x128, X1⟩]
        concatenates_S8x1024x33x128_S8x1024x33x128_S8x1024x33x256_d3 (ix4 b s n e) 1 (by show (1 : Nat) < 2; omega) S8x1024x33x128 X1 rfl rfl 128 rfl
      (ix4 b s n ⟨e.val - 128, by omega⟩) ?_ ?_
    · intro c hc
      match c, hc with
      | ⟨0, _⟩, _ => rfl
      | ⟨1, _⟩, _ => rfl
      | ⟨2, _⟩, _ => rfl
      | ⟨3, _⟩, hc => exact absurd rfl hc
    · show 128 + (e.val - 128) = e.val
      omega

/-- The score before the rectifier: the product of the joined row with the weight row, plus the bias. -/
theorem raw_read (v7 : FVec Ideal S8x1024x1x128 .f32) (v15 : FVec Ideal S8x1024x33x128 .f32)
    (a6 : FVec Ideal S1x256 .f32) (a7 : FVec Ideal S1 .f32) (b : Fin 8) (s : Fin 1024) (n : Fin 33) :
    addf
        (Host.dotGeneral (F := Ideal) dot_S8x1024x33x256_S1x256_S8x1024x33x1_3_1_012_0_n_n none
          (concatenate S8x1024x33x256 3
            [⟨S8x1024x33x128, broadcastInDim S8x1024x33x128 ![0, 1, 2, 3]
                bcast_S8x1024x1x128_S8x1024x33x128_0_1_2_3 v7⟩, ⟨S8x1024x33x128, v15⟩]
            concatenates_S8x1024x33x128_S8x1024x33x128_S8x1024x33x256_d3) a6)
        (broadcastInDim S8x1024x33x1 ![0, 1, 2, 3] bcast_S1x1x1x1_S8x1024x33x1_0_1_2_3
          (broadcastInDim S1x1x1x1 ![3] bcast_S1_S1x1x1x1_3 a7)) (ix4 b s n (0 : Fin 1))
      = Cert.Spec.raw (fun k => v7 (ix4 b s (0 : Fin 1) k)) (fun n k => v15 (ix4 b s n k))
          (fun k => a6 (ix2 (0 : Fin 1) k)) (a7 (ix1 (0 : Fin 1))) n := by
  unfold Cert.Spec.raw
  refine congrArg₂ (· + ·) ?_ ?_
  · refine (dot4_apply dot_S8x1024x33x256_S1x256_S8x1024x33x1_3_1_012_0_n_n_wf _ rfl none _ a6 b s n
      (0 : Fin 1)).trans ?_
    refine (Fin.sum_univ_add (a := 128) (b := 128) _).trans ?_
    refine congrArg₂ (· + ·) (Finset.sum_congr rfl fun k _ => ?_) (Finset.sum_congr rfl fun k _ => ?_)
    · refine congrArg₂ (· * ·) ?_ (congrArg a6 (congrArg (ix2 (0 : Fin 1)) (Fin.ext rfl)))
      refine (join2_apply _ _ b s n _).trans ?_
      rw [dif_pos (show (Fin.castAdd 128 k : Fin (128 + 128)).val < 128 from k.isLt)]
      exact Cert.HostRead.bcast_ab1d_abcd _ v7 b s n _
    · refine congrArg₂ (· * ·) ?_ (congrArg a6 (congrArg (ix2 (0 : Fin 1)) (Fin.ext rfl)))
      refine (join2_apply _ _ b s n _).trans ?_
      rw [dif_neg (show ¬ (Fin.natAdd 128 k : Fin (128 + 128)).val < 128 from by
        show ¬ 128 + k.val < 128; omega)]
      exact congrArg v15 (congrArg (ix4 b s n) (Fin.ext (by show 128 + k.val - 128 = k.val; omega)))
  · exact (Cert.HostRead.bcast_111d_abcd _ _ b s n (0 : Fin 1)).trans
      (Cert.HostRead.bcast_d_111d _ a7 (0 : Fin 1) (0 : Fin 1) (0 : Fin 1) (0 : Fin 1))

/-- The masked scores read at entry `(b, s, n, 0)`. -/
theorem scoresArr_apply (v7 : FVec Ideal S8x1024x1x128 .f32) (v15 : FVec Ideal S8x1024x33x128 .f32)
    (a2 : FVec Ideal S8x1024x32x1 .f32) (a6 : FVec Ideal S1x256 .f32) (a7 : FVec Ideal S1 .f32)
    (b : Fin 8) (s : Fin 1024) (n : Fin 33) :
    scoresArr v7 v15 a2 a6 a7 (ix4 b s n (0 : Fin 1))
      = Cert.Spec.scores (fun k => v7 (ix4 b s (0 : Fin 1) k)) (fun n k => v15 (ix4 b s n k))
          (fun n => a2 (ix4 b s n (0 : Fin 1))) (fun k => a6 (ix2 (0 : Fin 1) k)) (a7 (ix1 (0 : Fin 1))) n := by
  unfold scoresArr Cert.Spec.scores Cert.Spec.masked
  refine (maskScatter_apply (FloatOps.addf (F := Ideal)) _ _
    (fun i => broadcastInDim_scalar_apply bcast_S_S1 (constantI S_ 32 1#32) i) _ b s n).trans ?_
  have hsc : ∀ n' : Fin 33,
      leakyArr S8x1024x33x1 bcast_S_S8x1024x33x1
          (addf
            (Host.dotGeneral (F := Ideal) dot_S8x1024x33x256_S1x256_S8x1024x33x1_3_1_012_0_n_n none
              (concatenate S8x1024x33x256 3
                [⟨S8x1024x33x128, broadcastInDim S8x1024x33x128 ![0, 1, 2, 3]
                    bcast_S8x1024x1x128_S8x1024x33x128_0_1_2_3 v7⟩, ⟨S8x1024x33x128, v15⟩]
                concatenates_S8x1024x33x128_S8x1024x33x128_S8x1024x33x256_d3) a6)
            (broadcastInDim S8x1024x33x1 ![0, 1, 2, 3] bcast_S1x1x1x1_S8x1024x33x1_0_1_2_3
              (broadcastInDim S1x1x1x1 ![3] bcast_S1_S1x1x1x1_3 a7)))
          (constant (F := Ideal) S_ .f32 0x3E4CCCCD#32) (ix4 b s n' (0 : Fin 1))
        = Cert.Spec.leaky (Cert.Spec.raw (fun k => v7 (ix4 b s (0 : Fin 1) k)) (fun n k => v15 (ix4 b s n k))
            (fun k => a6 (ix2 (0 : Fin 1) k)) (a7 (ix1 (0 : Fin 1))) n') := fun n' =>
    (leakyArr_apply _ _ _ _).trans (congrArg Cert.Spec.leaky (raw_read v7 v15 a6 a7 b s n'))
  by_cases h : n.val = 0
  · rw [dif_pos h, dif_pos h]
    exact hsc n
  · rw [dif_neg h, dif_neg h]
    refine congrArg₂ (· + ·) (hsc n) ?_
    show a2 (ix4 b s (⟨n.val - 1, _⟩ : Fin 32) (0 : Fin 1))
        * broadcastInDim S8x1024x32x1 ![] bcast_S_S8x1024x32x1 (constant (F := Ideal) S_ .f32 0xCE6E6B28#32)
            (ix4 b s (⟨n.val - 1, _⟩ : Fin 32) (0 : Fin 1)) = _
    rw [broadcastInDim_scalar_apply]
    rfl

end Cert.ReferenceIdeal.RefRead

end
-- ==== Proof.RefReadAtt.lean ====
/-
  The softmax over the 33 entries of a row, as the reference spells it, read at an entry: the maximum
  along the entry axis is the fold of `max` from the word of -∞ (and the further maximum with that word
  changes nothing), the difference, the exponential, the sum along the entry axis from the zero word,
  and the quotient; together the specification's softmax weight.
-/
import proofs.«122214_j85014582657622_2_alg».proof.Proof.RefReadBase

open scoped BigOperators

noncomputable section

namespace Cert.ReferenceIdeal.RefRead

open Cert.ReferenceIdeal Cert.ReferenceIdeal.Gen Cert.ReferenceIdeal.RefValue Idealize.ShloMosaic
  Idealize.ShloMosaic.ValueIdx

/-- The word of -∞ is the least extended real, so the maximum with it is the other operand. -/
theorem max_negInf (x : EReal) : max (Ideal.ofBits .f32 0xFF800000#32) x = x := by
  have hb : Ideal.ofBits .f32 0xFF800000#32 = (⊥ : EReal) := by simp [Ideal.ofBits, Ideal.ieee]
  rw [hb]
  exact max_eq_right bot_le

/-- A per-row value `[8, 1024, 1]` spread over the 33 entries (through `[8, 1024, 1, 1]`) reads the
    row's value at every entry. -/
theorem spread_row (Y : FVec Ideal S8x1024x1 .f32) (b : Fin 8) (s : Fin 1024) (n : Fin 33) :
    broadcastInDim S8x1024x33x1 ![0, 1, 2, 3] bcast_S8x1024x1x1_S8x1024x33x1_0_1_2_3
        (broadcastInDim S8x1024x1x1 ![0, 1, 3] bcast_S8x1024x1_S8x1024x1x1_0_1_3 Y) (ix4 b s n (0 : Fin 1))
      = Y (ix3 b s (0 : Fin 1)) :=
  (Cert.HostRead.bcast_ab1d_abcd _ _ b s n (0 : Fin 1)).trans
    (Cert.HostRead.bcast_abd_ab1d _ _ b s (0 : Fin 1) (0 : Fin 1))

/-- The row's maximum as the reference computes it: the reduction by `max` along the entry axis from
    the word of -∞, then once more the maximum with that word. -/
theorem rowMax_read (v26 : FVec Ideal S8x1024x33x1 .f32) (b : Fin 8) (s : Fin 1024) :
    maximumf (broadcastInDim S8x1024x1 ![] bcast_S_S8x1024x1 (constant (F := Ideal) S_ .f32 0xFF800000#32))
        (Host.reduce (FloatOps.maximumf (F := Ideal)) v26 (constant (F := Ideal) S_ .f32 0xFF800000#32)
          reducesTo_S8x1024x33x1_S8x1024x1_d2 h_S_) (ix3 b s (0 : Fin 1))
      = Cert.Spec.rowMax (fun n => v26 (ix4 b s n (0 : Fin 1))) := by
  show max (broadcastInDim S8x1024x1 ![] bcast_S_S8x1024x1 (constant (F := Ideal) S_ .f32 0xFF800000#32)
        (ix3 b s (0 : Fin 1)))
      (Host.reduce (FloatOps.maximumf (F := Ideal)) v26 (constant (F := Ideal) S_ .f32 0xFF800000#32)
          reducesTo_S8x1024x33x1_S8x1024x1_d2 h_S_ (ix3 b s (0 : Fin 1))) = _
  rw [broadcastInDim_scalar_apply,
    Cert.HostRead.reduceFold4_axis2_apply (FloatOps.maximumf (F := Ideal)) reducesTo_S8x1024x33x1_S8x1024x1_d2
      (by decide) h_S_ v26 _ b s (0 : Fin 1)]
  exact max_negInf _

/-- The exponential of an entry less a per-row value. -/
theorem expShift_read (v26 : FVec Ideal S8x1024x33x1 .f32) (M : FVec Ideal S8x1024x1 .f32)
    (b : Fin 8) (s : Fin 1024) (n : Fin 33) :
    Host.exp (subf v26 (broadcastInDim S8x1024x33x1 ![0, 1, 2, 3] bcast_S8x1024x1x1_S8x1024x33x1_0_1_2_3
        (broadcastInDim S8x1024x1x1 ![0, 1, 3] bcast_S8x1024x1_S8x1024x1x1_0_1_3 M))) (ix4 b s n (0 : Fin 1))
      = Ideal.exp (v26 (ix4 b s n (0 : Fin 1)) - M (ix3 b s (0 : Fin 1))) := by
  show Ideal.exp (v26 (ix4 b s n (0 : Fin 1))
      - broadcastInDim S8x1024x33x1 ![0, 1, 2, 3] bcast_S8x1024x1x1_S8x1024x33x1_0_1_2_3
        (broadcastInDim S8x1024x1x1 ![0, 1, 3] bcast_S8x1024x1_S8x1024x1x1_0_1_3 M) (ix4 b s n (0 : Fin 1))) = _
  rw [spread_row]

/-- The sum along the entry axis from the zero word. -/
theorem rowSum_read (E : FVec Ideal S8x1024x33x1 .f32) (b : Fin 8) (s : Fin 1024) :
    Host.reduceAdd (F := Ideal) E (constant (F := Ideal) S_ .f32 0x00000000#32)
        reducesTo_S8x1024x33x1_S8x1024x1_d2 h_S_ (ix3 b s (0 : Fin 1))
      = ∑ n : Fin 33, E (ix4 b s n (0 : Fin 1)) := by
  rw [Cert.HostRead.reduceAdd4_axis2_apply reducesTo_S8x1024x33x1_S8x1024x1_d2 (by decide) h_S_ E _ b s (0 : Fin 1)]
  show Ideal.ofBits .f32 0x00000000#32 + _ = _
  rw [Ideal.ofBits_zero_f32, zero_add]

/-- The softmax weights read at entry `(b, s, n, 0)`. -/
theorem attArr_apply (v26 : FVec Ideal S8x1024x33x1 .f32) (b : Fin 8) (s : Fin 1024) (n : Fin 33) :
    attArr v26 (ix4 b s n (0 : Fin 1)) = Cert.Spec.att (fun n => v26 (ix4 b s n (0 : Fin 1))) n := by
  unfold attArr Cert.Spec.att Cert.Spec.expShift
  refine (hostDivf_apply _ _ _).trans ?_
  refine congrArg₂ Ideal.div ?_ ?_
  · refine (expShift_read v26 _ b s n).trans ?_
    rw [rowMax_read]
  · refine (spread_row _ b s n).trans ?_
    refine (rowSum_read _ b s).trans ?_
    refine Finset.sum_congr rfl fun n' _ => ?_
    refine (expShift_read v26 _ b s n').trans ?_
    rw [rowMax_read]

end Cert.ReferenceIdeal.RefRead

end
-- ==== Proof.RefReadFeats.lean ====
/-
  The 133 features of a row as the reference builds them, read at an entry: the softmax weights spread
  over the 128 coordinates, the product with the stacked embeddings, the sum along the entry axis, the
  global statistic spread over the positions, and the three pieces laid side by side along the last
  axis (128 + 4 + 1).
-/
import proofs.«122214_j85014582657622_2_alg».proof.Proof.RefReadBase

open scoped BigOperators

noncomputable section

namespace Cert.ReferenceIdeal.RefRead

open Cert.ReferenceIdeal Cert.ReferenceIdeal.Gen Cert.ReferenceIdeal.RefValue Idealize.ShloMosaic
  Idealize.ShloMosaic.ValueIdx

/-- Three arrays of 128, 4 and 1 columns joined along the last axis, read at column `k`: the piece
    whose span holds `k`, at `k` less the columns before it. -/
theorem join3_apply (X0 : FVec Ideal S8x1024x128 .f32) (X1 : FVec Ideal S8x1024x4 .f32)
    (X2 : FVec Ideal S8x1024x1 .f32) (b : Fin 8) (s : Fin 1024) (k : Fin 133) :
    concatenate S8x1024x133 2 [⟨S8x1024x128, X0⟩, ⟨S8x1024x4, X1⟩, ⟨S8x1024x1, X2⟩]
        concatenates_S8x1024x128_S8x1024x4_S8x1024x1_S8x1024x133_d2 (ix3 b s k)
      = if h : k.val < 128 then X0 (ix3 b s ⟨k.val, h⟩)
        else if h2 : k.val < 132 then X1 (ix3 b s ⟨k.val - 128, by omega⟩)
        else X2 (ix3 b s (0 : Fin 1)) := by
  by_cases h : k.val < 128
  · rw [dif_pos h]
    refine concatenate_apply_piece (t := S8x1024x133) (2 : Fin 3) [⟨S8x1024x128, X0⟩, ⟨S8x1024x4, X1⟩, ⟨S8x1024x1, X2⟩]
        concatenates_S8x1024x128_S8x1024x4_S8x1024x1_S8x1024x133_d2 (ix3 b s k) 0 (by show (0 : Nat) < 3; omega) S8x1024x128 X0 rfl rfl 0 rfl
      (ix3 b s ⟨k.val, h⟩) ?_ ?_
    · intro c hc
      match c, hc with
      | ⟨0, _⟩, _ => rfl
      | ⟨1, _⟩, _ => rfl
      | ⟨2, _⟩, hc => exact absurd rfl hc
    · show 0 + k.val = k.val
      omega
  · rw [dif_neg h]
    by_cases h2 : k.val < 132
    · rw [dif_pos h2]
      refine concatenate_apply_piece (t := S8x1024x133) (2 : Fin 3) [⟨S8x1024x128, X0⟩, ⟨S8x1024x4, X1⟩, ⟨S8x1024x1, X2⟩]
        concatenates_S8x1024x128_S8x1024x4_S8x1024x1_S8x1024x133_d2 (ix3 b s k) 1 (by show (1 : Nat) < 3; omega) S8x1024x4 X1 rfl rfl 128 rfl
        (ix3 b s ⟨k.val - 128, by omega⟩) ?_ ?_
      · intro c hc
        match c, hc with
        | ⟨0, _⟩, _ => rfl
        | ⟨1, _⟩, _ => rfl
        | ⟨2, _⟩, hc => exact absurd rfl hc
      · show 128 + (k.val - 128) = k.val
        omega
    · rw [dif_neg h2]
      refine concatenate_apply_piece (t := S8x1024x133) (2 : Fin 3) [⟨S8x1024x128, X0⟩, ⟨S8x1024x4, X1⟩, ⟨S8x1024x1, X2⟩]
        concatenates_S8x1024x128_S8x1024x4_S8x1024x1_S8x1024x133_d2 (ix3 b s k) 2 (by show (2 : Nat) < 3; omega) S8x1024x1 X2 rfl rfl 132 rfl
        (ix3 b s (0 : Fin 1)) ?_ ?_
      · intro c hc
        match c, hc with
        | ⟨0, _⟩, _ => rfl
        | ⟨1, _⟩, _ => rfl
        | ⟨2, _⟩, hc => exact absurd rfl hc
      · have := k.isLt
        show 132 + 0 = k.val
        omega

/-- The weighted sum of the 33 embeddings, coordinate `h`: the weights spread over the coordinates,
    the product, the sum along the entry axis from the zero word. -/
theorem wsum_read (v37 : FVec Ideal S8x1024x33x1 .f32) (v15 : FVec Ideal S8x1024x33x128 .f32)
    (b : Fin 8) (s : Fin 1024) (h : Fin 128) :
    Host.reduceAdd (F := Ideal)
        (mulf (broadcastInDim S8x1024x33x128 ![0, 1, 2, 3] bcast_S8x1024x33x1_S8x1024x33x128_0_1_2_3 v37) v15)
        (constant (F := Ideal) S_ .f32 0x00000000#32) reducesTo_S8x1024x33x128_S8x1024x128_d2 h_S_ (ix3 b s h)
      = Cert.Spec.nodeEmb (fun n h => v15 (ix4 b s n h)) (fun n => v37 (ix4 b s n (0 : Fin 1))) h := by
  rw [Cert.HostRead.reduceAdd4_axis2_apply reducesTo_S8x1024x33x128_S8x1024x128_d2 (by decide) h_S_ _ _ b s h]
  show Ideal.ofBits .f32 0x00000000#32 + _ = _
  rw [Ideal.ofBits_zero_f32, zero_add]
  unfold Cert.Spec.nodeEmb
  refine Finset.sum_congr rfl fun n _ => ?_
  show broadcastInDim S8x1024x33x128 ![0, 1, 2, 3] bcast_S8x1024x33x1_S8x1024x33x128_0_1_2_3 v37 (ix4 b s n h)
      * v15 (ix4 b s n h) = _
  rw [Cert.HostRead.bcast_abc1_abcd]

/-- The features read at entry `(b, s, k)`. -/
theorem featsArr_apply (v37 : FVec Ideal S8x1024x33x1 .f32) (v15 : FVec Ideal S8x1024x33x128 .f32)
    (a3 : FVec Ideal S8x1024x4 .f32) (a4 : FVec Ideal S8x1x1 .f32) (b : Fin 8) (s : Fin 1024) (k : Fin 133) :
    featsArr v37 v15 a3 a4 (ix3 b s k)
      = Cert.Spec.feats
          (Cert.Spec.nodeEmb (fun n h => v15 (ix4 b s n h)) (fun n => v37 (ix4 b s n (0 : Fin 1))))
          (fun j => a3 (ix3 b s j)) (a4 (ix3 b (0 : Fin 1) (0 : Fin 1))) k := by
  unfold featsArr Cert.Spec.feats
  refine (join3_apply _ _ _ b s k).trans ?_
  by_cases h : k.val < 128
  · rw [dif_pos h, dif_pos h]
    exact wsum_read v37 v15 b s ⟨k.val, h⟩
  · rw [dif_neg h, dif_neg h]
    by_cases h2 : k.val < 132
    · rw [dif_pos h2, dif_pos h2]
    · rw [dif_neg h2, dif_neg h2]
      exact Cert.HostRead.bcast_a1c_abc _ a4 b s (0 : Fin 1)

end Cert.ReferenceIdeal.RefRead

end
-- ==== Proof.RefReadDense.lean ====
/-
  One dense layer of the reference read at an entry: the product with the weight matrix contracts the
  feature axis, the bias is spread over the batch and position axes, and the rectifier is entrywise;
  together they are the specification's dense layer of the row of features.
-/
import proofs.«122214_j85014582657622_2_alg».proof.Proof.RefReadBase

open scoped BigOperators

noncomputable section

namespace Cert.ReferenceIdeal.RefRead

open Cert.ReferenceIdeal Cert.ReferenceIdeal.Gen Cert.ReferenceIdeal.RefValue Idealize.ShloMosaic
  Idealize.ShloMosaic.ValueIdx

/-- Entry `(b, s, h)` of a dense layer on `[8, 1024, K]` features with a `[128, K]` weight matrix:
    the rectifier of  Σ_k x(b, s, k) · w(h, k) + bias(h). -/
theorem denseArr_apply {K : Nat}
    (w : DotDims.WF ⟨3, ![8, 1024, K]⟩ ⟨2, ![128, K]⟩ ⟨3, ![8, 1024, 128]⟩ [2] [1] [0, 1] [0] [] [])
    (d : DotDims ⟨3, ![8, 1024, K]⟩ ⟨2, ![128, K]⟩ S8x1024x128)
    (hd : d = ⟨[2], [1], [0, 1], [0], [], [], w⟩)
    (x : FVec Ideal ⟨3, ![8, 1024, K]⟩ .f32) (W : FVec Ideal ⟨2, ![128, K]⟩ .f32) (bv : FVec Ideal S128 .f32)
    (b : Fin 8) (s : Fin 1024) (h : Fin 128) :
    denseArr d x W bv (ix3 b s h)
      = Cert.Spec.dense (fun k => x (ix3 b s k)) (fun q k => W (ix2 q k)) (fun q => bv (ix1 q)) h := by
  unfold denseArr Cert.Spec.dense
  refine (leakyArr_apply _ _ _ _).trans ?_
  refine congrArg Cert.Spec.leaky ?_
  show Host.dotGeneral (F := Ideal) d none x W (ix3 b s h)
      + broadcastInDim S8x1024x128 ![0, 1, 2] bcast_S1x1x128_S8x1024x128_0_1_2
          (broadcastInDim S1x1x128 ![2] bcast_S128_S1x1x128_2 bv) (ix3 b s h) = _
  rw [Cert.HostRead.dot3_apply w d hd, Cert.HostRead.bcast_11c_abc, Cert.HostRead.bcast_c_11c]

/-- The first layer, on the 133 features. -/
theorem dense133_apply (x : FVec Ideal S8x1024x133 .f32) (W : FVec Ideal S128x133 .f32) (bv : FVec Ideal S128 .f32)
    (b : Fin 8) (s : Fin 1024) (h : Fin 128) :
    denseArr dot_S8x1024x133_S128x133_S8x1024x128_2_1_01_0_n_n x W bv (ix3 b s h)
      = Cert.Spec.dense (fun k => x (ix3 b s k)) (fun q k => W (ix2 q k)) (fun q => bv (ix1 q)) h :=
  denseArr_apply dot_S8x1024x133_S128x133_S8x1024x128_2_1_01_0_n_n_wf _ rfl x W bv b s h

/-- The second layer, on the 128 outputs of the first. -/
theorem dense128_apply (x : FVec Ideal S8x1024x128 .f32) (W : FVec Ideal S128x128 .f32) (bv : FVec Ideal S128 .f32)
    (b : Fin 8) (s : Fin 1024) (h : Fin 128) :
    denseArr dot_S8x1024x128_S128x128_S8x1024x128_2_1_01_0_n_n x W bv (ix3 b s h)
      = Cert.Spec.dense (fun k => x (ix3 b s k)) (fun q k => W (ix2 q k)) (fun q => bv (ix1 q)) h :=
  denseArr_apply dot_S8x1024x128_S128x128_S8x1024x128_2_1_01_0_n_n_wf _ rfl x W bv b s h

end Cert.ReferenceIdeal.RefRead

end
-- ==== Proof.RefRead.lean ====
/-
  The reference's operations after the stacked embeddings ARE the specification: entry `(b, s, h)` of
  the result is coordinate `h` of the row of `(b, s)`. The stages are read one inside the other: the
  second dense layer of the first dense layer of the features of the softmax of the masked scores.
-/
import proofs.«122214_j85014582657622_2_alg».proof.Proof.RefReadScores
import proofs.«122214_j85014582657622_2_alg».proof.Proof.RefReadAtt
import proofs.«122214_j85014582657622_2_alg».proof.Proof.RefReadFeats
import proofs.«122214_j85014582657622_2_alg».proof.Proof.RefReadDense

open scoped BigOperators

noncomputable section

namespace Cert.ReferenceIdeal.RefRead

open Cert.ReferenceIdeal Cert.ReferenceIdeal.Gen Cert.ReferenceIdeal.RefValue Idealize.ShloMosaic
  Idealize.ShloMosaic.ValueIdx

theorem tail_eq_G (v7 : FVec Ideal S8x1024x1x128 .f32) (v15 : FVec Ideal S8x1024x33x128 .f32)
    (a2 : FVec Ideal S8x1024x32x1 .f32) (a3 : FVec Ideal S8x1024x4 .f32) (a4 : FVec Ideal S8x1x1 .f32)
    (a6 : FVec Ideal S1x256 .f32) (a7 : FVec Ideal S1 .f32) (a8 : FVec Ideal S128x133 .f32)
    (a9 : FVec Ideal S128 .f32) (a10 : FVec Ideal S128x128 .f32) (a11 : FVec Ideal S128 .f32) :
    tail v7 v15 a2 a3 a4 a6 a7 a8 a9 a10 a11
      = Cert.Spec.G (fun b s k => v7 (ix4 b s (0 : Fin 1) k)) (fun b s n k => v15 (ix4 b s n k))
          (fun b s n => a2 (ix4 b s n (0 : Fin 1))) (fun b s j => a3 (ix3 b s j))
          (fun b _ => a4 (ix3 b (0 : Fin 1) (0 : Fin 1)))
          (fun k => a6 (ix2 (0 : Fin 1) k)) (a7 (ix1 (0 : Fin 1))) (fun q k => a8 (ix2 q k)) (fun q => a9 (ix1 q))
          (fun q k => a10 (ix2 q k)) (fun q => a11 (ix1 q)) := by
  funext i
  obtain ⟨b, s, h, rfl⟩ : ∃ (b : Fin 8) (s : Fin 1024) (h : Fin 128), i = ix3 b s h :=
    ⟨i 0, i 1, i 2, eq_ix3 i⟩
  unfold tail
  show _ = Cert.Spec.row (fun k => v7 (ix4 b s (0 : Fin 1) k)) (fun n k => v15 (ix4 b s n k))
      (fun n => a2 (ix4 b s n (0 : Fin 1))) (fun j => a3 (ix3 b s j)) (a4 (ix3 b (0 : Fin 1) (0 : Fin 1)))
      (fun k => a6 (ix2 (0 : Fin 1) k)) (a7 (ix1 (0 : Fin 1))) (fun q k => a8 (ix2 q k)) (fun q => a9 (ix1 q))
      (fun q k => a10 (ix2 q k)) (fun q => a11 (ix1 q)) h
  unfold Cert.Spec.row Cert.Spec.rowFeats
  refine (dense128_apply _ a10 a11 b s h).trans ?_
  refine congrArg (fun x => Cert.Spec.dense x (fun q k => a10 (ix2 q k)) (fun q => a11 (ix1 q)) h) ?_
  funext k
  refine (dense133_apply _ a8 a9 b s k).trans ?_
  refine congrArg (fun x => Cert.Spec.dense x (fun q k => a8 (ix2 q k)) (fun q => a9 (ix1 q)) k) ?_
  funext k'
  refine (featsArr_apply _ v15 a3 a4 b s k').trans ?_
  refine congrArg (fun a => Cert.Spec.feats (Cert.Spec.nodeEmb (fun n h => v15 (ix4 b s n h)) a)
    (fun j => a3 (ix3 b s j)) (a4 (ix3 b (0 : Fin 1) (0 : Fin 1))) k') ?_
  funext n
  refine (attArr_apply _ b s n).trans ?_
  refine congrArg (fun sc => Cert.Spec.att sc n) ?_
  funext n'
  exact scoresArr_apply v7 v15 a2 a6 a7 b s n'

end Cert.ReferenceIdeal.RefRead

end
-- ==== Proof.Bridge.lean ====
/-
  The two sides meet.

  The reference's result is its tail function of the stack of gathered embeddings; the kernel's result array is the
  row-by-row function of the arrays its region stages. Both programs build the stack by the same two gathers and the
  same join, so the stacks are one array; entry 0 of the stack is the node's own embedding; and the statistic the
  kernel stages, spread over the positions on the host, reads at (b, s) as the statistic of batch b. With these the
  tail function, read entry by entry, is the kernel's function.
-/
import proofs.«122214_j85014582657622_2_alg».proof.Proof.KernelPrefix
import proofs.«122214_j85014582657622_2_alg».proof.Proof.RefOut
import proofs.«122214_j85014582657622_2_alg».proof.Proof.RefRead
import proofs.«122214_j85014582657622_2_alg».proof.Proof.Spec

noncomputable section

namespace Cert.Bridge

open Idealize.ShloMosaic Idealize.ShloMosaic.ValueIdx
open Cert.KernelIdeal (S8x1024 S8x1024x32 S8x1024x32x1 S8x1024x4 S8x1x1 S100001x128 S1x256 S1 S128x133 S128 S128x128
  S8x1024x33x128 S8x1024x1 S8x1024x128)

/-- Both programs build the stack of embeddings by the same operations. -/
theorem stack_eq (a0 : IVec S8x1024 32) (a1 : IVec S8x1024x32 32) (a5 : FVec Ideal S100001x128 .f32) :
    Cert.KernelIdeal.KPrefix.neArr a0 a1 a5 = Cert.ReferenceIdeal.RefOut.neArr a0 a1 a5 := rfl

/-- The reference's tail function of the stack is the kernel's function of the arrays its region stages, whenever
    those are the stack (`h15`) and the spread statistic (`h16`). -/
theorem tail_eq (a0 : IVec S8x1024 32) (a1 : IVec S8x1024x32 32) (a2 : FVec Ideal S8x1024x32x1 .f32)
    (a3 : FVec Ideal S8x1024x4 .f32) (a4 : FVec Ideal S8x1x1 .f32) (a5 : FVec Ideal S100001x128 .f32)
    (a6 : FVec Ideal S1x256 .f32) (a7 : FVec Ideal S1 .f32) (a8 : FVec Ideal S128x133 .f32)
    (a9 : FVec Ideal S128 .f32) (a10 : FVec Ideal S128x128 .f32) (a11 : FVec Ideal S128 .f32)
    (w15 : S8x1024x33x128.Idx → EReal) (w16 : S8x1024x1.Idx → EReal)
    (h15 : w15 = Cert.KernelIdeal.KPrefix.neArr a0 a1 a5)
    (h16 : w16 = broadcastInDim S8x1024x1 ![0, 1, 2] Cert.KernelIdeal.Facts₀.bcast_S8x1x1_S8x1024x1_0_1_2 a4) :
    Cert.ReferenceIdeal.RefValue.tail (Cert.ReferenceIdeal.RefOut.srcArr a0 a5) (Cert.ReferenceIdeal.RefOut.neArr a0 a1 a5)
        a2 a3 a4 a6 a7 a8 a9 a10 a11
      = Cert.Spec.G (fun b s k => w15 (ix4 b s (0 : Fin 33) k)) (fun b s n k => w15 (ix4 b s n k))
          (fun b s n => a2 (ix4 b s n (0 : Fin 1))) (fun b s j => a3 (ix3 b s j))
          (fun b s => w16 (ix3 b s (0 : Fin 1)))
          (fun k => a6 (ix2 (0 : Fin 1) k)) (a7 (ix1 (0 : Fin 1))) (fun q k => a8 (ix2 q k)) (fun q => a9 (ix1 q))
          (fun q k => a10 (ix2 q k)) (fun q => a11 (ix1 q)) := by
  subst h15 h16
  rw [Cert.ReferenceIdeal.RefRead.tail_eq_G]
  have e1 : (fun (b : Fin 8) (s : Fin 1024) (k : Fin 128) => Cert.ReferenceIdeal.RefOut.srcArr a0 a5 (ix4 b s (0 : Fin 1) k))
      = fun b s k => Cert.KernelIdeal.KPrefix.neArr a0 a1 a5 (ix4 b s (0 : Fin 33) k) := by
    funext b s k
    rw [stack_eq, Cert.ReferenceIdeal.RefOut.neArr_zero]
  have e2 : (fun (b : Fin 8) (_ : Fin 1024) => a4 (ix3 b (0 : Fin 1) (0 : Fin 1)))
      = fun b s => broadcastInDim S8x1024x1 ![0, 1, 2] Cert.KernelIdeal.Facts₀.bcast_S8x1x1_S8x1024x1_0_1_2 a4 (ix3 b s (0 : Fin 1)) := by
    funext b s
    exact (Cert.KernelIdeal.KPrefix.spread_stat a4 b s).symm
  rw [e1, e2, stack_eq]

end Cert.Bridge

end
-- ==== Proof.Claims.lean ====
/-
  The five claims.

  The two kernel programs' frames are their generated frame runs. The reference has no kernel: its frame is its run
  with the result dropped. Nothing was rewritten on the way from the kernel to its idealization. At the ideal values
  the kernel's result array is the row-by-row function of the arrays its region stages, the reference's result is
  its tail function of the stack of embeddings, and the two are one function of arguments that agree.
-/
import proofs.«122214_j85014582657622_2_alg».proof.Defs
import proofs.«122214_j85014582657622_2_alg».proof.Proof.Gen.Kernel.Frame
import proofs.«122214_j85014582657622_2_alg».proof.Proof.Gen.KernelIdeal.Frame
import proofs.«122214_j85014582657622_2_alg».proof.Proof.Gen.Pre_finite_inputs
import proofs.«122214_j85014582657622_2_alg».proof.Proof.KernelFinal
import proofs.«122214_j85014582657622_2_alg».proof.Proof.RefValueRun
import proofs.«122214_j85014582657622_2_alg».proof.Proof.Bridge

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValueRun.run m ρ)

theorem preserves : Cert.preserves_Kernel_KernelIdeal := trivial

/-- From memories that agree on the arguments both idealized programs run, and end with the same result array. -/
theorem algebraic : Cert.algebraic_KernelIdeal_ReferenceIdeal := by
  intro m ρ m' ρ' _ hagree
  refine ⟨_, Cert.KernelIdeal.KFinal.run m ρ, ?_⟩
  refine (θ_run Cert.ReferenceIdeal.defs _ _).mono (fun _ h c => ⟨(h c).1.trans ?_, (h c).2⟩)
    (Cert.ReferenceIdeal.RefValueRun.run m' ρ')
  obtain ⟨h0, h1, h2, h3, h4, h5, h6, h7, h8, h9, h10, h11⟩ := hagree c
  rw [h0, h1, h2, h3, h4, h5, h6, h7, h8, h9, h10, h11]
  exact Cert.Bridge.tail_eq _ _ _ _ _ _ _ _ _ _ _ _ _ _
    (Cert.KernelIdeal.KPrefix.V_v15 m c) (Cert.KernelIdeal.KPrefix.V_v16 m c)

end Cert.Proof.Claims

end
-- ==== Proof.lean ====
/-
  The proof of `Cert.Claim`: a graph-attention node encoder — two row gathers from an embedding table, attention
  scores over a node and its 32 neighbours, a masked softmax, the weighted sum of the embeddings, and a two-layer
  head — as a tiled kernel over blocks of 512 positions against the plain array program.

  The frames of the two kernel programs are generated; the reference's frame and the value claim are in
  Proof/Claims.lean, over: Proof/Spec.lean (the one function both sides compute, row by row, on the extended reals),
  Proof/KernelRow*.lean and Proof/KernelFinal.lean (a block's rows are the function's rows; from blocks to the whole
  array), Proof/KernelPrefix.lean (what the host operations before the region leave in the staged arrays),
  Proof/RefRun.lean, Proof/RefOut.lean, Proof/RefValueRun.lean (the reference's run and what it leaves in the result),
  Proof/RefTail.lean and Proof/RefRead*.lean (the reference's operations after the gathers, read entry by entry),
  and Proof/Bridge.lean (the two sides meet). The witnesses of the programs' stated facts are the generated instances.
-/
import proofs.«122214_j85014582657622_2_alg».proof.Defs
import proofs.«122214_j85014582657622_2_alg».proof.Proof.Claims
import proofs.«122214_j85014582657622_2_alg».proof.Proof.Gen.Kernel
import proofs.«122214_j85014582657622_2_alg».proof.Proof.Gen.KernelIdeal
import proofs.«122214_j85014582657622_2_alg».proof.Proof.Gen.ReferenceIdeal
import proofs.«122214_j85014582657622_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
